-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x64 : Shape := ⟨2, ![4096, 64]⟩
abbrev S500001x256 : Shape := ⟨2, ![500001, 256]⟩
abbrev S100000x256 : Shape := ⟨2, ![100000, 256]⟩
abbrev S100000 : Shape := ⟨1, ![100000]⟩
abbrev S256x32 : Shape := ⟨2, ![256, 32]⟩
abbrev S32x256 : Shape := ⟨2, ![32, 256]⟩
abbrev S256x256 : Shape := ⟨2, ![256, 256]⟩
abbrev S256 : Shape := ⟨1, ![256]⟩
abbrev S256x1 : Shape := ⟨2, ![256, 1]⟩
abbrev S512x2 : Shape := ⟨2, ![512, 2]⟩
abbrev S_ : Shape := ⟨0, ![]⟩

class Facts : Prop where
  bcast_S_S500001x256 : S_.BroadcastsInDim S500001x256 (![] : Fin 0 → Fin S500001x256.rank)
  reducesTo_S500001x256_S_d0_1 : S500001x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S100000 : S_.BroadcastsInDim S100000 (![] : Fin 0 → Fin S100000.rank)
  reducesTo_S100000_S_d0 : S100000.ReducesTo [0] S_
  bcast_S_S256x32 : S_.BroadcastsInDim S256x32 (![] : Fin 0 → Fin S256x32.rank)
  reducesTo_S256x32_S_d0_1 : S256x32.ReducesTo [0, 1] S_
  bcast_S_S32x256 : S_.BroadcastsInDim S32x256 (![] : Fin 0 → Fin S32x256.rank)
  reducesTo_S32x256_S_d0_1 : S32x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S512x2 : S_.BroadcastsInDim S512x2 (![] : Fin 0 → Fin S512x2.rank)
  reducesTo_S512x2_S_d0_1 : S512x2.ReducesTo [0, 1] S_

variable [Facts]

def fn_part2 {F : FTy → Type} [FloatOps F] (main_arg10 : FVec F S256x1 .f32) (main_arg11 : FVec F S512x2 .f32) (main_v33 : IVec S_ 1) : IVec S_ 1 :=
  let main_v34 : FVec F S256x1 .f32 := Host.absf main_arg10
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S512x2 .f32 := Host.absf main_arg11
  let main_cst_14 : FVec F S_ .f32 := constant S_ .f32 0x7F800000#32
  let main_v40 : FVec F S512x2 .f32 := broadcastInDim S512x2 ![] bcast_S_S512x2 main_cst_14
  let main_v41 : IVec S512x2 1 := cmpf .olt main_v39 main_v40
  let main_c_15 : IVec S_ 1 := constantI S_ 1 1#1
  let main_v42 : IVec S_ 1 := (fun x v => Host.reduce IntOp.andi x v reducesTo_S512x2_S_d0_1 h_S_) main_v41 main_c_15
  let main_v43 : IVec S_ 1 := andi main_v38 main_v42
  main_v43

def fn_part1 {F : FTy → Type} [FloatOps F] (main_arg7 : FVec F S32x256 .f32) (main_arg8 : FVec F S256x256 .f32) (main_arg9 : FVec F S256 .f32) (main_arg10 : FVec F S256x1 .f32) (main_arg11 : FVec F S512x2 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32x256 .f32 := Host.absf main_arg7
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_v33

def fn {F : FTy → Type} [FloatOps F] (main_arg0 : IVec S4096 32) (main_arg1 : IVec S4096 32) (main_arg2 : IVec S4096x64 32) (main_arg3 : FVec F S500001x256 .f32) (main_arg4 : FVec F S100000x256 .f32) (main_arg5 : FVec F S100000 .f32) (main_arg6 : FVec F S256x32 .f32) (main_arg7 : FVec F S32x256 .f32) (main_arg8 : FVec F S256x256 .f32) (main_arg9 : FVec F S256 .f32) (main_arg10 : FVec F S256x1 .f32) (main_arg11 : FVec F S512x2 .f32) : IVec S_ 1 :=
  let main_v0 : FVec F S500001x256 .f32 := Host.absf main_arg3
  let main_cst : FVec F S_ .f32 := constant S_ .f32 0x7F800000#32
  let main_v1 : FVec F S500001x256 .f32 := broadcastInDim S500001x256 ![] bcast_S_S500001x256 main_cst
  let main_v2 : IVec S500001x256 1 := cmpf .olt main_v0 main_v1
  let main_c : IVec S_ 1 := constantI S_ 1 1#1
  let main_v3 : IVec S_ 1 := (fun x v => Host.reduce IntOp.andi x v reducesTo_S500001x256_S_d0_1 h_S_) main_v2 main_c
  let main_v4 : FVec F S100000x256 .f32 := Host.absf main_arg4
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000 .f32 := Host.absf main_arg5
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S256x32 .f32 := Host.absf main_arg6
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg7 main_arg8 main_arg9 main_arg10 main_arg11 main_v13 main_v16
-- ==== Kernel.lean ====
abbrev S4096 : Shape := ⟨1, ![4096]⟩
abbrev S4096x64 : Shape := ⟨2, ![4096, 64]⟩
abbrev S500001x256 : Shape := ⟨2, ![500001, 256]⟩
abbrev S100000x256 : Shape := ⟨2, ![100000, 256]⟩
abbrev S100000 : Shape := ⟨1, ![100000]⟩
abbrev S256x32 : Shape := ⟨2, ![256, 32]⟩
abbrev S32x256 : Shape := ⟨2, ![32, 256]⟩
abbrev S256x256 : Shape := ⟨2, ![256, 256]⟩
abbrev S256 : Shape := ⟨1, ![256]⟩
abbrev S256x1 : Shape := ⟨2, ![256, 1]⟩
abbrev S512x2 : Shape := ⟨2, ![512, 2]⟩
abbrev S_ : Shape := ⟨0, ![]⟩
abbrev S4096x1 : Shape := ⟨2, ![4096, 1]⟩
abbrev S4096x256 : Shape := ⟨2, ![4096, 256]⟩
abbrev S4096x64x1 : Shape := ⟨3, ![4096, 64, 1]⟩
abbrev S4096x64x256 : Shape := ⟨3, ![4096, 64, 256]⟩
abbrev S1x256 : Shape := ⟨2, ![1, 256]⟩
abbrev S256x2 : Shape := ⟨2, ![256, 2]⟩
abbrev S2x64x32 : Shape := ⟨3, ![2, 64, 32]⟩
abbrev S64x256 : Shape := ⟨2, ![64, 256]⟩
abbrev S64x64x256 : Shape := ⟨3, ![64, 64, 256]⟩
abbrev S64x64 : Shape := ⟨2, ![64, 64]⟩
abbrev S1x64x32 : Shape := ⟨3, ![1, 64, 32]⟩
abbrev S64x64x1 : Shape := ⟨3, ![64, 64, 1]⟩
abbrev S64 : Shape := ⟨1, ![64]⟩
abbrev S64x1 : Shape := ⟨2, ![64, 1]⟩
abbrev S64x1x256 : Shape := ⟨3, ![64, 1, 256]⟩
abbrev S4096x32 : Shape := ⟨2, ![4096, 32]⟩
abbrev S64x64x32 : Shape := ⟨3, ![64, 64, 32]⟩
abbrev S64x32 : Shape := ⟨2, ![64, 32]⟩
abbrev S32x64x256 : Shape := ⟨3, ![32, 64, 256]⟩
abbrev S32x64 : Shape := ⟨2, ![32, 64]⟩
abbrev S32x1 : Shape := ⟨2, ![32, 1]⟩
abbrev S32x64x1 : Shape := ⟨3, ![32, 64, 1]⟩
abbrev S32 : Shape := ⟨1, ![32]⟩
abbrev S32x1x256 : Shape := ⟨3, ![32, 1, 256]⟩
abbrev S2048x256 : Shape := ⟨2, ![2048, 256]⟩
abbrev S2048x32 : Shape := ⟨2, ![2048, 32]⟩
abbrev S32x64x32 : Shape := ⟨3, ![32, 64, 32]⟩
abbrev S2048 : Shape := ⟨1, ![2048]⟩
abbrev S2048x1 : Shape := ⟨2, ![2048, 1]⟩
abbrev S32x1x1 : Shape := ⟨3, ![32, 1, 1]⟩
abbrev S32x2 : Shape := ⟨2, ![32, 2]⟩

abbrev nBuf : Space → Nat
  | .hbm => 81
  | .vmem => 32
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x64, .i32⟩
  | .hbm, ⟨3, _⟩ => ⟨S500001x256, .f32⟩
  | .hbm, ⟨4, _⟩ => ⟨S100000x256, .f32⟩
  | .hbm, ⟨5, _⟩ => ⟨S100000, .f32⟩
  | .hbm, ⟨6, _⟩ => ⟨S256x32, .f32⟩
  | .hbm, ⟨7, _⟩ => ⟨S32x256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S512x2, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x256, .f32⟩
  | .hbm, ⟨21, _⟩ => ⟨S4096x256, .bf16⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x256, .f32⟩
  | .hbm, ⟨31, _⟩ => ⟨S4096x256, .bf16⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096, .f32⟩
  | .hbm, ⟨41, _⟩ => ⟨S4096x1, .f32⟩
  | .hbm, ⟨42, _⟩ => ⟨S_, .i32⟩
  | .hbm, ⟨43, _⟩ => ⟨S4096x64, .i32⟩
  | .hbm, ⟨44, _⟩ => ⟨S4096x64, .i1⟩
  | .hbm, ⟨45, _⟩ => ⟨S_, .i32⟩
  | .hbm, ⟨46, _⟩ => ⟨S4096x64, .i32⟩
  | .hbm, ⟨47, _⟩ => ⟨S4096x64, .i32⟩
  | .hbm, ⟨48, _⟩ => ⟨S4096x64, .i32⟩
  | .hbm, ⟨49, _⟩ => ⟨S4096x64x1, .i32⟩
  | .hbm, ⟨50, _⟩ => ⟨S4096x64x256, .f32⟩
  | .hbm, ⟨51, _⟩ => ⟨S4096x64x256, .bf16⟩
  | .hbm, ⟨52, _⟩ => ⟨S_, .i32⟩
  | .hbm, ⟨53, _⟩ => ⟨S4096x64, .i32⟩
  | .hbm, ⟨54, _⟩ => ⟨S4096x64, .i1⟩
  | .hbm, ⟨55, _⟩ => ⟨S4096x64, .f32⟩
  | .hbm, ⟨56, _⟩ => ⟨S1x256, .f32⟩
  | .hbm, ⟨57, _⟩ => ⟨S256x2, .f32⟩
  | .hbm, ⟨58, _⟩ => ⟨S256x2, .f32⟩
  | .hbm, ⟨59, _⟩ => ⟨S256, .f32⟩
  | .hbm, ⟨60, _⟩ => ⟨S1x256, .f32⟩
  | .hbm, ⟨61, _⟩ => ⟨S2x64x32, .f32⟩
  | .hbm, ⟨62, _⟩ => ⟨S2x64x32, .f32⟩
  | .hbm, ⟨63, _⟩ => ⟨S1x64x32, .f32⟩
  | .hbm, ⟨64, _⟩ => ⟨S64x32, .f32⟩
  | .hbm, ⟨65, _⟩ => ⟨S1x64x32, .f32⟩
  | .hbm, ⟨66, _⟩ => ⟨S64x32, .f32⟩
  | .hbm, ⟨67, _⟩ => ⟨S1x64x32, .f32⟩
  | .hbm, ⟨68, _⟩ => ⟨S64x32, .f32⟩
  | .hbm, ⟨69, _⟩ => ⟨S1x64x32, .f32⟩
  | .hbm, ⟨70, _⟩ => ⟨S64x32, .f32⟩
  | .hbm, ⟨71, _⟩ => ⟨S64x32, .f32⟩
  | .hbm, ⟨72, _⟩ => ⟨S64x32, .f32⟩
  | .hbm, ⟨73, _⟩ => ⟨S64x32, .f32⟩
  | .hbm, ⟨74, _⟩ => ⟨S64x32, .f32⟩
  | .hbm, ⟨75, _⟩ => ⟨S64x32, .f32⟩
  | .hbm, ⟨76, _⟩ => ⟨S64x32, .f32⟩
  | .hbm, ⟨77, _⟩ => ⟨S64x32, .f32⟩
  | .hbm, ⟨78, _⟩ => ⟨S64x32, .f32⟩
  | .hbm, ⟨79, _⟩ => ⟨S4096x1, .f32⟩
  | .hbm, ⟨80, _⟩ => ⟨S4096, .f32⟩
  | .local _ .vmem, ⟨0, _⟩ => ⟨S64x256, .bf16⟩
  | .local _ .vmem, ⟨1, _⟩ => ⟨S64x256, .bf16⟩
  | .local _ .vmem, ⟨2, _⟩ => ⟨S64x64x256, .bf16⟩
  | .local _ .vmem, ⟨3, _⟩ => ⟨S64x64x256, .bf16⟩
  | .local _ .vmem, ⟨4, _⟩ => ⟨S64x64, .f32⟩
  | .local _ .vmem, ⟨5, _⟩ => ⟨S64x64, .f32⟩
  | .local _ .vmem, ⟨6, _⟩ => ⟨S256x32, .f32⟩
  | .local _ .vmem, ⟨7, _⟩ => ⟨S1x64x32, .f32⟩
  | .local _ .vmem, ⟨8, _⟩ => ⟨S1x64x32, .f32⟩
  | .local _ .vmem, ⟨9, _⟩ => ⟨S1x64x32, .f32⟩
  | .local _ .vmem, ⟨10, _⟩ => ⟨S1x64x32, .f32⟩
  | .local _ .vmem, ⟨11, _⟩ => ⟨S32x256, .bf16⟩
  | .local _ .vmem, ⟨12, _⟩ => ⟨S32x256, .bf16⟩
  | .local _ .vmem, ⟨13, _⟩ => ⟨S32x64x256, .bf16⟩
  | .local _ .vmem, ⟨14, _⟩ => ⟨S32x64x256, .bf16⟩
  | .local _ .vmem, ⟨15, _⟩ => ⟨S32x64, .f32⟩
  | .local _ .vmem, ⟨16, _⟩ => ⟨S32x64, .f32⟩
  | .local _ .vmem, ⟨17, _⟩ => ⟨S32x256, .bf16⟩
  | .local _ .vmem, ⟨18, _⟩ => ⟨S32x256, .bf16⟩
  | .local _ .vmem, ⟨19, _⟩ => ⟨S32x1, .f32⟩
  | .local _ .vmem, ⟨20, _⟩ => ⟨S32x1, .f32⟩
  | .local _ .vmem, ⟨21, _⟩ => ⟨S64x32, .f32⟩
  | .local _ .vmem, ⟨22, _⟩ => ⟨S64x32, .f32⟩
  | .local _ .vmem, ⟨23, _⟩ => ⟨S256x32, .f32⟩
  | .local _ .vmem, ⟨24, _⟩ => ⟨S32x256, .f32⟩
  | .local _ .vmem, ⟨25, _⟩ => ⟨S256x256, .f32⟩
  | .local _ .vmem, ⟨26, _⟩ => ⟨S1x256, .f32⟩
  | .local _ .vmem, ⟨27, _⟩ => ⟨S1x256, .f32⟩
  | .local _ .vmem, ⟨28, _⟩ => ⟨S256x2, .f32⟩
  | .local _ .vmem, ⟨29, _⟩ => ⟨S256x2, .f32⟩
  | .local _ .vmem, ⟨30, _⟩ => ⟨S32x1, .f32⟩
  | .local _ .vmem, ⟨31, _⟩ => ⟨S32x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40_0 : Ref sig .tc := ⟨.hbm, 61, rfl⟩
abbrev main_v40_1 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg14_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem14_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x64x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x2 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x2 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S32x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S256_S1x256_1 : S256.BroadcastsInDim S1x256 (![1] : Fin 1 → Fin S1x256.rank)
  slices_S512x2_S256x2_0_0 : S512x2.Slices ![0, 0] S256x2
  slices_S512x2_S256x2_256_0 : S512x2.Slices ![256, 0] S256x2
  shapeCasts_S256x1_S256 : S256x1.ShapeCasts S256
  inb_S1x64x32_S1x64x32_0_0_0 : ∀ a, (![0, 0, 0] : Fin 3 → Nat) a + S1x64x32.size a ≤ S1x64x32.size a
  h_S1x64x32 : 0 < S1x64x32.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x64x256_S64x64x256_0_0_0 : ∀ a, (![0, 0, 0] : Fin 3 → Nat) a + S64x64x256.size a ≤ S64x64x256.size a
  h_S64x64x256 : 0 < S64x64x256.numel
  shapeCasts_S64x64x256_S64x64x256 : S64x64x256.ShapeCasts S64x64x256
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x32_S256x32_0_0 : ∀ a, (![0, 0] : Fin 2 → Nat) a + S256x32.size a ≤ S256x32.size a
  h_S256x32 : 0 < S256x32.numel
  shapeCasts_S64x64_S64x64x1 : S64x64.ShapeCasts S64x64x1
  broadcasts_S64x64x1_S64x64x256 : S64x64x1.Broadcasts S64x64x256
  reduces_S64x256_S64 : S64x256.Reduces [1] S64
  shapeCasts_S64_S64x1 : S64.ShapeCasts S64x1
  broadcasts_S64x1_S64x256 : S64x1.Broadcasts S64x256
  reduces_S64x64x256_S64x64 : S64x64x256.Reduces [2] S64x64
  shapeCasts_S64x256_S64x1x256 : S64x256.ShapeCasts S64x1x256
  broadcasts_S64x1x256_S64x64x256 : S64x1x256.Broadcasts S64x64x256
  shapeCasts_S64x64x256_S4096x256 : S64x64x256.ShapeCasts S4096x256
  shapeCasts_S4096x32_S64x64x32 : S4096x32.ShapeCasts S64x64x32
  shapeCasts_S1x64x32_S1x64x32 : S1x64x32.ShapeCasts S1x64x32
  reduces_S64x64x32_S64x32 : S64x64x32.Reduces [0] S64x32
  shapeCasts_S64x32_S1x64x32 : S64x32.ShapeCasts S1x64x32
  broadcasts_S1x64x32_S64x64x32 : S1x64x32.Broadcasts S64x64x32
  slices_S2x64x32_S1x64x32_0_0_0 : S2x64x32.Slices ![0, 0, 0] S1x64x32
  shapeCasts_S1x64x32_S64x32 : S1x64x32.ShapeCasts S64x32
  slices_S2x64x32_S1x64x32_1_0_0 : S2x64x32.Slices ![1, 0, 0] S1x64x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x64_S32x64x1 : S32x64.ShapeCasts S32x64x1
  broadcasts_S32x64x1_S32x64x256 : S32x64x1.Broadcasts S32x64x256
  reduces_S32x256_S32 : S32x256.Reduces [1] S32
  shapeCasts_S32_S32x1 : S32.ShapeCasts S32x1
  broadcasts_S32x1_S32x256 : S32x1.Broadcasts S32x256
  reduces_S32x64x256_S32x64 : S32x64x256.Reduces [2] S32x64
  shapeCasts_S32x256_S32x1x256 : S32x256.ShapeCasts S32x1x256
  broadcasts_S32x1x256_S32x64x256 : S32x1x256.Broadcasts S32x64x256
  shapeCasts_S32x64x256_S2048x256 : S32x64x256.ShapeCasts S2048x256
  shapeCasts_S2048x32_S32x64x32 : S2048x32.ShapeCasts S32x64x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  broadcasts_S1x64x32_S32x64x32 : S1x64x32.Broadcasts S32x64x32
  broadcasts_S32x64x1_S32x64x32 : S32x64x1.Broadcasts S32x64x32
  shapeCasts_S32x64x32_S2048x32 : S32x64x32.ShapeCasts S2048x32
  shapeCasts_S2048x256_S32x64x256 : S2048x256.ShapeCasts S32x64x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  shapeCasts_S2048x1_S32x64x1 : S2048x1.ShapeCasts S32x64x1
  reduces_S32x64x1_S32x1 : S32x64x1.Reduces [1] S32x1
  shapeCasts_S32x1_S32x1x1 : S32x1.ShapeCasts S32x1x1
  broadcasts_S32x1x1_S32x64x1 : S32x1x1.Broadcasts S32x64x1
  reduces_S32x64x256_S32x256 : S32x64x256.Reduces [1] S32x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  reduces_S32x2_S32 : S32x2.Reduces [1] S32
  broadcasts_S32x1_S32x2 : S32x1.Broadcasts S32x2
  slices_S32x2_o0_0_S32x1 : S32x2.Slices ![0, 0] S32x1
  slices_S32x2_o0_1_S32x1 : S32x2.Slices ![0, 1] S32x1
  shapeCasts_S4096x1_S4096 : S4096x1.ShapeCasts S4096
  gather_S500001x256_S4096x1_S4096x256_1_0_n_n_0_1_1256_wf : GatherDims.WF S500001x256 S4096x1 S4096x256 [1] [0] [] [0] [] 1 ![1, 256]
  gather_S100000x256_S4096x1_S4096x256_1_0_n_n_0_1_1256_wf : GatherDims.WF S100000x256 S4096x1 S4096x256 [1] [0] [] [0] [] 1 ![1, 256]
  gather_S100000_S4096x1_S4096_n_0_n_n_0_1_1_wf : GatherDims.WF S100000 S4096x1 S4096 [] [0] [] [0] [] 1 ![1]
  gather_S500001x256_S4096x64x1_S4096x64x256_2_0_n_n_0_2_1256_wf : GatherDims.WF S500001x256 S4096x64x1 S4096x64x256 [2] [0] [] [0] [] 2 ![1, 256]
  dot_S4096x256_S256x32_S4096x32_1_0_0_1_n_n_wf : DotDims.WF S4096x256 S256x32 S4096x32 [1] [0] [0] [1] [] []
  dot_S2048x256_S256x32_S2048x32_1_0_0_1_n_n_wf : DotDims.WF S2048x256 S256x32 S2048x32 [1] [0] [0] [1] [] []
  dot_S2048x32_S32x256_S2048x256_1_0_0_1_n_n_wf : DotDims.WF S2048x32 S32x256 S2048x256 [1] [0] [0] [1] [] []
  dot_S2048x256_S256x256_S2048x256_1_0_0_1_n_n_wf : DotDims.WF S2048x256 S256x256 S2048x256 [1] [0] [0] [1] [] []
  dot_S32x256_S256x2_S32x2_1_0_0_1_n_n_wf : DotDims.WF S32x256 S256x2 S32x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S4096x256.size a
  hwx0_0 : ∀ i : grid0.Coords, EltTy.bits .bf16 = 32 ∨ (Rect.block (s := S4096x256) S64x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x256.size a ≤ S4096x64x256.size a
  hwx0_1 : ∀ i : grid0.Coords, EltTy.bits .bf16 = 32 ∨ (Rect.block (s := S4096x64x256) S64x64x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S4096x64.size a
  hwx0_2 : ∀ i : grid0.Coords, EltTy.bits .f32 = 32 ∨ (Rect.block (s := S4096x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x32.size a ≤ S2x64x32.size a
  hwx0_4 : ∀ i : grid0.Coords, EltTy.bits .f32 = 32 ∨ (Rect.block (s := S2x64x32) S1x64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x32.size a ≤ S2x64x32.size a
  hwx0_5 : ∀ i : grid0.Coords, EltTy.bits .f32 = 32 ∨ (Rect.block (s := S2x64x32) S1x64x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S4096x256.size a
  hwx1_0 : ∀ i : grid1.Coords, EltTy.bits .bf16 = 32 ∨ (Rect.block (s := S4096x256) S32x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x256.size a ≤ S4096x64x256.size a
  hwx1_1 : ∀ i : grid1.Coords, EltTy.bits .bf16 = 32 ∨ (Rect.block (s := S4096x64x256) S32x64x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S4096x64.size a
  hwx1_2 : ∀ i : grid1.Coords, EltTy.bits .f32 = 32 ∨ (Rect.block (s := S4096x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x256.size a ≤ S4096x256.size a
  hwx1_3 : ∀ i : grid1.Coords, EltTy.bits .bf16 = 32 ∨ (Rect.block (s := S4096x256) S32x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S4096x1.size a
  hwx1_4 : ∀ i : grid1.Coords, EltTy.bits .f32 = 32 ∨ (Rect.block (s := S4096x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x32.size a ≤ S256x32.size a
  hwx1_7 : ∀ i : grid1.Coords, EltTy.bits .f32 = 32 ∨ (Rect.block (s := S256x32) S256x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x256.size a ≤ S32x256.size a
  hwx1_8 : ∀ i : grid1.Coords, EltTy.bits .f32 = 32 ∨ (Rect.block (s := S32x256) S32x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .f32 = 32 ∨ (Rect.block (s := S256x256) S256x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256x2.size a ≤ S256x2.size a
  hwx1_12 : ∀ i : grid1.Coords, EltTy.bits .f32 = 32 ∨ (Rect.block (s := S256x2) S256x2.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x2.size a ≤ S256x2.size a
  hwx1_13 : ∀ i : grid1.Coords, EltTy.bits .f32 = 32 ∨ (Rect.block (s := S256x2) S256x2.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S32x1.size a ≤ S4096x1.size a
  hwx1_14 : ∀ i : grid1.Coords, EltTy.bits .f32 = 32 ∨ (Rect.block (s := S4096x1) S32x1.size (cc1_transform_14 i) (hinb1_14 i)).WholeWords (EltTy.packing .f32)

variable [Facts₀]

def gather_S500001x256_S4096x1_S4096x256_1_0_n_n_0_1_1256 : GatherDims S500001x256 S4096x1 S4096x256 where
  offsetDims := [1]
  collapsedSliceDims := [0]
  operandBatchingDims := []
  startIndicesBatchingDims := []
  startIndexMap := [0]
  indexVectorDim := 1
  sliceSizes := ![1, 256]
  wf := gather_S500001x256_S4096x1_S4096x256_1_0_n_n_0_1_1256_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def gather_S500001x256_S4096x64x1_S4096x64x256_2_0_n_n_0_2_1256 : GatherDims S500001x256 S4096x64x1 S4096x64x256 where
  offsetDims := [2]
  collapsedSliceDims := [0]
  operandBatchingDims := []
  startIndicesBatchingDims := []
  startIndexMap := [0]
  indexVectorDim := 2
  sliceSizes := ![1, 256]
  wf := gather_S500001x256_S4096x64x1_S4096x64x256_2_0_n_n_0_2_1256_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x256_S256x2_S32x2_1_0_0_1_n_n : DotDims S32x256 S256x2 S32x2 where
  lhsContracting := [1]
  rhsContracting := [0]
  lhsNonContracting := [0]
  rhsNonContracting := [1]
  lhsBatch := []
  rhsBatch := []
  wf := dot_S32x256_S256x2_S32x2_1_0_0_1_n_n_wf

abbrev win0_0 : Pipeline.Window sig grid0 :=
  Pipeline.Window.ofSpec (Memref.whole main_v7) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S1x64x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S1x64x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S32x64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S32x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S32x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S32x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S256x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S32x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg8) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v35) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v39) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v36) S256x2.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v37) S256x2.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v57) S32x1.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S4096 : Shape := ⟨1, ![4096]⟩
abbrev S4096x64 : Shape := ⟨2, ![4096, 64]⟩
abbrev S500001x256 : Shape := ⟨2, ![500001, 256]⟩
abbrev S100000x256 : Shape := ⟨2, ![100000, 256]⟩
abbrev S100000 : Shape := ⟨1, ![100000]⟩
abbrev S256x32 : Shape := ⟨2, ![256, 32]⟩
abbrev S32x256 : Shape := ⟨2, ![32, 256]⟩
abbrev S256x256 : Shape := ⟨2, ![256, 256]⟩
abbrev S256 : Shape := ⟨1, ![256]⟩
abbrev S256x1 : Shape := ⟨2, ![256, 1]⟩
abbrev S512x2 : Shape := ⟨2, ![512, 2]⟩
abbrev S_ : Shape := ⟨0, ![]⟩
abbrev S4096x1 : Shape := ⟨2, ![4096, 1]⟩
abbrev S4096x256 : Shape := ⟨2, ![4096, 256]⟩
abbrev S4096x64x1 : Shape := ⟨3, ![4096, 64, 1]⟩
abbrev S4096x64x256 : Shape := ⟨3, ![4096, 64, 256]⟩
abbrev S4096x1x256 : Shape := ⟨3, ![4096, 1, 256]⟩
abbrev S4096x64x32 : Shape := ⟨3, ![4096, 64, 32]⟩
abbrev S64x32 : Shape := ⟨2, ![64, 32]⟩
abbrev S1x64x32 : Shape := ⟨3, ![1, 64, 32]⟩
abbrev S1x1x256 : Shape := ⟨3, ![1, 1, 256]⟩
abbrev S4096x1x1 : Shape := ⟨3, ![4096, 1, 1]⟩
abbrev S4096x512 : Shape := ⟨2, ![4096, 512]⟩
abbrev S4096x2 : Shape := ⟨2, ![4096, 2]⟩

abbrev nBuf : Space → Nat
  | .hbm => 149
  | .vmem => 0
  | .smem => 0
  | _ => 0

abbrev hbmTy0_0 (i : Nat) : BufTy := match i % 128 with
  | 0 => ⟨S4096, .i32⟩
  | 1 => ⟨S4096, .i32⟩
  | 2 => ⟨S4096x64, .i32⟩
  | 3 => ⟨S500001x256, .f32⟩
  | 4 => ⟨S100000x256, .f32⟩
  | 5 => ⟨S100000, .f32⟩
  | 6 => ⟨S256x32, .f32⟩
  | 7 => ⟨S32x256, .f32⟩
  | 8 => ⟨S256x256, .f32⟩
  | 9 => ⟨S256, .f32⟩
  | 10 => ⟨S256x1, .f32⟩
  | 11 => ⟨S512x2, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096x256, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x256, .f32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096, .f32⟩
  | 39 => ⟨S_, .i32⟩
  | 40 => ⟨S4096x64, .i32⟩
  | 41 => ⟨S4096x64, .i1⟩
  | 42 => ⟨S_, .i32⟩
  | 43 => ⟨S4096x64, .i32⟩
  | 44 => ⟨S4096x64, .i32⟩
  | 45 => ⟨S4096x64, .i32⟩
  | 46 => ⟨S4096x64x1, .i32⟩
  | 47 => ⟨S4096x64x256, .f32⟩
  | 48 => ⟨S_, .i32⟩
  | 49 => ⟨S4096x64, .i32⟩
  | 50 => ⟨S4096x64, .i1⟩
  | 51 => ⟨S4096x64, .f32⟩
  | 52 => ⟨S4096x64x1, .f32⟩
  | 53 => ⟨S4096x64x256, .f32⟩
  | 54 => ⟨S4096x64x256, .f32⟩
  | 55 => ⟨S4096x256, .f32⟩
  | 56 => ⟨S_, .f32⟩
  | 57 => ⟨S4096, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x256, .f32⟩
  | 64 => ⟨S4096x256, .f32⟩
  | 65 => ⟨S4096x64x256, .f32⟩
  | 66 => ⟨S_, .f32⟩
  | 67 => ⟨S4096x64, .f32⟩
  | 68 => ⟨S4096x64x1, .f32⟩
  | 69 => ⟨S4096x64x1, .f32⟩
  | 70 => ⟨S_, .f32⟩
  | 71 => ⟨S4096x64x1, .f32⟩
  | 72 => ⟨S4096x64x1, .f32⟩
  | 73 => ⟨S4096x64x256, .f32⟩
  | 74 => ⟨S4096x64x256, .f32⟩
  | 75 => ⟨S4096x1x256, .f32⟩
  | 76 => ⟨S4096x64x256, .f32⟩
  | 77 => ⟨S4096x64x256, .f32⟩
  | 78 => ⟨S4096x64x32, .f32⟩
  | 79 => ⟨S_, .f32⟩
  | 80 => ⟨S64x32, .f32⟩
  | 81 => ⟨S_, .f32⟩
  | 82 => ⟨S64x32, .f32⟩
  | 83 => ⟨S64x32, .f32⟩
  | 84 => ⟨S1x64x32, .f32⟩
  | 85 => ⟨S4096x64x32, .f32⟩
  | 86 => ⟨S4096x64x32, .f32⟩
  | 87 => ⟨S4096x64x32, .f32⟩
  | 88 => ⟨S_, .f32⟩
  | 89 => ⟨S64x32, .f32⟩
  | 90 => ⟨S1x64x32, .f32⟩
  | 91 => ⟨S4096x64x32, .f32⟩
  | 92 => ⟨S4096x64x32, .f32⟩
  | 93 => ⟨S4096x64x1, .f32⟩
  | 94 => ⟨S4096x64x32, .f32⟩
  | 95 => ⟨S4096x64x32, .f32⟩
  | 96 => ⟨S4096x64x256, .f32⟩
  | 97 => ⟨S4096x64x256, .f32⟩
  | 98 => ⟨S4096x64x256, .f32⟩
  | 99 => ⟨S1x1x256, .f32⟩
  | 100 => ⟨S4096x64x256, .f32⟩
  | 101 => ⟨S4096x64x256, .f32⟩
  | 102 => ⟨S_, .f32⟩
  | 103 => ⟨S4096x64x256, .f32⟩
  | 104 => ⟨S4096x64x256, .f32⟩
  | 105 => ⟨S4096x64x1, .f32⟩
  | 106 => ⟨S4096x64x1, .f32⟩
  | 107 => ⟨S4096x64x1, .f32⟩
  | 108 => ⟨S4096x64x1, .f32⟩
  | 109 => ⟨S_, .f32⟩
  | 110 => ⟨S4096x1, .f32⟩
  | 111 => ⟨S4096x1x1, .f32⟩
  | 112 => ⟨S_, .f32⟩
  | 113 => ⟨S4096x1x1, .f32⟩
  | 114 => ⟨S4096x1x1, .f32⟩
  | 115 => ⟨S4096x64x1, .f32⟩
  | 116 => ⟨S4096x64x1, .f32⟩
  | 117 => ⟨S4096x64x256, .f32⟩
  | 118 => ⟨S4096x64x256, .f32⟩
  | 119 => ⟨S_, .f32⟩
  | 120 => ⟨S4096x256, .f32⟩
  | 121 => ⟨S4096x256, .f32⟩
  | 122 => ⟨S4096x512, .f32⟩
  | 123 => ⟨S4096x2, .f32⟩
  | 124 => ⟨S_, .f32⟩
  | 125 => ⟨S4096, .f32⟩
  | 126 => ⟨S_, .f32⟩
  | 127 => ⟨S4096, .f32⟩
  | _ => ⟨S4096, .i32⟩

abbrev hbmTy0_1 (i : Nat) : BufTy := match i % 128 with
  | 0 => ⟨S4096, .f32⟩
  | 1 => ⟨S4096x1, .f32⟩
  | 2 => ⟨S4096x2, .f32⟩
  | 3 => ⟨S4096x2, .f32⟩
  | 4 => ⟨S4096x2, .f32⟩
  | 5 => ⟨S_, .f32⟩
  | 6 => ⟨S4096, .f32⟩
  | 7 => ⟨S4096x1, .f32⟩
  | 8 => ⟨S4096x2, .f32⟩
  | 9 => ⟨S4096x2, .f32⟩
  | 10 => ⟨S4096x1, .f32⟩
  | 11 => ⟨S4096x256, .f32⟩
  | 12 => ⟨S4096x256, .f32⟩
  | 13 => ⟨S4096x1, .f32⟩
  | 14 => ⟨S4096x256, .f32⟩
  | 15 => ⟨S4096x256, .f32⟩
  | 16 => ⟨S4096x256, .f32⟩
  | 17 => ⟨S4096x256, .f32⟩
  | 18 => ⟨S_, .f32⟩
  | 19 => ⟨S4096, .f32⟩
  | 20 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call0_cst : Ref sig .tc := ⟨.hbm, 102, rfl⟩
abbrev main_call0_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_cst_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_19 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_20 : Ref sig .tc := ⟨.hbm, 146, rfl⟩
abbrev main_v110 : Ref sig .tc := ⟨.hbm, 147, rfl⟩
abbrev main_v111 : Ref sig .tc := ⟨.hbm, 148, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x256_0_1_2 : S4096x64x1.BroadcastsInDim S4096x64x256 (![0, 1, 2] : Fin 3 → Fin S4096x64x256.rank)
  reducesTo_S4096x256_S4096_d1 : S4096x256.ReducesTo [1] S4096
  h_S_ : 0 < S_.numel
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S4096x64x256_S4096x64_d2 : S4096x64x256.ReducesTo [2] S4096x64
  bcast_S_S4096x64x1 : S_.BroadcastsInDim S4096x64x1 (![] : Fin 0 → Fin S4096x64x1.rank)
  bcast_S4096x256_S4096x1x256_0_2 : S4096x256.BroadcastsInDim S4096x1x256 (![0, 2] : Fin 2 → Fin S4096x1x256.rank)
  bcast_S4096x1x256_S4096x64x256_0_1_2 : S4096x1x256.BroadcastsInDim S4096x64x256 (![0, 1, 2] : Fin 3 → Fin S4096x64x256.rank)
  reducesTo_S4096x64x32_S64x32_d0 : S4096x64x32.ReducesTo [0] S64x32
  bcast_S_S64x32 : S_.BroadcastsInDim S64x32 (![] : Fin 0 → Fin S64x32.rank)
  bcast_S64x32_S1x64x32_1_2 : S64x32.BroadcastsInDim S1x64x32 (![1, 2] : Fin 2 → Fin S1x64x32.rank)
  bcast_S1x64x32_S4096x64x32_0_1_2 : S1x64x32.BroadcastsInDim S4096x64x32 (![0, 1, 2] : Fin 3 → Fin S4096x64x32.rank)
  bcast_S4096x64x1_S4096x64x32_0_1_2 : S4096x64x1.BroadcastsInDim S4096x64x32 (![0, 1, 2] : Fin 3 → Fin S4096x64x32.rank)
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  bcast_S_S4096x64x256 : S_.BroadcastsInDim S4096x64x256 (![] : Fin 0 → Fin S4096x64x256.rank)
  reducesTo_S4096x64x1_S4096x1_d1 : S4096x64x1.ReducesTo [1] S4096x1
  bcast_S4096x1_S4096x1x1_0_2 : S4096x1.BroadcastsInDim S4096x1x1 (![0, 2] : Fin 2 → Fin S4096x1x1.rank)
  bcast_S_S4096x1x1 : S_.BroadcastsInDim S4096x1x1 (![] : Fin 0 → Fin S4096x1x1.rank)
  bcast_S4096x1x1_S4096x64x1_0_1_2 : S4096x1x1.BroadcastsInDim S4096x64x1 (![0, 1, 2] : Fin 3 → Fin S4096x64x1.rank)
  reducesTo_S4096x64x256_S4096x256_d1 : S4096x64x256.ReducesTo [1] S4096x256
  concatenates_S4096x256_S4096x256_S4096x512_d1 : Shape.Concatenates [S4096x256, S4096x256] S4096x512 1
  reducesTo_S4096x2_S4096_d1 : S4096x2.ReducesTo [1] S4096
  bcast_S4096x1_S4096x2_0_1 : S4096x1.BroadcastsInDim S4096x2 (![0, 1] : Fin 2 → Fin S4096x2.rank)
  slices_S4096x2_S4096x1_0_0 : S4096x2.Slices ![0, 0] S4096x1
  slices_S4096x2_S4096x1_0_1 : S4096x2.Slices ![0, 1] S4096x1
  gather_S500001x256_S4096x1_S4096x256_1_0_n_n_0_1_1256_wf : GatherDims.WF S500001x256 S4096x1 S4096x256 [1] [0] [] [0] [] 1 ![1, 256]
  gather_S100000x256_S4096x1_S4096x256_1_0_n_n_0_1_1256_wf : GatherDims.WF S100000x256 S4096x1 S4096x256 [1] [0] [] [0] [] 1 ![1, 256]
  gather_S100000_S4096x1_S4096_n_0_n_n_0_1_1_wf : GatherDims.WF S100000 S4096x1 S4096 [] [0] [] [0] [] 1 ![1]
  gather_S500001x256_S4096x64x1_S4096x64x256_2_0_n_n_0_2_1256_wf : GatherDims.WF S500001x256 S4096x64x1 S4096x64x256 [2] [0] [] [0] [] 2 ![1, 256]
  dot_S4096x64x256_S256x32_S4096x64x32_2_0_01_1_n_n_wf : DotDims.WF S4096x64x256 S256x32 S4096x64x32 [2] [0] [0, 1] [1] [] []
  dot_S4096x64x32_S32x256_S4096x64x256_2_0_01_1_n_n_wf : DotDims.WF S4096x64x32 S32x256 S4096x64x256 [2] [0] [0, 1] [1] [] []
  dot_S4096x64x256_S256x256_S4096x64x256_2_0_01_1_n_n_wf : DotDims.WF S4096x64x256 S256x256 S4096x64x256 [2] [0] [0, 1] [1] [] []
  dot_S4096x64x256_S256x1_S4096x64x1_2_0_01_1_n_n_wf : DotDims.WF S4096x64x256 S256x1 S4096x64x1 [2] [0] [0, 1] [1] [] []
  dot_S4096x512_S512x2_S4096x2_1_0_0_1_n_n_wf : DotDims.WF S4096x512 S512x2 S4096x2 [1] [0] [0] [1] [] []

variable [Facts₀]

def gather_S500001x256_S4096x1_S4096x256_1_0_n_n_0_1_1256 : GatherDims S500001x256 S4096x1 S4096x256 where
  offsetDims := [1]
  collapsedSliceDims := [0]
  operandBatchingDims := []
  startIndicesBatchingDims := []
  startIndexMap := [0]
  indexVectorDim := 1
  sliceSizes := ![1, 256]
  wf := gather_S500001x256_S4096x1_S4096x256_1_0_n_n_0_1_1256_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def gather_S500001x256_S4096x64x1_S4096x64x256_2_0_n_n_0_2_1256 : GatherDims S500001x256 S4096x64x1 S4096x64x256 where
  offsetDims := [2]
  collapsedSliceDims := [0]
  operandBatchingDims := []
  startIndicesBatchingDims := []
  startIndexMap := [0]
  indexVectorDim := 2
  sliceSizes := ![1, 256]
  wf := gather_S500001x256_S4096x64x1_S4096x64x256_2_0_n_n_0_2_1256_wf
def dot_S4096x64x256_S256x32_S4096x64x32_2_0_01_1_n_n : DotDims S4096x64x256 S256x32 S4096x64x32 where
  lhsContracting := [2]
  rhsContracting := [0]
  lhsNonContracting := [0, 1]
  rhsNonContracting := [1]
  lhsBatch := []
  rhsBatch := []
  wf := dot_S4096x64x256_S256x32_S4096x64x32_2_0_01_1_n_n_wf
def dot_S4096x64x32_S32x256_S4096x64x256_2_0_01_1_n_n : DotDims S4096x64x32 S32x256 S4096x64x256 where
  lhsContracting := [2]
  rhsContracting := [0]
  lhsNonContracting := [0, 1]
  rhsNonContracting := [1]
  lhsBatch := []
  rhsBatch := []
  wf := dot_S4096x64x32_S32x256_S4096x64x256_2_0_01_1_n_n_wf
def dot_S4096x64x256_S256x256_S4096x64x256_2_0_01_1_n_n : DotDims S4096x64x256 S256x256 S4096x64x256 where
  lhsContracting := [2]
  rhsContracting := [0]
  lhsNonContracting := [0, 1]
  rhsNonContracting := [1]
  lhsBatch := []
  rhsBatch := []
  wf := dot_S4096x64x256_S256x256_S4096x64x256_2_0_01_1_n_n_wf
def dot_S4096x64x256_S256x1_S4096x64x1_2_0_01_1_n_n : DotDims S4096x64x256 S256x1 S4096x64x1 where
  lhsContracting := [2]
  rhsContracting := [0]
  lhsNonContracting := [0, 1]
  rhsNonContracting := [1]
  lhsBatch := []
  rhsBatch := []
  wf := dot_S4096x64x256_S256x1_S4096x64x1_2_0_01_1_n_n_wf
def dot_S4096x512_S512x2_S4096x2_1_0_0_1_n_n : DotDims S4096x512 S512x2 S4096x2 where
  lhsContracting := [1]
  rhsContracting := [0]
  lhsNonContracting := [0]
  rhsNonContracting := [1]
  lhsBatch := []
  rhsBatch := []
  wf := dot_S4096x512_S512x2_S4096x2_1_0_0_1_n_n_wf

class Facts : Prop extends Facts₀ where

variable [Facts]
-- ==== Proof.Spec.lean ====
/-
  The function both programs compute, written once over the extended reals, entry by entry.

  One batch row b has a user embedding a (256 entries), 64 friend embeddings fe (64 x 256) with a 0/1 mask fr, an item
  embedding iid and an item bias ib.  The masked friends are feM f d = fr f * fe f d.  A vector is normalised by the
  larger of its Euclidean norm and the floor 1e-12.  The attention key of friend f in memory slot m is the contraction
  over d of (a d / |a|) * (feM f d / |feM f|) with Key d m.  The softmax of the keys is taken over the BATCH: with G f m
  the largest key of the batch at (f, m) and T f m the batch's sum of exp (key - G f m), the memory attention is
  fr f * (exp (key - G) / T).  From it: f1 = attention * Mem, f2 = f1 * feM, a hidden layer max (f2 * WA + BA) 0,
  a logit per friend (hidden against U), the masked exponential of the logit normalised by its sum over the friends
  plus 1e-8, the friend vector (weights against f2), the user vector a + friend, two logits (a against the upper half of
  W, user against the lower half), their softmax, the mixture of a and user by it, and the score: the mixture against
  iid, plus ib.
-/
import Idealize.ShloMosaic.PureOps.Ideal
import Idealize.ShloMosaic.Lib.ValueIdx

noncomputable section

open scoped BigOperators

namespace Cert.Spec

open Idealize.ShloMosaic Idealize.ShloMosaic.ValueIdx

/-- The norm floor, 1e-12 as the single-precision word both programs carry. -/
abbrev eps12 : EReal := Ideal.ofBits .f32 0x2B8CBCCC#32
/-- The denominator's offset, 1e-8 as the single-precision word both programs carry. -/
abbrev eps8 : EReal := Ideal.ofBits .f32 0x322BCC77#32

/-! ## One row -/

/-- A friend's embedding times its mask. -/
def feM (fr : Fin 64 → EReal) (fe : Fin 64 → Fin 256 → EReal) (f : Fin 64) (d : Fin 256) : EReal := fr f * fe f d

/-- The Euclidean norm of a vector of 256 entries, floored at 1e-12. -/
def nrm (x : Fin 256 → EReal) : EReal := max (Ideal.sqrt (∑ d, x d * x d)) eps12

/-- The product of the normalised user vector and the normalised masked friend vector, entry d. -/
def cross (a : Fin 256 → EReal) (fr : Fin 64 → EReal) (fe : Fin 64 → Fin 256 → EReal) (f : Fin 64) (d : Fin 256) : EReal :=
  Ideal.div (a d) (nrm a) * Ideal.div (feM fr fe f d) (nrm (feM fr fe f))

/-- The attention key of friend f in memory slot m. -/
def attKey (Key : Fin 256 → Fin 32 → EReal) (a : Fin 256 → EReal) (fr : Fin 64 → EReal) (fe : Fin 64 → Fin 256 → EReal)
    (f : Fin 64) (m : Fin 32) : EReal := ∑ d, cross a fr fe f d * Key d m

/-! ## The batch statistics of the keys -/

/-- The largest key of the batch at (f, m). -/
def gmax {n : Nat} (AK : Fin n → Fin 64 → Fin 32 → EReal) (f : Fin 64) (m : Fin 32) : EReal :=
  (Finset.univ : Finset (Fin n)).fold max ⊥ (fun b => AK b f m)

/-- The batch's sum of exp (key - largest key) at (f, m). -/
def gsum {n : Nat} (AK : Fin n → Fin 64 → Fin 32 → EReal) (f : Fin 64) (m : Fin 32) : EReal :=
  ∑ b, Ideal.exp (AK b f m - gmax AK f m)

/-! ## One row's score, given the batch statistics G and T -/

/-- The memory attention. -/
def attMem (G T ak : Fin 64 → Fin 32 → EReal) (fr : Fin 64 → EReal) (f : Fin 64) (m : Fin 32) : EReal :=
  fr f * Ideal.div (Ideal.exp (ak f m - G f m)) (T f m)

/-- The attention against the memory matrix. -/
def f1 (Mem : Fin 32 → Fin 256 → EReal) (am : Fin 64 → Fin 32 → EReal) (f : Fin 64) (d : Fin 256) : EReal := ∑ m, am f m * Mem m d

/-- Its product with the masked friend embedding. -/
def f2 (f1v fm : Fin 64 → Fin 256 → EReal) (f : Fin 64) (d : Fin 256) : EReal := f1v f d * fm f d

/-- The hidden layer. -/
def hid (WA : Fin 256 → Fin 256 → EReal) (BA : Fin 256 → EReal) (x : Fin 64 → Fin 256 → EReal) (f : Fin 64) (a : Fin 256) : EReal :=
  max (∑ d, x f d * WA d a + BA a) 0

/-- A friend's logit. -/
def jlog (U : Fin 256 → EReal) (h : Fin 64 → Fin 256 → EReal) (f : Fin 64) : EReal := ∑ a, h f a * U a

/-- Its masked exponential. -/
def jv (fr jl : Fin 64 → EReal) (f : Fin 64) : EReal := fr f * Ideal.exp (jl f)

/-- The friend's weight. -/
def wgt (j : Fin 64 → EReal) (f : Fin 64) : EReal := Ideal.div (j f) (∑ f', j f' + eps8)

/-- The friend vector. -/
def friend (w : Fin 64 → EReal) (x : Fin 64 → Fin 256 → EReal) (d : Fin 256) : EReal := ∑ f, w f * x f d

/-- The two logits: the user embedding against Wa (rows 0–255 of the mixing matrix), the user vector against Wb (rows 256–511). -/
def logit (Wa Wb : Fin 256 → Fin 2 → EReal) (a u : Fin 256 → EReal) (j : Fin 2) : EReal :=
  ∑ d : Fin 256, a d * Wa d j + ∑ d : Fin 256, u d * Wb d j

/-- Their softmax. -/
def att1 (lg : Fin 2 → EReal) (j : Fin 2) : EReal :=
  Ideal.div (Ideal.exp (lg j - (Finset.univ : Finset (Fin 2)).fold max ⊥ lg))
    (∑ j', Ideal.exp (lg j' - (Finset.univ : Finset (Fin 2)).fold max ⊥ lg))

/-- The score of a row from its mixture weights. -/
def mix (a u iid : Fin 256 → EReal) (p : Fin 2 → EReal) (ib : EReal) : EReal := ∑ d, (a d * p 0 + u d * p 1) * iid d + ib

/-- The score of one row from its keys ak. -/
def rowScoreK (Mem : Fin 32 → Fin 256 → EReal) (WA : Fin 256 → Fin 256 → EReal) (BA U : Fin 256 → EReal)
    (Wa Wb : Fin 256 → Fin 2 → EReal) (G T ak : Fin 64 → Fin 32 → EReal)
    (a : Fin 256 → EReal) (fr : Fin 64 → EReal) (fe : Fin 64 → Fin 256 → EReal) (iid : Fin 256 → EReal) (ib : EReal) : EReal :=
  let x := f2 (f1 Mem (attMem G T ak fr)) (feM fr fe)
  let u : Fin 256 → EReal := fun d => a d + friend (wgt (jv fr (jlog U (hid WA BA x)))) x d
  mix a u iid (att1 (logit Wa Wb a u)) ib

/-- The score of one row. -/
def rowScore (Key : Fin 256 → Fin 32 → EReal) (Mem : Fin 32 → Fin 256 → EReal) (WA : Fin 256 → Fin 256 → EReal) (BA U : Fin 256 → EReal)
    (Wa Wb : Fin 256 → Fin 2 → EReal) (G T : Fin 64 → Fin 32 → EReal)
    (a : Fin 256 → EReal) (fr : Fin 64 → EReal) (fe : Fin 64 → Fin 256 → EReal) (iid : Fin 256 → EReal) (ib : EReal) : EReal :=
  rowScoreK Mem WA BA U Wa Wb G T (attKey Key a fr fe) a fr fe iid ib

/-! ## The whole batch, over arrays -/

/-- Row b's keys, from the gathered arrays. -/
def keysOf (KeyA : (⟨2, ![256, 32]⟩ : Shape).Idx → EReal) (A : (⟨2, ![4096, 256]⟩ : Shape).Idx → EReal)
    (FR : (⟨2, ![4096, 64]⟩ : Shape).Idx → EReal) (FE : (⟨3, ![4096, 64, 256]⟩ : Shape).Idx → EReal)
    (b : Fin 4096) : Fin 64 → Fin 32 → EReal :=
  attKey (fun d m => KeyA (ix2 d m)) (fun d => A (ix2 b d)) (fun f => FR (ix2 b f)) (fun f d => FE (ix3 b f d))

/-- The score of every row of the batch from the gathered arrays (A: user rows, FE: friend rows, FR: the mask,
    IID: item rows, IB: item biases) and the parameter arrays. -/
def total (KeyA : (⟨2, ![256, 32]⟩ : Shape).Idx → EReal) (MemA : (⟨2, ![32, 256]⟩ : Shape).Idx → EReal)
    (WAA : (⟨2, ![256, 256]⟩ : Shape).Idx → EReal) (BAA : (⟨1, ![256]⟩ : Shape).Idx → EReal)
    (UA : (⟨2, ![256, 1]⟩ : Shape).Idx → EReal) (WW : (⟨2, ![512, 2]⟩ : Shape).Idx → EReal)
    (A : (⟨2, ![4096, 256]⟩ : Shape).Idx → EReal) (FR : (⟨2, ![4096, 64]⟩ : Shape).Idx → EReal)
    (FE : (⟨3, ![4096, 64, 256]⟩ : Shape).Idx → EReal) (IID : (⟨2, ![4096, 256]⟩ : Shape).Idx → EReal)
    (IB : (⟨1, ![4096]⟩ : Shape).Idx → EReal) (b : Fin 4096) : EReal :=
  rowScore (fun d m => KeyA (ix2 d m)) (fun m d => MemA (ix2 m d)) (fun d a => WAA (ix2 d a)) (fun a => BAA (ix1 a))
    (fun a => UA (ix2 a 0)) (fun d j => WW (ix2 (⟨d.val, by omega⟩ : Fin 512) j)) (fun d j => WW (ix2 (⟨d.val + 256, by omega⟩ : Fin 512) j))
    (gmax (keysOf KeyA A FR FE)) (gsum (keysOf KeyA A FR FE))
    (fun d => A (ix2 b d)) (fun f => FR (ix2 b f)) (fun f d => FE (ix3 b f d)) (fun d => IID (ix2 b d)) (IB (ix1 b))

end Cert.Spec

end
-- ==== Proof.KRun.lean ====
/-
  The idealized kernel's run with its result kept.  The program is five segments: host operations (the gathers, the
  mask, the re-laid parameters), the first pallas_call (the per-core running maximum and sum of exponentials of the keys),
  host operations (the two cores merged), the second pallas_call (the scores) and a final reshape.  Every weakly fair
  execution ends with the result buffer at what the last segment leaves and the arguments as launched.
-/
import proofs.«174119_j9096740733368_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the result buffer ends at the contents the last host segment leaves; the arguments end as launched. -/
theorem run_value : θ_run defs (onTc (τ := τ) (main (F := F))) ⟨m, fun _ => 0, ρ⟩ (fun r => ∀ c : Dev nD,
      r.2.mem ((c.tc : Thread nD τ).loc main_v58) = W5 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v58 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.KRun

end
-- ==== Proof.Body1a.lean ====
/-
  The first stages of the second call's body, and the key computation both calls share, read at one entry.

  A block of rows is multiplied by its mask (feM); a vector of 256 entries is divided by the larger of its Euclidean norm
  and 1e-12; the [rows, 64, 256] array of products of the normalised user row with the normalised masked friend rows is
  laid out as a [rows * 64, 256] matrix (matrix row p * 64 + f is (p, f)) and multiplied with Key onto zero: entry (p, f, m)
  is the contraction over d, the specification's key.  From the keys, the batch statistics G and T, and Mem: the memory
  attention mask * (exp (key - G) / T), its product with Mem and then with the masked friend embedding (f2).
-/
import proofs.«174119_j9096740733368_2_alg».proof.Proof.Spec
import proofs.«174119_j9096740733368_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Cert.KernelIdeal Cert.KernelIdeal.Gen

namespace Cert.Body1

/-! ## Layout operations read at an index, by coordinates -/

section Layout
variable {α : Type}

/-- An `[a, b]` array cast to `[a, b, 1]` reads, at `(i, j, u)`, the operand at `(i, j)`. -/
theorem sc_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem sc_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, c]` array cast to `[a, 1, c]` reads, at `(i, u, k)`, the operand at `(i, k)`. -/
theorem sc_ac_a1c {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, c]` array cast to `[M, c]` reads, at row `r = i * b + j` and column `k`, the operand at `(i, j, k)`. -/
theorem sc_abc_Mc {a b c M : ℕ} (x : (⟨3, ![a, b, c]⟩ : Shape).Idx → α)
    (h : (⟨3, ![a, b, c]⟩ : Shape).ShapeCasts ⟨2, ![M, c]⟩) (i : Fin a) (j : Fin b) (k : Fin c) (r : Fin M)
    (hr : r.val = i.val * b + j.val) :
    shapeCast ⟨2, ![M, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[M, c]` array cast to `[a, b, c]` reads, at `(i, j, k)`, the operand at row `r = i * b + j` and column `k`. -/
theorem sc_Mc_abc {a b c M : ℕ} (x : (⟨2, ![M, c]⟩ : Shape).Idx → α)
    (h : (⟨2, ![M, c]⟩ : Shape).ShapeCasts ⟨3, ![a, b, c]⟩) (i : Fin a) (j : Fin b) (k : Fin c) (r : Fin M)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- An `[a, b, 1]` array broadcast to `[a, b, c]` reads, at `(i, j, k)`, the operand at `(i, j, 0)`. -/
theorem bc_ab1_abc {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1]` array broadcast to `[a, b]` reads, at `(i, j)`, the operand at `(i, 0)`. -/
theorem bc_a1_ab {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, 1, c]` array broadcast to `[a, b, c]` reads, at `(i, j, k)`, the operand at `(i, 0, k)`. -/
theorem bc_a1c_abc {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem bc_1bc_abc {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## A sum along the last axis -/

/-- The sum of an `[a, b]` array along its second axis, at `i`: the sum over `k` of the array at `(i, k)`. -/
theorem red_ab_a {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction (F := Ideal) .add [1] ⟨1, ![a]⟩ x acc h hφ hacc (ix1 i) = ∑ k : Fin b, x (ix2 i k) := by
  refine (Ideal.multiReduction_add_single x acc h hφ hacc (ix1 i)).trans ?_
  refine Finset.sum_congr rfl fun k _ => congrArg x ?_
  funext c
  match c with
  | ⟨0, _⟩ => rfl
  | ⟨1, _⟩ => rfl

/-- The sum of an `[a, b, c]` array along its third axis, at `(i, j)`: the sum over `k` of the array at `(i, j, k)`. -/
theorem red_abc_ab {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction (F := Ideal) .add [2] ⟨2, ![a, b]⟩ x acc h hφ hacc (ix2 i j) = ∑ k : Fin c, x (ix3 i j k) := by
  refine (Ideal.multiReduction_add_single x acc h hφ hacc (ix2 i j)).trans ?_
  refine Finset.sum_congr rfl fun k _ => congrArg x ?_
  funext d
  match d with
  | ⟨0, _⟩ => rfl
  | ⟨1, _⟩ => rfl
  | ⟨2, _⟩ => rfl

/-! ## The three matrix products onto the zero accumulator, read at an entry -/

theorem mm_key1_l0 (i : S2048x32.Idx) (q : dot_S2048x256_S256x32_S2048x32_1_0_0_1_n_n.contr.Idx) : (dot_S2048x256_S256x32_S2048x32_1_0_0_1_n_n.lhsIdx i q 0).val = (i 0).val := by
  unfold DotDims.lhsIdx
  rw [dif_neg (show ¬(0 : Fin S2048x256.rank) ∈ dot_S2048x256_S256x32_S2048x32_1_0_0_1_n_n.lhsBatch by decide),
    dif_pos (show (0 : Fin S2048x256.rank) ∈ dot_S2048x256_S256x32_S2048x32_1_0_0_1_n_n.lhsNonContracting by decide)]
  rfl
theorem mm_key1_r1 (i : S2048x32.Idx) (q : dot_S2048x256_S256x32_S2048x32_1_0_0_1_n_n.contr.Idx) : (dot_S2048x256_S256x32_S2048x32_1_0_0_1_n_n.rhsIdx i q 1).val = (i 1).val := by
  unfold DotDims.rhsIdx
  rw [dif_neg (show ¬(1 : Fin S256x32.rank) ∈ dot_S2048x256_S256x32_S2048x32_1_0_0_1_n_n.rhsBatch by decide),
    dif_pos (show (1 : Fin S256x32.rank) ∈ dot_S2048x256_S256x32_S2048x32_1_0_0_1_n_n.rhsNonContracting by decide)]
  rfl
/-- A `[2048, 256]` by `[256, 32]` product onto zero, at `(r, m)`: the sum over `k` of the left at `(r, k)` times the right at `(k, m)`. -/
theorem mm_key1 {φ₁ φ₂ : FTy} (lhs : FVec Ideal S2048x256 φ₁) (rhs : FVec Ideal S256x32 φ₂) (r : Fin 2048) (m : Fin 32) :
    matmul (F := Ideal) dot_S2048x256_S256x32_S2048x32_1_0_0_1_n_n none lhs rhs (constant S2048x32 .f32 0x00000000#32) (ix2 r m)
      = ∑ k : Fin 256, lhs (ix2 r k) * rhs (ix2 k m) := by
  simp only [matmul]
  rw [Ideal.matmul_constant_zero_apply, ← Equiv.sum_comp (contrEquiv1 dot_S2048x256_S256x32_S2048x32_1_0_0_1_n_n 256 rfl rfl).symm]
  refine Finset.sum_congr rfl fun k _ => ?_
  have hk := contrEquiv1_symm_val dot_S2048x256_S256x32_S2048x32_1_0_0_1_n_n 256 rfl rfl k
  have el : dot_S2048x256_S256x32_S2048x32_1_0_0_1_n_n.lhsIdx (ix2 r m) ((contrEquiv1 dot_S2048x256_S256x32_S2048x32_1_0_0_1_n_n 256 rfl rfl).symm k) = ix2 r k :=
    funext fun a => Fin.ext (by
      match a with
      | ⟨0, _⟩ => exact mm_key1_l0 _ _
      | ⟨1, _⟩ => exact (dot_S2048x256_S256x32_S2048x32_1_0_0_1_n_n.lhsIdx_val_of_single rfl _ _).trans hk)
  have er : dot_S2048x256_S256x32_S2048x32_1_0_0_1_n_n.rhsIdx (ix2 r m) ((contrEquiv1 dot_S2048x256_S256x32_S2048x32_1_0_0_1_n_n 256 rfl rfl).symm k) = ix2 k m :=
    funext fun a => Fin.ext (by
      match a with
      | ⟨0, _⟩ => exact (dot_S2048x256_S256x32_S2048x32_1_0_0_1_n_n.rhsIdx_val_of_single rfl _ _).trans hk
      | ⟨1, _⟩ => exact mm_key1_r1 _ _)
  rw [el, er]

theorem mm_mem1_l0 (i : S2048x256.Idx) (q : dot_S2048x32_S32x256_S2048x256_1_0_0_1_n_n.contr.Idx) : (dot_S2048x32_S32x256_S2048x256_1_0_0_1_n_n.lhsIdx i q 0).val = (i 0).val := by
  unfold DotDims.lhsIdx
  rw [dif_neg (show ¬(0 : Fin S2048x32.rank) ∈ dot_S2048x32_S32x256_S2048x256_1_0_0_1_n_n.lhsBatch by decide),
    dif_pos (show (0 : Fin S2048x32.rank) ∈ dot_S2048x32_S32x256_S2048x256_1_0_0_1_n_n.lhsNonContracting by decide)]
  rfl
theorem mm_mem1_r1 (i : S2048x256.Idx) (q : dot_S2048x32_S32x256_S2048x256_1_0_0_1_n_n.contr.Idx) : (dot_S2048x32_S32x256_S2048x256_1_0_0_1_n_n.rhsIdx i q 1).val = (i 1).val := by
  unfold DotDims.rhsIdx
  rw [dif_neg (show ¬(1 : Fin S32x256.rank) ∈ dot_S2048x32_S32x256_S2048x256_1_0_0_1_n_n.rhsBatch by decide),
    dif_pos (show (1 : Fin S32x256.rank) ∈ dot_S2048x32_S32x256_S2048x256_1_0_0_1_n_n.rhsNonContracting by decide)]
  rfl
/-- A `[2048, 32]` by `[32, 256]` product onto zero, at `(r, d)`: the sum over `k` of the left at `(r, k)` times the right at `(k, d)`. -/
theorem mm_mem1 {φ₁ φ₂ : FTy} (lhs : FVec Ideal S2048x32 φ₁) (rhs : FVec Ideal S32x256 φ₂) (r : Fin 2048) (m : Fin 256) :
    matmul (F := Ideal) dot_S2048x32_S32x256_S2048x256_1_0_0_1_n_n none lhs rhs (constant S2048x256 .f32 0x00000000#32) (ix2 r m)
      = ∑ k : Fin 32, lhs (ix2 r k) * rhs (ix2 k m) := by
  simp only [matmul]
  rw [Ideal.matmul_constant_zero_apply, ← Equiv.sum_comp (contrEquiv1 dot_S2048x32_S32x256_S2048x256_1_0_0_1_n_n 32 rfl rfl).symm]
  refine Finset.sum_congr rfl fun k _ => ?_
  have hk := contrEquiv1_symm_val dot_S2048x32_S32x256_S2048x256_1_0_0_1_n_n 32 rfl rfl k
  have el : dot_S2048x32_S32x256_S2048x256_1_0_0_1_n_n.lhsIdx (ix2 r m) ((contrEquiv1 dot_S2048x32_S32x256_S2048x256_1_0_0_1_n_n 32 rfl rfl).symm k) = ix2 r k :=
    funext fun a => Fin.ext (by
      match a with
      | ⟨0, _⟩ => exact mm_mem1_l0 _ _
      | ⟨1, _⟩ => exact (dot_S2048x32_S32x256_S2048x256_1_0_0_1_n_n.lhsIdx_val_of_single rfl _ _).trans hk)
  have er : dot_S2048x32_S32x256_S2048x256_1_0_0_1_n_n.rhsIdx (ix2 r m) ((contrEquiv1 dot_S2048x32_S32x256_S2048x256_1_0_0_1_n_n 32 rfl rfl).symm k) = ix2 k m :=
    funext fun a => Fin.ext (by
      match a with
      | ⟨0, _⟩ => exact (dot_S2048x32_S32x256_S2048x256_1_0_0_1_n_n.rhsIdx_val_of_single rfl _ _).trans hk
      | ⟨1, _⟩ => exact mm_mem1_r1 _ _)
  rw [el, er]

theorem mm_key0_l0 (i : S4096x32.Idx) (q : dot_S4096x256_S256x32_S4096x32_1_0_0_1_n_n.contr.Idx) : (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide),
    dif_pos (show (0 : Fin S4096x256.rank) ∈ dot_S4096x256_S256x32_S4096x32_1_0_0_1_n_n.lhsNonContracting by decide)]
  rfl
theorem mm_key0_r1 (i : S4096x32.Idx) (q : dot_S4096x256_S256x32_S4096x32_1_0_0_1_n_n.contr.Idx) : (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide),
    dif_pos (show (1 : Fin S256x32.rank) ∈ dot_S4096x256_S256x32_S4096x32_1_0_0_1_n_n.rhsNonContracting by decide)]
  rfl
/-- A `[4096, 256]` by `[256, 32]` product onto zero, at `(r, m)`: the sum over `k` of the left at `(r, k)` times the right at `(k, m)`. -/
theorem mm_key0 {φ₁ φ₂ : FTy} (lhs : FVec Ideal S4096x256 φ₁) (rhs : FVec Ideal S256x32 φ₂) (r : Fin 4096) (m : Fin 32) :
    matmul (F := Ideal) dot_S4096x256_S256x32_S4096x32_1_0_0_1_n_n none lhs rhs (constant S4096x32 .f32 0x00000000#32) (ix2 r m)
      = ∑ k : Fin 256, lhs (ix2 r k) * rhs (ix2 k m) := by
  simp only [matmul]
  rw [Ideal.matmul_constant_zero_apply, ← Equiv.sum_comp (contrEquiv1 dot_S4096x256_S256x32_S4096x32_1_0_0_1_n_n 256 rfl rfl).symm]
  refine Finset.sum_congr rfl fun k _ => ?_
  have hk := contrEquiv1_symm_val dot_S4096x256_S256x32_S4096x32_1_0_0_1_n_n 256 rfl rfl k
  have el : dot_S4096x256_S256x32_S4096x32_1_0_0_1_n_n.lhsIdx (ix2 r m) ((contrEquiv1 dot_S4096x256_S256x32_S4096x32_1_0_0_1_n_n 256 rfl rfl).symm k) = ix2 r k :=
    funext fun a => Fin.ext (by
      match a with
      | ⟨0, _⟩ => exact mm_key0_l0 _ _
      | ⟨1, _⟩ => exact (dot_S4096x256_S256x32_S4096x32_1_0_0_1_n_n.lhsIdx_val_of_single rfl _ _).trans hk)
  have er : dot_S4096x256_S256x32_S4096x32_1_0_0_1_n_n.rhsIdx (ix2 r m) ((contrEquiv1 dot_S4096x256_S256x32_S4096x32_1_0_0_1_n_n 256 rfl rfl).symm k) = ix2 k m :=
    funext fun a => Fin.ext (by
      match a with
      | ⟨0, _⟩ => exact (dot_S4096x256_S256x32_S4096x32_1_0_0_1_n_n.rhsIdx_val_of_single rfl _ _).trans hk
      | ⟨1, _⟩ => exact mm_key0_r1 _ _)
  rw [el, er]

/-! ## Pointwise operations read at an entry -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

/-! ## The floored Euclidean norm of a row, as the body computes it -/

/-- The norm of row `i` of an `[a, b]` array, floored, spread back over the row. -/
theorem nrm2_apply {a b : ℕ} (x : FVec Ideal ⟨2, ![a, b]⟩ .f32)
    (hr : (⟨2, ![a, b]⟩ : Shape).Reduces [1] ⟨1, ![a]⟩) (hs : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩
        (maximumf (sqrt (shapeCast ⟨2, ![a, 1]⟩ (multiReduction (F := Ideal) .add [1] ⟨1, ![a]⟩ (mulf x x) 0x00000000#32 hr (.inl rfl) rfl) hs))
          (broadcast ⟨2, ![a, 1]⟩ (Scalar.ofBits (F := Ideal) .f32 0x2B8CBCCC#32))) hb (ix2 i j)
      = max (Ideal.sqrt (∑ k : Fin b, x (ix2 i k) * x (ix2 i k))) (Ideal.ofBits .f32 0x2B8CBCCC#32) := by
  rw [bc_a1_ab, maximumf_apply, sqrt_apply, sc_a_a1]
  exact congrArg₂ max (congrArg Ideal.sqrt (red_ab_a _ _ _ _ _ _)) rfl

/-- The norm of row `(i, j)` of an `[a, b, c]` array, floored, spread back over the row. -/
theorem nrm3_apply {a b c : ℕ} (x : FVec Ideal ⟨3, ![a, b, c]⟩ .f32)
    (hr : (⟨3, ![a, b, c]⟩ : Shape).Reduces [2] ⟨2, ![a, b]⟩) (hs : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩
        (maximumf (sqrt (shapeCast ⟨3, ![a, b, 1]⟩ (multiReduction (F := Ideal) .add [2] ⟨2, ![a, b]⟩ (mulf x x) 0x00000000#32 hr (.inl rfl) rfl) hs))
          (broadcast ⟨3, ![a, b, 1]⟩ (Scalar.ofBits (F := Ideal) .f32 0x2B8CBCCC#32))) hb (ix3 i j k)
      = max (Ideal.sqrt (∑ l : Fin c, x (ix3 i j l) * x (ix3 i j l))) (Ideal.ofBits .f32 0x2B8CBCCC#32) := by
  rw [bc_ab1_abc, maximumf_apply, sqrt_apply, sc_ab_ab1]
  exact congrArg₂ max (congrArg Ideal.sqrt (red_abc_ab _ _ _ _ _ _ _)) rfl

/-! ## The masked friend embeddings -/

theorem pay6_apply (v3 : Vec Ideal S32x64x256 .bf16) (v6 : Vec Ideal S32x64 .f32) (p : Fin 32) (f : Fin 64) (d : Fin 256) :
    k1_pay6 (F := Ideal) v3 v6 (ix3 p f d) = Cert.Spec.feM (fun f => v6 (ix2 p f)) (fun f d => v3 (ix3 p f d)) f d := by
  unfold k1_pay6 k1_pay3 Cert.Spec.feM
  simp only [shapeCast_self]
  rw [mulf_apply, extf_apply, bc_ab1_abc, sc_ab_ab1]

/-! ## The attention keys of a tile of 32 rows -/

theorem pay2_apply (v0 : Vec Ideal S32x256 .bf16) (i : S32x256.Idx) : k1_pay2 (F := Ideal) v0 i = v0 i := by
  unfold k1_pay2
  simp only [shapeCast_self]
  rfl

theorem pay7_apply (v0 : Vec Ideal S32x256 .bf16) (v3 : Vec Ideal S32x64x256 .bf16) (v6 : Vec Ideal S32x64 .f32)
    (v13 : Vec Ideal S256x32 .f32) (p : Fin 32) (f : Fin 64) (m : Fin 32) :
    k1_pay7 (F := Ideal) v0 v3 v6 v13 (ix3 p f m)
      = Cert.Spec.attKey (fun d m => v13 (ix2 d m)) (fun d => v0 (ix2 p d)) (fun f => v6 (ix2 p f)) (fun f d => v3 (ix3 p f d)) f m := by
  unfold k1_pay7 Cert.Spec.attKey
  refine (sc_Mc_abc _ _ p f m ⟨p.val * 64 + f.val, by have := p.isLt; have := f.isLt; omega⟩ rfl).trans ?_
  refine (mm_key1 _ _ _ _).trans ?_
  refine Finset.sum_congr rfl fun k _ => ?_
  rw [truncf_apply, truncf_apply, sc_abc_Mc _ _ p f k _ rfl, mulf_apply, bc_a1c_abc, sc_ac_a1c, divf_apply, divf_apply,
    nrm2_apply, nrm3_apply]
  simp only [pay2_apply, pay6_apply]
  rfl

/-! ## The memory attention against the memory matrix, times the masked friend embeddings -/

theorem pay8_apply (v7 : FVec Ideal S32x64 .f32) (v16 : FVec Ideal S32x64x256 .f32) (v40 : FVec Ideal S32x64x32 .f32)
    (v41 v44 : Vec Ideal S64x32 .f32) (v56 : Vec Ideal S32x256 .f32) (p : Fin 32) (f : Fin 64) (d : Fin 256) :
    k1_pay8 (F := Ideal) v7 v16 v40 v41 v44 v56 (ix3 p f d)
      = Cert.Spec.f2 (Cert.Spec.f1 (fun m d => v56 (ix2 m d))
          (Cert.Spec.attMem (fun f m => v41 (ix2 f m)) (fun f m => v44 (ix2 f m)) (fun f m => v40 (ix3 p f m)) (fun f => v7 (ix2 p f))))
          (fun f d => v16 (ix3 p f d)) f d := by
  unfold k1_pay8 Cert.Spec.f2 Cert.Spec.f1 Cert.Spec.attMem
  simp only [shapeCast_self]
  rw [mulf_apply]
  refine congrArg (· * v16 (ix3 p f d)) ?_
  refine (sc_Mc_abc _ _ p f d ⟨p.val * 64 + f.val, by have := p.isLt; have := f.isLt; omega⟩ rfl).trans ?_
  refine (mm_mem1 _ _ _ _).trans ?_
  refine Finset.sum_congr rfl fun k _ => ?_
  rw [truncf_apply, truncf_apply, sc_abc_Mc _ _ p f k _ rfl, mulf_apply, bc_ab1_abc, sc_ab_ab1, divf_apply, exp_apply,
    subf_apply, bc_1bc_abc, shapeCast_ab_1ab_apply, bc_1bc_abc, shapeCast_ab_1ab_apply]

/-! ## The attention keys of a tile of 64 rows -/

/-- The masked friend embeddings of the tile of 64 rows. -/
theorem k0_fm_apply (v6 : Vec Ideal S64x64x256 .bf16) (v9 : Vec Ideal S64x64 .f32) (p f : Fin 64) (d : Fin 256) :
    mulf (broadcastTo S64x64x256 (shapeCast S64x64x1 v9 shapeCasts_S64x64_S64x64x1) broadcasts_S64x64x1_S64x64x256)
        (extf (F := Ideal) .f32 v6 bitsLt_bf16_f32) (ix3 p f d)
      = Cert.Spec.feM (fun f => v9 (ix2 p f)) (fun f d => v6 (ix3 p f d)) f d := by
  unfold Cert.Spec.feM
  rw [mulf_apply, extf_apply, bc_ab1_abc, sc_ab_ab1]

theorem k0_pay6_apply (v3 : Vec Ideal S64x256 .bf16) (v6 : Vec Ideal S64x64x256 .bf16) (v9 : Vec Ideal S64x64 .f32)
    (v11 : Vec Ideal S256x32 .f32) (p f : Fin 64) (m : Fin 32) :
    k0_pay6 (F := Ideal) v3 v6 v9 v11 (ix3 p f m)
      = Cert.Spec.attKey (fun d m => v11 (ix2 d m)) (fun d => v3 (ix2 p d)) (fun f => v9 (ix2 p f)) (fun f d => v6 (ix3 p f d)) f m := by
  unfold k0_pay6 Cert.Spec.attKey
  simp only [shapeCast_self]
  refine (sc_Mc_abc _ _ p f m ⟨p.val * 64 + f.val, by have := p.isLt; have := f.isLt; omega⟩ rfl).trans ?_
  refine (mm_key0 _ _ _ _).trans ?_
  refine Finset.sum_congr rfl fun k _ => ?_
  rw [truncf_apply, truncf_apply, sc_abc_Mc _ _ p f k _ rfl, mulf_apply, bc_a1c_abc, sc_ac_a1c, divf_apply, divf_apply,
    nrm2_apply, nrm3_apply]
  simp only [k0_fm_apply, extf_apply]
  rfl

end Cert.Body1

end
-- ==== Proof.KHost.lean ====
/-
  What the host operations of the idealized kernel's program leave, read off the contents at its segment boundaries.

  Before the first call: the user rows, friend rows and item rows are gathers from the two embedding tables at the
  (wrapped) index arguments followed by a change of float format; the mask is the comparison of the friend indices with
  the padding index, as a float; the item biases are a gather laid out as a column; BA and the logit vector are laid out as
  rows; the mixing matrix is cut into its upper and lower halves.  Between the calls: slab 0 and slab 1 of the two
  [2, 64, 32] arrays are merged, the maxima by max, the sums by S0 * exp (M0 - G) + S1 * exp (M1 - G).  After the second
  call: the [4096, 1] column of scores is read as a vector.  A buffer that a stretch does not write keeps its contents.
-/
import proofs.«174119_j9096740733368_2_alg».proof.Proof.Gen.KernelIdeal.Frame
import proofs.«174119_j9096740733368_2_alg».proof.Proof.Body1a
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

set_option maxRecDepth 16384

noncomputable section

open scoped BigOperators
open Cert.KernelIdeal Cert.KernelIdeal.Gen Idealize.ShloMosaic Idealize.ShloMosaic.TcCoe Idealize.SL.Sem
  Idealize.ShloMosaic.StableHlo Idealize.ShloMosaic.ValueIdx

namespace Cert.KernelIdeal.KHost

variable (m : (ℓ : Loc nD τ sig) → Buf (Elt Ideal) ℓ) (ρ : Dev nD → PrngReg)

/-! ## Two layout reads by coordinates -/

section Layout
variable {α : Type}

/-- An `[a, 1]` array cast to `[a]` reads, at `i`, the operand at `(i, 0)`. -/
theorem sc_a1_a {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, a, b]` slab cut out of an `[n, a, b]` array at offset `o` along the first axis, cast to `[a, b]`,
    reads, at `(i, j)`, the array at `(o, i, j)`. -/
theorem slab_apply {n a b : ℕ} (o : Fin n) (x : (⟨3, ![n, a, b]⟩ : Shape).Idx → α)
    (hs : (⟨3, ![n, a, b]⟩ : Shape).Slices ![o.val, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o.val, 0, 0] x hs) hc (ix2 i j) = x (ix3 o i j) := by
  rw [shapeCast_1ab_ab_apply]
  refine extractStridedSlice_apply _ x hs _ (ix3 o i j) fun ax => ?_
  match ax with
  | ⟨0, _⟩ => rfl
  | ⟨1, _⟩ => show i.val = 0 + i.val; omega
  | ⟨2, _⟩ => show j.val = 0 + j.val; omega

end Layout

/-! ## Before the first call: the gathers and the parameter arrays' views

Each result buffer after the operations before the first call, as a term of the buffers they read (`W` is the
valuation they start from). -/

theorem host0_v7 (W : Valuation τ sig (Elt Ideal)) :
    StableHlo.after (hostOps0 (F := Ideal)) W (Proc.devRef .tc main_v7)
      = truncf (F := Ideal) .bf16 (Host.gather gather_S500001x256_S4096x1_S4096x256_1_0_n_n_0_1_1256 (W (Proc.devRef .tc main_arg3)) (broadcastInDim S4096x1 ![0] bcast_S4096_S4096x1_0 (select (cmpi .slt (W (Proc.devRef .tc main_arg0)) (broadcastInDim S4096 ![] bcast_S_S4096 (constantI S_ 32 0#32))) (addi (W (Proc.devRef .tc main_arg0)) (broadcastInDim S4096 ![] bcast_S_S4096 (constantI S_ 32 500001#32))) (W (Proc.devRef .tc main_arg0))))) bitsLt_bf16_f32 := by
  after_results_simp
  try rfl

theorem host0_v31 (W : Valuation τ sig (Elt Ideal)) :
    StableHlo.after (hostOps0 (F := Ideal)) W (Proc.devRef .tc main_v31)
      = truncf (F := Ideal) .bf16 (Host.gather gather_S500001x256_S4096x64x1_S4096x64x256_2_0_n_n_0_2_1256 (W (Proc.devRef .tc main_arg3)) (broadcastInDim S4096x64x1 ![0, 1] bcast_S4096x64_S4096x64x1_0_1 (select (cmpi .slt (W (Proc.devRef .tc main_arg2)) (broadcastInDim S4096x64 ![] bcast_S_S4096x64 (constantI S_ 32 0#32))) (addi (W (Proc.devRef .tc main_arg2)) (broadcastInDim S4096x64 ![] bcast_S_S4096x64 (constantI S_ 32 500001#32))) (W (Proc.devRef .tc main_arg2))))) bitsLt_bf16_f32 := by
  after_results_simp
  try rfl

theorem host0_v34 (W : Valuation τ sig (Elt Ideal)) :
    StableHlo.after (hostOps0 (F := Ideal)) W (Proc.devRef .tc main_v34)
      = uitofp (F := Ideal) .f32 (cmpi .ne (W (Proc.devRef .tc main_arg2)) (broadcastInDim S4096x64 ![] bcast_S_S4096x64 (constantI S_ 32 500000#32))) := by
  after_results_simp
  try rfl

theorem host0_v15 (W : Valuation τ sig (Elt Ideal)) :
    StableHlo.after (hostOps0 (F := Ideal)) W (Proc.devRef .tc main_v15)
      = truncf (F := Ideal) .bf16 (Host.gather gather_S100000x256_S4096x1_S4096x256_1_0_n_n_0_1_1256 (W (Proc.devRef .tc main_arg4)) (broadcastInDim S4096x1 ![0] bcast_S4096_S4096x1_0 (select (cmpi .slt (W (Proc.devRef .tc main_arg1)) (broadcastInDim S4096 ![] bcast_S_S4096 (constantI S_ 32 0#32))) (addi (W (Proc.devRef .tc main_arg1)) (broadcastInDim S4096 ![] bcast_S_S4096 (constantI S_ 32 100000#32))) (W (Proc.devRef .tc main_arg1))))) bitsLt_bf16_f32 := by
  after_results_simp
  try rfl

theorem host0_v22 (W : Valuation τ sig (Elt Ideal)) :
    StableHlo.after (hostOps0 (F := Ideal)) W (Proc.devRef .tc main_v22)
      = Host.gather gather_S100000_S4096x1_S4096_n_0_n_n_0_1_1 (W (Proc.devRef .tc main_arg5)) (broadcastInDim S4096x1 ![0] bcast_S4096_S4096x1_0 (select (cmpi .slt (W (Proc.devRef .tc main_arg1)) (broadcastInDim S4096 ![] bcast_S_S4096 (constantI S_ 32 0#32))) (addi (W (Proc.devRef .tc main_arg1)) (broadcastInDim S4096 ![] bcast_S_S4096 (constantI S_ 32 100000#32))) (W (Proc.devRef .tc main_arg1)))) := by
  after_results_simp
  try rfl

theorem host0_v23 (W : Valuation τ sig (Elt Ideal)) :
    StableHlo.after (hostOps0 (F := Ideal)) W (Proc.devRef .tc main_v23)
      = broadcastInDim S4096x1 ![0] bcast_S4096_S4096x1_0 (Host.gather gather_S100000_S4096x1_S4096_n_0_n_n_0_1_1 (W (Proc.devRef .tc main_arg5)) (broadcastInDim S4096x1 ![0] bcast_S4096_S4096x1_0 (select (cmpi .slt (W (Proc.devRef .tc main_arg1)) (broadcastInDim S4096 ![] bcast_S_S4096 (constantI S_ 32 0#32))) (addi (W (Proc.devRef .tc main_arg1)) (broadcastInDim S4096 ![] bcast_S_S4096 (constantI S_ 32 100000#32))) (W (Proc.devRef .tc main_arg1))))) := by
  after_results_simp
  try rfl

theorem host0_v35 (W : Valuation τ sig (Elt Ideal)) :
    StableHlo.after (hostOps0 (F := Ideal)) W (Proc.devRef .tc main_v35)
      = broadcastInDim S1x256 ![1] bcast_S256_S1x256_1 (W (Proc.devRef .tc main_arg9)) := by
  after_results_simp
  try rfl

theorem host0_v36 (W : Valuation τ sig (Elt Ideal)) :
    StableHlo.after (hostOps0 (F := Ideal)) W (Proc.devRef .tc main_v36)
      = extractStridedSlice S256x2 ![0, 0] (W (Proc.devRef .tc main_arg11)) slices_S512x2_S256x2_0_0 := by
  after_results_simp
  try rfl

theorem host0_v37 (W : Valuation τ sig (Elt Ideal)) :
    StableHlo.after (hostOps0 (F := Ideal)) W (Proc.devRef .tc main_v37)
      = extractStridedSlice S256x2 ![256, 0] (W (Proc.devRef .tc main_arg11)) slices_S512x2_S256x2_256_0 := by
  after_results_simp
  try rfl

theorem host0_v39 (W : Valuation τ sig (Elt Ideal)) :
    StableHlo.after (hostOps0 (F := Ideal)) W (Proc.devRef .tc main_v39)
      = broadcastInDim S1x256 ![1] bcast_S256_S1x256_1 (shapeCast S256 (W (Proc.devRef .tc main_arg10)) shapeCasts_S256x1_S256) := by
  after_results_simp
  try rfl

/-- The buffers the operations before the first call write. -/
def host0Writes : List (Ref sig .tc) :=
  [main_c, main_v0, main_v1, main_c_0, main_v2, main_v3, main_v4, main_v5, main_v6, main_v7, main_c_1, main_v8, main_v9, main_c_2, main_v10, main_v11, main_v12, main_v13, main_v14, main_v15, main_c_3, main_v16, main_v17, main_c_4, main_v18, main_v19, main_v20, main_v21, main_v22, main_v23, main_c_5, main_v24, main_v25, main_c_6, main_v26, main_v27, main_v28, main_v29, main_v30, main_v31, main_c_7, main_v32, main_v33, main_v34, main_v35, main_v36, main_v37, main_v38, main_v39]

theorem host0_writes_sub :
    (hostOps0 (F := Ideal)).Forall fun op => op.writes ⊆ (host0Writes.map (Proc.devRef (τ := τ) .tc)).toFinset := by
  simp only [hostOps0, List.Forall, nullary_writes, unary_writes, binary_writes, ternary_writes, reshape_writes,
    Finset.singleton_subset_iff, List.mem_toFinset, List.mem_map]
  repeat' apply And.intro
  all_goals exact ⟨_, by decide, rfl⟩

/-- Every other buffer is as it was. -/
theorem host0_keep (W : Valuation τ sig (Elt Ideal)) (b : Ref sig .tc) (hb : b ∉ host0Writes) :
    StableHlo.after (hostOps0 (F := Ideal)) W (Proc.devRef .tc b) = W (Proc.devRef .tc b) :=
  StableHlo.after_of_writes_sub _ W host0_writes_sub hb

/-! ### The same at the first call's entry, from the launch memory -/

/-- The entry contents of the first call are the operations' results from the launch memory. -/
theorem V1_eq (c : Dev nD) (b : Ref sig .tc) :
    V1 m ρ c b = StableHlo.after (hostOps0 (F := Ideal)) (fun b => m (c, b)) (Proc.devRef .tc b) := rfl

theorem V1_arg6 (c : Dev nD) : V1 m ρ c main_arg6 = m (c, Proc.devRef .tc main_arg6) := host0_keep _ main_arg6 (by decide)
theorem V1_arg7 (c : Dev nD) : V1 m ρ c main_arg7 = m (c, Proc.devRef .tc main_arg7) := host0_keep _ main_arg7 (by decide)
theorem V1_arg8 (c : Dev nD) : V1 m ρ c main_arg8 = m (c, Proc.devRef .tc main_arg8) := host0_keep _ main_arg8 (by decide)

theorem V1_v7 (c : Dev nD) :
    V1 m ρ c main_v7
      = truncf (F := Ideal) .bf16 (Host.gather gather_S500001x256_S4096x1_S4096x256_1_0_n_n_0_1_1256 (m (c, Proc.devRef .tc main_arg3)) (broadcastInDim S4096x1 ![0] bcast_S4096_S4096x1_0 (select (cmpi .slt (m (c, Proc.devRef .tc main_arg0)) (broadcastInDim S4096 ![] bcast_S_S4096 (constantI S_ 32 0#32))) (addi (m (c, Proc.devRef .tc main_arg0)) (broadcastInDim S4096 ![] bcast_S_S4096 (constantI S_ 32 500001#32))) (m (c, Proc.devRef .tc main_arg0))))) bitsLt_bf16_f32 :=
  host0_v7 _

theorem V1_v31 (c : Dev nD) :
    V1 m ρ c main_v31
      = truncf (F := Ideal) .bf16 (Host.gather gather_S500001x256_S4096x64x1_S4096x64x256_2_0_n_n_0_2_1256 (m (c, Proc.devRef .tc main_arg3)) (broadcastInDim S4096x64x1 ![0, 1] bcast_S4096x64_S4096x64x1_0_1 (select (cmpi .slt (m (c, Proc.devRef .tc main_arg2)) (broadcastInDim S4096x64 ![] bcast_S_S4096x64 (constantI S_ 32 0#32))) (addi (m (c, Proc.devRef .tc main_arg2)) (broadcastInDim S4096x64 ![] bcast_S_S4096x64 (constantI S_ 32 500001#32))) (m (c, Proc.devRef .tc main_arg2))))) bitsLt_bf16_f32 :=
  host0_v31 _

theorem V1_v34 (c : Dev nD) :
    V1 m ρ c main_v34
      = uitofp (F := Ideal) .f32 (cmpi .ne (m (c, Proc.devRef .tc main_arg2)) (broadcastInDim S4096x64 ![] bcast_S_S4096x64 (constantI S_ 32 500000#32))) :=
  host0_v34 _

theorem V1_v15 (c : Dev nD) :
    V1 m ρ c main_v15
      = truncf (F := Ideal) .bf16 (Host.gather gather_S100000x256_S4096x1_S4096x256_1_0_n_n_0_1_1256 (m (c, Proc.devRef .tc main_arg4)) (broadcastInDim S4096x1 ![0] bcast_S4096_S4096x1_0 (select (cmpi .slt (m (c, Proc.devRef .tc main_arg1)) (broadcastInDim S4096 ![] bcast_S_S4096 (constantI S_ 32 0#32))) (addi (m (c, Proc.devRef .tc main_arg1)) (broadcastInDim S4096 ![] bcast_S_S4096 (constantI S_ 32 100000#32))) (m (c, Proc.devRef .tc main_arg1))))) bitsLt_bf16_f32 :=
  host0_v15 _

theorem V1_v23 (c : Dev nD) :
    V1 m ρ c main_v23
      = broadcastInDim S4096x1 ![0] bcast_S4096_S4096x1_0 (Host.gather gather_S100000_S4096x1_S4096_n_0_n_n_0_1_1 (m (c, Proc.devRef .tc main_arg5)) (broadcastInDim S4096x1 ![0] bcast_S4096_S4096x1_0 (select (cmpi .slt (m (c, Proc.devRef .tc main_arg1)) (broadcastInDim S4096 ![] bcast_S_S4096 (constantI S_ 32 0#32))) (addi (m (c, Proc.devRef .tc main_arg1)) (broadcastInDim S4096 ![] bcast_S_S4096 (constantI S_ 32 100000#32))) (m (c, Proc.devRef .tc main_arg1))))) :=
  host0_v23 _

theorem V1_v35 (c : Dev nD) :
    V1 m ρ c main_v35
      = broadcastInDim S1x256 ![1] bcast_S256_S1x256_1 (m (c, Proc.devRef .tc main_arg9)) :=
  host0_v35 _

theorem V1_v36 (c : Dev nD) :
    V1 m ρ c main_v36
      = extractStridedSlice S256x2 ![0, 0] (m (c, Proc.devRef .tc main_arg11)) slices_S512x2_S256x2_0_0 :=
  host0_v36 _

theorem V1_v37 (c : Dev nD) :
    V1 m ρ c main_v37
      = extractStridedSlice S256x2 ![256, 0] (m (c, Proc.devRef .tc main_arg11)) slices_S512x2_S256x2_256_0 :=
  host0_v37 _

theorem V1_v39 (c : Dev nD) :
    V1 m ρ c main_v39
      = broadcastInDim S1x256 ![1] bcast_S256_S1x256_1 (shapeCast S256 (m (c, Proc.devRef .tc main_arg10)) shapeCasts_S256x1_S256) :=
  host0_v39 _

/-! ## The parameter arrays' views read at an entry -/

section Layout2
variable {α : Type}

/-- An `[a]` array laid along the second axis of `[1, a]` reads, at `(u, i)`, the operand at `i`. -/
theorem bid_a_1a {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- An `[a]` array laid along the first axis of `[a, 1]` reads, at `(i, u)`, the operand at `i`. -/
theorem bid_a_a1 {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

end Layout2

/-- The hidden layer's bias as a row, at `(0, a)`: the bias vector at `a`. -/
theorem host0_v35_apply (W : Valuation τ sig (Elt Ideal)) (u : Fin 1) (a : Fin 256) :
    StableHlo.after (hostOps0 (F := Ideal)) W (Proc.devRef .tc main_v35) (ix2 u a) = W (Proc.devRef .tc main_arg9) (ix1 a) :=
  (congrFun (host0_v35 W) (ix2 u a)).trans (bid_a_1a _ _ u a)

/-- The friends' logit vector as a row, at `(0, a)`: the column array at `(a, 0)`. -/
theorem host0_v39_apply (W : Valuation τ sig (Elt Ideal)) (u : Fin 1) (a : Fin 256) :
    StableHlo.after (hostOps0 (F := Ideal)) W (Proc.devRef .tc main_v39) (ix2 u a)
      = W (Proc.devRef .tc main_arg10) (ix2 a (0 : Fin 1)) :=
  (congrFun (host0_v39 W) (ix2 u a)).trans ((bid_a_1a _ _ u a).trans (sc_a1_a _ _ a))

/-- The upper half of the mixing matrix, at `(d, j)`: the matrix at row `d`. -/
theorem host0_v36_apply (W : Valuation τ sig (Elt Ideal)) (d : Fin 256) (j : Fin 2) :
    StableHlo.after (hostOps0 (F := Ideal)) W (Proc.devRef .tc main_v36) (ix2 d j)
      = W (Proc.devRef .tc main_arg11) (ix2 (⟨d.val, by have := d.isLt; omega⟩ : Fin 512) j) :=
  (congrFun (host0_v36 W) (ix2 d j)).trans (slice2_axis0_apply 0 _ _ d j _ (Nat.zero_add _).symm)

/-- The lower half of the mixing matrix, at `(d, j)`: the matrix at row `d + 256`. -/
theorem host0_v37_apply (W : Valuation τ sig (Elt Ideal)) (d : Fin 256) (j : Fin 2) :
    StableHlo.after (hostOps0 (F := Ideal)) W (Proc.devRef .tc main_v37) (ix2 d j)
      = W (Proc.devRef .tc main_arg11) (ix2 (⟨d.val + 256, by have := d.isLt; omega⟩ : Fin 512) j) :=
  (congrFun (host0_v37 W) (ix2 d j)).trans (slice2_axis0_apply 256 _ _ d j _ (Nat.add_comm _ _))

/-- The item biases as a column, at `(b, 0)`: the gathered vector at `b`. -/
theorem host0_v23_apply (W : Valuation τ sig (Elt Ideal)) (b : Fin 4096) (u : Fin 1) :
    StableHlo.after (hostOps0 (F := Ideal)) W (Proc.devRef .tc main_v23) (ix2 b u)
      = StableHlo.after (hostOps0 (F := Ideal)) W (Proc.devRef .tc main_v22) (ix1 b) :=
  (congrFun (host0_v23 W) (ix2 b u)).trans ((bid_a_a1 _ _ b u).trans (congrFun (host0_v22 W) (ix1 b)).symm)

/-! ## The first call's exit contents -/

/-- An input array of the first call is, at the call's exit, what it was at its entry. -/
theorem W2_in (c : Dev nD) (w : Fin cfg0.W) (hin : (cfg0.win w).isOut = false) :
    W2 m ρ c (Proc.devRef .tc (Pipeline.arrRef spec0 w)) = V1 m ρ c (Pipeline.arrRef spec0 w) :=
  (W2_arr m ρ c w).trans ((dat0 (V1 m ρ) c).arrAt_in w hin _)

theorem W2_v7 (c : Dev nD) : W2 m ρ c (Proc.devRef .tc main_v7) = V1 m ρ c main_v7 := W2_in m ρ c 0 rfl
theorem W2_v31 (c : Dev nD) : W2 m ρ c (Proc.devRef .tc main_v31) = V1 m ρ c main_v31 := W2_in m ρ c 1 rfl
theorem W2_v34 (c : Dev nD) : W2 m ρ c (Proc.devRef .tc main_v34) = V1 m ρ c main_v34 := W2_in m ρ c 2 rfl
theorem W2_arg6 (c : Dev nD) : W2 m ρ c (Proc.devRef .tc main_arg6) = V1 m ρ c main_arg6 := W2_in m ρ c 3 rfl
theorem W2_v15 (c : Dev nD) : W2 m ρ c (Proc.devRef .tc main_v15) = W1 m ρ c (Proc.devRef .tc main_v15) := W2_of_ne m ρ c main_v15 (by decide)
theorem W2_v23 (c : Dev nD) : W2 m ρ c (Proc.devRef .tc main_v23) = W1 m ρ c (Proc.devRef .tc main_v23) := W2_of_ne m ρ c main_v23 (by decide)
theorem W2_arg7 (c : Dev nD) : W2 m ρ c (Proc.devRef .tc main_arg7) = W1 m ρ c (Proc.devRef .tc main_arg7) := W2_of_ne m ρ c main_arg7 (by decide)
theorem W2_arg8 (c : Dev nD) : W2 m ρ c (Proc.devRef .tc main_arg8) = W1 m ρ c (Proc.devRef .tc main_arg8) := W2_of_ne m ρ c main_arg8 (by decide)
theorem W2_v35 (c : Dev nD) : W2 m ρ c (Proc.devRef .tc main_v35) = W1 m ρ c (Proc.devRef .tc main_v35) := W2_of_ne m ρ c main_v35 (by decide)
theorem W2_v39 (c : Dev nD) : W2 m ρ c (Proc.devRef .tc main_v39) = W1 m ρ c (Proc.devRef .tc main_v39) := W2_of_ne m ρ c main_v39 (by decide)
theorem W2_v36 (c : Dev nD) : W2 m ρ c (Proc.devRef .tc main_v36) = W1 m ρ c (Proc.devRef .tc main_v36) := W2_of_ne m ρ c main_v36 (by decide)
theorem W2_v37 (c : Dev nD) : W2 m ρ c (Proc.devRef .tc main_v37) = W1 m ρ c (Proc.devRef .tc main_v37) := W2_of_ne m ρ c main_v37 (by decide)

/-! ## Between the two calls: the two cores' running maxima and sums merged -/

/-- The larger of the two cores' maxima at `(f, k)`. -/
def mergeMax (M : (⟨3, ![2, 64, 32]⟩ : Shape).Idx → EReal) (f : Fin 64) (k : Fin 32) : EReal :=
  max (M (ix3 (0 : Fin 2) f k)) (M (ix3 (1 : Fin 2) f k))

/-- The two cores' sums of exponentials, each rescaled from its own maximum to the common one, added. -/
def mergeSum (M L : (⟨3, ![2, 64, 32]⟩ : Shape).Idx → EReal) (f : Fin 64) (k : Fin 32) : EReal :=
  L (ix3 (0 : Fin 2) f k) * Ideal.exp (M (ix3 (0 : Fin 2) f k) - mergeMax M f k)
    + L (ix3 (1 : Fin 2) f k) * Ideal.exp (M (ix3 (1 : Fin 2) f k) - mergeMax M f k)

/-- Slab 0 of a `[2, 64, 32]` array, cut out and reshaped to `[64, 32]`, at `(f, k)`. -/
theorem host_slab0 (x : FVec Ideal S2x64x32 .f32) (f : Fin 64) (k : Fin 32) :
    shapeCast S64x32 (extractStridedSlice S1x64x32 ![0, 0, 0] x slices_S2x64x32_S1x64x32_0_0_0) shapeCasts_S1x64x32_S64x32 (ix2 f k)
      = x (ix3 (0 : Fin 2) f k) := slab_apply (0 : Fin 2) x _ _ f k
/-- Slab 1 likewise. -/
theorem host_slab1 (x : FVec Ideal S2x64x32 .f32) (f : Fin 64) (k : Fin 32) :
    shapeCast S64x32 (extractStridedSlice S1x64x32 ![1, 0, 0] x slices_S2x64x32_S1x64x32_1_0_0) shapeCasts_S1x64x32_S64x32 (ix2 f k)
      = x (ix3 (1 : Fin 2) f k) := slab_apply (1 : Fin 2) x _ _ f k

/-- The merge of the sums, entry by entry, from the four slabs' entries. -/
theorem merge_sum_of (A B C D : FVec Ideal S64x32 .f32) (i : S64x32.Idx) (a b c d : EReal)
    (hA : A i = a) (hB : B i = b) (hC : C i = c) (hD : D i = d) :
    addf (mulf A (Host.exp (subf B (maximumf B C)))) (mulf D (Host.exp (subf C (maximumf B C)))) i
      = a * Ideal.exp (b - max b c) + d * Ideal.exp (c - max b c) := by
  subst hA hB hC hD
  rfl

/-- The merged maximum the second call is entered with. -/
theorem host1_v49_apply (W : Valuation τ sig (Elt Ideal)) (f : Fin 64) (k : Fin 32) :
    StableHlo.after (hostOps1 (F := Ideal)) W (Proc.devRef .tc main_v49) (ix2 f k)
      = mergeMax (W (Proc.devRef .tc main_v40_0)) f k := by
  after_results
  exact congrArg₂ (@max EReal _) (host_slab0 _ f k) (host_slab1 _ f k)

set_option maxHeartbeats 1000000 in
/-- The merged sum the second call is entered with. -/
theorem host1_v56_apply (W : Valuation τ sig (Elt Ideal)) (f : Fin 64) (k : Fin 32) :
    StableHlo.after (hostOps1 (F := Ideal)) W (Proc.devRef .tc main_v56) (ix2 f k)
      = mergeSum (W (Proc.devRef .tc main_v40_0)) (W (Proc.devRef .tc main_v40_1)) f k := by
  after_results_simp
  unfold mergeSum mergeMax
  exact merge_sum_of _ _ _ _ _ _ _ _ _ (host_slab0 _ f k) (host_slab0 _ f k) (host_slab1 _ f k) (host_slab1 _ f k)

/-! ### What the operations between the calls leave alone -/

/-- The buffers the operations between the two calls write. -/
def host1Writes : List (Ref sig .tc) :=
  [main_v41, main_v42, main_v43, main_v44, main_v45, main_v46, main_v47, main_v48, main_v49, main_v50, main_v51, main_v52,
    main_v53, main_v54, main_v55, main_v56]

theorem host1_writes_sub :
    (hostOps1 (F := Ideal)).Forall fun op => op.writes ⊆ (host1Writes.map (Proc.devRef (τ := τ) .tc)).toFinset := by
  simp only [hostOps1, List.Forall, unary_writes, binary_writes, reshape_writes, Finset.singleton_subset_iff,
    List.mem_toFinset, List.mem_map]
  repeat' apply And.intro
  all_goals exact ⟨_, by decide, rfl⟩

/-- Every other buffer is as it was. -/
theorem host1_keep (W : Valuation τ sig (Elt Ideal)) (b : Ref sig .tc) (hb : b ∉ host1Writes) :
    StableHlo.after (hostOps1 (F := Ideal)) W (Proc.devRef .tc b) = W (Proc.devRef .tc b) :=
  StableHlo.after_of_writes_sub _ W host1_writes_sub hb

example (W : Valuation τ sig (Elt Ideal)) :
    StableHlo.after (hostOps1 (F := Ideal)) W (Proc.devRef .tc main_v7) = W (Proc.devRef .tc main_v7) :=
  host1_keep W main_v7 (by decide)

/-! ## After the second call: the column of scores as a vector -/

theorem host2_v58_apply (W : Valuation τ sig (Elt Ideal)) (b : Fin 4096) :
    StableHlo.after (hostOps2 (F := Ideal)) W (Proc.devRef .tc main_v58) (ix1 b)
      = W (Proc.devRef .tc main_v57) (ix2 b (0 : Fin 1)) := by
  after_results
  exact sc_a1_a _ _ b

/-! ## The same at the generated boundary contents -/

theorem V3_v49_apply (c : Dev nD) (f : Fin 64) (k : Fin 32) :
    V3 m ρ c main_v49 (ix2 f k) = mergeMax (W2 m ρ c (Proc.devRef .tc main_v40_0)) f k :=
  host1_v49_apply (W2 m ρ c) f k

theorem V3_v56_apply (c : Dev nD) (f : Fin 64) (k : Fin 32) :
    V3 m ρ c main_v56 (ix2 f k)
      = mergeSum (W2 m ρ c (Proc.devRef .tc main_v40_0)) (W2 m ρ c (Proc.devRef .tc main_v40_1)) f k :=
  host1_v56_apply (W2 m ρ c) f k

theorem V3_keep (c : Dev nD) (b : Ref sig .tc) (hb : b ∉ host1Writes) :
    V3 m ρ c b = W2 m ρ c (Proc.devRef .tc b) :=
  host1_keep (W2 m ρ c) b hb

theorem W5_v58_apply (c : Dev nD) (b : Fin 4096) :
    W5 m ρ c (Proc.devRef .tc main_v58) (ix1 b) = W4 m ρ c (Proc.devRef .tc main_v57) (ix2 b (0 : Fin 1)) :=
  host2_v58_apply (W4 m ρ c) b

end Cert.KernelIdeal.KHost

end
-- ==== Proof.Region1.lean ====
/-
  The second pallas_call, read as values.  Its grid has 128 points; point t stages rows 32 t … 32 t + 31 of the five
  per-row arrays (user rows, friend rows, mask, item rows, item biases) and the nine whole parameter arrays (the batch
  maximum and sum of the keys, Key, Mem, WA, the bias row, the logit row, the two halves of the mixing matrix), and
  writes back rows 32 t … 32 t + 31 of the [4096, 1] score array.  Given that the body leaves in the output block,
  entry (p, 0), the specification's score of block row p (`hbody`), the score array after the call holds at (b, 0)
  the score of row b computed from the arrays as the call finds them: block row p of point t IS array row 32 t + p,
  and the blocks of the 128 points tile the 4096 rows.
-/
import proofs.«174119_j9096740733368_2_alg».proof.Proof.Spec
import proofs.«174119_j9096740733368_2_alg».proof.Proof.Gen.KernelIdeal.Frame
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- What the body is required to leave in the output block, entry (p, 0): the score of block row p. -/
def BodySpec : Prop :=
  ∀ (x0 : Vec Ideal S32x256 .bf16) (x1 : Vec Ideal S32x64x256 .bf16) (x2 : Vec Ideal S32x64 .f32) (x3 : Vec Ideal S32x256 .bf16)
    (x4 : Vec Ideal S32x1 .f32) (x5 x6 : Vec Ideal S64x32 .f32) (x7 : Vec Ideal S256x32 .f32) (x8 : Vec Ideal S32x256 .f32)
    (x9 : Vec Ideal S256x256 .f32) (x10 x11 : Vec Ideal S1x256 .f32) (x12 x13 : Vec Ideal S256x2 .f32) (p : Fin 32),
    out1_14 (F := Ideal) x0 x1 x2 x3 x4 x5 x6 x7 x8 x9 x10 x11 x12 x13 (ix2 p 0)
      = Cert.Spec.rowScore (fun d m => x7 (ix2 d m)) (fun m d => x8 (ix2 m d)) (fun d a => x9 (ix2 d a)) (fun a => x10 (ix2 0 a))
          (fun a => x11 (ix2 0 a)) (fun d j => x12 (ix2 d j)) (fun d j => x13 (ix2 d j)) (fun f m => x5 (ix2 f m)) (fun f m => x6 (ix2 f m))
          (fun d => x0 (ix2 p d)) (fun f => x2 (ix2 p f)) (fun f d => x1 (ix3 p f d)) (fun d => x3 (ix2 p d)) (x4 (ix2 p 0))

/-- Row b's score from the arrays as the call finds them. -/
def row (c : Dev nD) (b : Fin 4096) : EReal :=
  Cert.Spec.rowScore
    (fun d m => (V c main_arg6 : S256x32.Idx → EReal) (ix2 d m))
    (fun m d => (V c main_arg7 : S32x256.Idx → EReal) (ix2 m d))
    (fun d a => (V c main_arg8 : S256x256.Idx → EReal) (ix2 d a))
    (fun a => (V c main_v35 : S1x256.Idx → EReal) (ix2 0 a))
    (fun a => (V c main_v39 : S1x256.Idx → EReal) (ix2 0 a))
    (fun d j => (V c main_v36 : S256x2.Idx → EReal) (ix2 d j))
    (fun d j => (V c main_v37 : S256x2.Idx → EReal) (ix2 d j))
    (fun f m => (V c main_v49 : S64x32.Idx → EReal) (ix2 f m))
    (fun f m => (V c main_v56 : S64x32.Idx → EReal) (ix2 f m))
    (fun d => (V c main_v7 : S4096x256.Idx → EReal) (ix2 b d))
    (fun f => (V c main_v34 : S4096x64.Idx → EReal) (ix2 b f))
    (fun f d => (V c main_v31 : S4096x64x256.Idx → EReal) (ix3 b f d))
    (fun d => (V c main_v15 : S4096x256.Idx → EReal) (ix2 b d))
    ((V c main_v23 : S4096x1.Idx → EReal) (ix2 b 0))

/-- The score array: entry (b, 0) is row b's score. -/
def G1 (c : Dev nD) : S4096x1.Idx → EReal := fun i => row V c ⟨(i 0).val, (i 0).isLt⟩

/-- The printed index maps over the grid: a per-row window's block index is the point, a parameter's is zero. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_14.index t (0 : Fin 2) = t.val ∧ win1_14.index t (1 : Fin 2) = 0 :=
  (by decide +kernel : ∀ t : Fin grid1.N, _)

theorem idx_const : ∀ t : Fin cfg1.N,
    (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0) :=
  (by decide +kernel : ∀ t : Fin grid1.N, _)

/-! ## A block's entry is the array's -/

theorem blk0 (c : Dev nD) (t : Fin cfg1.N) (p : Fin 32) (d : Fin 256) (b : Fin 4096) (hb : b.val = t.val * 32 + p.val) :
    iblk1 V c 0 t (ix2 p d) = (V c main_v7 : S4096x256.Idx → EReal) (ix2 b d) := by
  show (V c main_v7 : S4096x256.Idx → EReal) (((cfg1.win 0).blk t).view.emb (ix2 p d)) = _
  refine congrArg _ (funext fun a => Fin.ext ?_)
  obtain ⟨e0, e1, -⟩ := idx_facts t
  match a with
  | ⟨0, _⟩ => show win1_0.index t (0 : Fin 2) * 32 + 1 * p.val = b.val; omega
  | ⟨1, _⟩ => show win1_0.index t (1 : Fin 2) * 256 + 1 * d.val = d.val; omega

theorem blk1 (c : Dev nD) (t : Fin cfg1.N) (p : Fin 32) (f : Fin 64) (d : Fin 256) (b : Fin 4096) (hb : b.val = t.val * 32 + p.val) :
    iblk1 V c 1 t (ix3 p f d) = (V c main_v31 : S4096x64x256.Idx → EReal) (ix3 b f d) := by
  show (V c main_v31 : S4096x64x256.Idx → EReal) (((cfg1.win 1).blk t).view.emb (ix3 p f d)) = _
  refine congrArg _ (funext fun a => Fin.ext ?_)
  obtain ⟨-, -, e0, e1, e2, -⟩ := idx_facts t
  match a with
  | ⟨0, _⟩ => show win1_1.index t (0 : Fin 3) * 32 + 1 * p.val = b.val; omega
  | ⟨1, _⟩ => show win1_1.index t (1 : Fin 3) * 64 + 1 * f.val = f.val; omega
  | ⟨2, _⟩ => show win1_1.index t (2 : Fin 3) * 256 + 1 * d.val = d.val; omega

theorem blk2 (c : Dev nD) (t : Fin cfg1.N) (p : Fin 32) (f : Fin 64) (b : Fin 4096) (hb : b.val = t.val * 32 + p.val) :
    iblk1 V c 2 t (ix2 p f) = (V c main_v34 : S4096x64.Idx → EReal) (ix2 b f) := by
  show (V c main_v34 : S4096x64.Idx → EReal) (((cfg1.win 2).blk t).view.emb (ix2 p f)) = _
  refine congrArg _ (funext fun a => Fin.ext ?_)
  obtain ⟨-, -, -, -, -, e0, e1, -⟩ := idx_facts t
  match a with
  | ⟨0, _⟩ => show win1_2.index t (0 : Fin 2) * 32 + 1 * p.val = b.val; omega
  | ⟨1, _⟩ => show win1_2.index t (1 : Fin 2) * 64 + 1 * f.val = f.val; omega

theorem blk3 (c : Dev nD) (t : Fin cfg1.N) (p : Fin 32) (d : Fin 256) (b : Fin 4096) (hb : b.val = t.val * 32 + p.val) :
    iblk1 V c 3 t (ix2 p d) = (V c main_v15 : S4096x256.Idx → EReal) (ix2 b d) := by
  show (V c main_v15 : S4096x256.Idx → EReal) (((cfg1.win 3).blk t).view.emb (ix2 p d)) = _
  refine congrArg _ (funext fun a => Fin.ext ?_)
  obtain ⟨-, -, -, -, -, -, -, e0, e1, -⟩ := idx_facts t
  match a with
  | ⟨0, _⟩ => show win1_3.index t (0 : Fin 2) * 32 + 1 * p.val = b.val; omega
  | ⟨1, _⟩ => show win1_3.index t (1 : Fin 2) * 256 + 1 * d.val = d.val; omega

theorem blk4 (c : Dev nD) (t : Fin cfg1.N) (p : Fin 32) (b : Fin 4096) (hb : b.val = t.val * 32 + p.val) :
    iblk1 V c 4 t (ix2 p 0) = (V c main_v23 : S4096x1.Idx → EReal) (ix2 b 0) := by
  show (V c main_v23 : S4096x1.Idx → EReal) (((cfg1.win 4).blk t).view.emb (ix2 p 0)) = _
  refine congrArg _ (funext fun a => Fin.ext ?_)
  obtain ⟨-, -, -, -, -, -, -, -, -, e0, e1, -⟩ := idx_facts t
  match a with
  | ⟨0, _⟩ => show win1_4.index t (0 : Fin 2) * 32 + 1 * p.val = b.val; omega
  | ⟨1, _⟩ => show win1_4.index t (1 : Fin 2) * 1 + 1 * 0 = 0; omega

/-- A parameter window's block is the whole array. -/
theorem blk5 (c : Dev nD) (t : Fin cfg1.N) (y : S64x32.Idx) : iblk1 V c 5 t y = (V c main_v49 : S64x32.Idx → EReal) y := by
  show (V c main_v49 : S64x32.Idx → EReal) (((cfg1.win 5).blk t).view.emb y) = _
  refine congrArg _ (funext fun a => Fin.ext ?_)
  obtain ⟨⟨e0, e1⟩, -⟩ := idx_const t
  match a with
  | ⟨0, _⟩ => show win1_5.index t (0 : Fin 2) * 64 + 1 * (y 0).val = (y 0).val; omega
  | ⟨1, _⟩ => show win1_5.index t (1 : Fin 2) * 32 + 1 * (y 1).val = (y 1).val; omega

theorem blk6 (c : Dev nD) (t : Fin cfg1.N) (y : S64x32.Idx) : iblk1 V c 6 t y = (V c main_v56 : S64x32.Idx → EReal) y := by
  show (V c main_v56 : S64x32.Idx → EReal) (((cfg1.win 6).blk t).view.emb y) = _
  refine congrArg _ (funext fun a => Fin.ext ?_)
  obtain ⟨-, ⟨e0, e1⟩, -⟩ := idx_const t
  match a with
  | ⟨0, _⟩ => show win1_6.index t (0 : Fin 2) * 64 + 1 * (y 0).val = (y 0).val; omega
  | ⟨1, _⟩ => show win1_6.index t (1 : Fin 2) * 32 + 1 * (y 1).val = (y 1).val; omega

theorem blk7 (c : Dev nD) (t : Fin cfg1.N) (y : S256x32.Idx) : iblk1 V c 7 t y = (V c main_arg6 : S256x32.Idx → EReal) y := by
  show (V c main_arg6 : S256x32.Idx → EReal) (((cfg1.win 7).blk t).view.emb y) = _
  refine congrArg _ (funext fun a => Fin.ext ?_)
  obtain ⟨-, -, ⟨e0, e1⟩, -⟩ := idx_const t
  match a with
  | ⟨0, _⟩ => show win1_7.index t (0 : Fin 2) * 256 + 1 * (y 0).val = (y 0).val; omega
  | ⟨1, _⟩ => show win1_7.index t (1 : Fin 2) * 32 + 1 * (y 1).val = (y 1).val; omega

theorem blk8 (c : Dev nD) (t : Fin cfg1.N) (y : S32x256.Idx) : iblk1 V c 8 t y = (V c main_arg7 : S32x256.Idx → EReal) y := by
  show (V c main_arg7 : S32x256.Idx → EReal) (((cfg1.win 8).blk t).view.emb y) = _
  refine congrArg _ (funext fun a => Fin.ext ?_)
  obtain ⟨-, -, -, ⟨e0, e1⟩, -⟩ := idx_const t
  match a with
  | ⟨0, _⟩ => show win1_8.index t (0 : Fin 2) * 32 + 1 * (y 0).val = (y 0).val; omega
  | ⟨1, _⟩ => show win1_8.index t (1 : Fin 2) * 256 + 1 * (y 1).val = (y 1).val; omega

theorem blk9 (c : Dev nD) (t : Fin cfg1.N) (y : S256x256.Idx) : iblk1 V c 9 t y = (V c main_arg8 : S256x256.Idx → EReal) y := by
  show (V c main_arg8 : S256x256.Idx → EReal) (((cfg1.win 9).blk t).view.emb y) = _
  refine congrArg _ (funext fun a => Fin.ext ?_)
  obtain ⟨-, -, -, -, ⟨e0, e1⟩, -⟩ := idx_const t
  match a with
  | ⟨0, _⟩ => show win1_9.index t (0 : Fin 2) * 256 + 1 * (y 0).val = (y 0).val; omega
  | ⟨1, _⟩ => show win1_9.index t (1 : Fin 2) * 256 + 1 * (y 1).val = (y 1).val; omega

theorem blk10 (c : Dev nD) (t : Fin cfg1.N) (y : S1x256.Idx) : iblk1 V c 10 t y = (V c main_v35 : S1x256.Idx → EReal) y := by
  show (V c main_v35 : S1x256.Idx → EReal) (((cfg1.win 10).blk t).view.emb y) = _
  refine congrArg _ (funext fun a => Fin.ext ?_)
  obtain ⟨-, -, -, -, -, ⟨e0, e1⟩, -⟩ := idx_const t
  match a with
  | ⟨0, _⟩ => show win1_10.index t (0 : Fin 2) * 1 + 1 * (y 0).val = (y 0).val; omega
  | ⟨1, _⟩ => show win1_10.index t (1 : Fin 2) * 256 + 1 * (y 1).val = (y 1).val; omega

theorem blk11 (c : Dev nD) (t : Fin cfg1.N) (y : S1x256.Idx) : iblk1 V c 11 t y = (V c main_v39 : S1x256.Idx → EReal) y := by
  show (V c main_v39 : S1x256.Idx → EReal) (((cfg1.win 11).blk t).view.emb y) = _
  refine congrArg _ (funext fun a => Fin.ext ?_)
  obtain ⟨-, -, -, -, -, -, ⟨e0, e1⟩, -⟩ := idx_const t
  match a with
  | ⟨0, _⟩ => show win1_11.index t (0 : Fin 2) * 1 + 1 * (y 0).val = (y 0).val; omega
  | ⟨1, _⟩ => show win1_11.index t (1 : Fin 2) * 256 + 1 * (y 1).val = (y 1).val; omega

theorem blk12 (c : Dev nD) (t : Fin cfg1.N) (y : S256x2.Idx) : iblk1 V c 12 t y = (V c main_v36 : S256x2.Idx → EReal) y := by
  show (V c main_v36 : S256x2.Idx → EReal) (((cfg1.win 12).blk t).view.emb y) = _
  refine congrArg _ (funext fun a => Fin.ext ?_)
  obtain ⟨-, -, -, -, -, -, -, ⟨e0, e1⟩, -⟩ := idx_const t
  match a with
  | ⟨0, _⟩ => show win1_12.index t (0 : Fin 2) * 256 + 1 * (y 0).val = (y 0).val; omega
  | ⟨1, _⟩ => show win1_12.index t (1 : Fin 2) * 2 + 1 * (y 1).val = (y 1).val; omega

theorem blk13 (c : Dev nD) (t : Fin cfg1.N) (y : S256x2.Idx) : iblk1 V c 13 t y = (V c main_v37 : S256x2.Idx → EReal) y := by
  show (V c main_v37 : S256x2.Idx → EReal) (((cfg1.win 13).blk t).view.emb y) = _
  refine congrArg _ (funext fun a => Fin.ext ?_)
  obtain ⟨-, -, -, -, -, -, -, -, e0, e1⟩ := idx_const t
  match a with
  | ⟨0, _⟩ => show win1_13.index t (0 : Fin 2) * 256 + 1 * (y 0).val = (y 0).val; omega
  | ⟨1, _⟩ => show win1_13.index t (1 : Fin 2) * 2 + 1 * (y 1).val = (y 1).val; omega

/-! ## What a point writes back, and the whole array -/

/-- Point t writes back rows 32 t … 32 t + 31 of the score array. -/
theorem flushed_eq (hbody : BodySpec) (c : Dev nD) (t : Fin cfg1.N) :
    (dat1 V c).flushed 14 t = ((cfg1.win 14).blk t).view.read (Elt Ideal) (G1 V c) := by
  show (cfg1.win 14).cut (grid1.coords t) ((dat1 V c).after 14 t) = _
  rw [after1_14]
  funext j
  obtain ⟨p, q, rfl⟩ : ∃ (p : Fin 32) (q : Fin 1), j = ix2 p q := ⟨j 0, j 1, eq_ix2 j⟩
  obtain rfl : q = 0 := Subsingleton.elim _ _
  refine (hbody _ _ _ _ _ _ _ _ _ _ _ _ _ _ p).trans ?_
  have ht : t.val < 128 := lt_of_lt_of_eq t.isLt N_1
  have hp : p.val < 32 := p.isLt
  obtain ⟨-, -, -, -, -, -, -, -, -, -, -, e0, e1⟩ := idx_facts t
  have hrow : (⟨((((cfg1.win 14).blk t).view.emb (ix2 p 0)) 0).val, ((((cfg1.win 14).blk t).view.emb (ix2 p 0)) 0).isLt⟩ : Fin 4096)
      = ⟨t.val * 32 + p.val, by omega⟩ :=
    Fin.ext (by show win1_14.index t (0 : Fin 2) * 32 + 1 * p.val = t.val * 32 + p.val; omega)
  show _ = row V c ⟨((((cfg1.win 14).blk t).view.emb (ix2 p 0)) 0).val, _⟩
  rw [hrow]
  unfold row
  have hb : (⟨t.val * 32 + p.val, by omega⟩ : Fin 4096).val = t.val * 32 + p.val := rfl
  have a0 : (fun d => iblk1 V c 0 t (ix2 p d)) = fun d => (V c main_v7 : S4096x256.Idx → EReal) (ix2 ⟨t.val * 32 + p.val, by omega⟩ d) :=
    funext fun d => blk0 V c t p d _ hb
  have a1 : (fun f d => iblk1 V c 1 t (ix3 p f d)) = fun f d => (V c main_v31 : S4096x64x256.Idx → EReal) (ix3 ⟨t.val * 32 + p.val, by omega⟩ f d) :=
    funext fun f => funext fun d => blk1 V c t p f d _ hb
  have a2 : (fun f => iblk1 V c 2 t (ix2 p f)) = fun f => (V c main_v34 : S4096x64.Idx → EReal) (ix2 ⟨t.val * 32 + p.val, by omega⟩ f) :=
    funext fun f => blk2 V c t p f _ hb
  have a3 : (fun d => iblk1 V c 3 t (ix2 p d)) = fun d => (V c main_v15 : S4096x256.Idx → EReal) (ix2 ⟨t.val * 32 + p.val, by omega⟩ d) :=
    funext fun d => blk3 V c t p d _ hb
  have a4 : iblk1 V c 4 t (ix2 p 0) = (V c main_v23 : S4096x1.Idx → EReal) (ix2 ⟨t.val * 32 + p.val, by omega⟩ 0) := blk4 V c t p _ hb
  rw [a0, a1, a2, a3, a4]
  simp only [blk5, blk6, blk7, blk8, blk9, blk10, blk11, blk12, blk13]

/-- An index of the score array is in point t's block iff its row is among the block's 32 rows. -/
theorem mem_blk (t : Fin cfg1.N) (i : S4096x1.Idx) :
    i ∈ ((cfg1.win 14).blk t).view.set ↔ ∀ a : Fin 2, win1_14.index t a * S32x1.size a ≤ (i a).val ∧ (i a).val < win1_14.index t a * S32x1.size a + S32x1.size a := by
  show i ∈ ((View.whole main_v57).slice (win1_14.rect t)).set ↔ _
  rw [View.set_slice_whole, Rect.mem_set_unit]
  exact Iff.rfl

/-- The score array after the call: row b's score at (b, 0) — the point that covers row b is b / 32. -/
theorem final (hbody : BodySpec) (c : Dev nD) : (dat1 V c).arrAt 14 cfg1.N = G1 V c :=
  (dat1 V c).arrAt_eq_of_cover 14 (G1 V c) (fun t _ => flushed_eq V hbody c t) fun i => by
    have h0 : (i 0).val < 4096 := (i 0).isLt
    have h1 : (i 1).val < 1 := (i 1).isLt
    have hN : cfg1.N = 128 := N_1
    refine ⟨⟨(i 0).val / 32, by omega⟩, flush1_14 _, ?_⟩
    rw [mem_blk]
    obtain ⟨-, -, -, -, -, -, -, -, -, -, -, e0, e1⟩ := idx_facts ⟨(i 0).val / 32, by omega⟩
    intro a
    match a with
    | ⟨0, _⟩ => show win1_14.index ⟨(i 0).val / 32, _⟩ (0 : Fin 2) * 32 ≤ (i 0).val ∧ (i 0).val < win1_14.index ⟨(i 0).val / 32, _⟩ (0 : Fin 2) * 32 + 32
                rw [e0]; dsimp only; omega
    | ⟨1, _⟩ => show win1_14.index ⟨(i 0).val / 32, _⟩ (1 : Fin 2) * 1 ≤ (i 1).val ∧ (i 1).val < win1_14.index ⟨(i 0).val / 32, _⟩ (1 : Fin 2) * 1 + 1
                rw [e1]; omega

end Cert.KernelIdeal.R1

end
-- ==== Proof.Body1b.lean ====
import proofs.«174119_j9096740733368_2_alg».proof.Proof.Spec
import proofs.«174119_j9096740733368_2_alg».proof.Proof.Gen.KernelIdeal.Skeleton
import proofs.«174119_j9096740733368_2_alg».proof.Proof.Gen.KernelIdeal.Frame
import proofs.«174119_j9096740733368_2_alg».proof.Proof.Body1a
import Idealize.ShloMosaic.Lib.ValueIdx
import Idealize.ShloMosaic.Lib.ValueLayout
import Idealize.ShloMosaic.Lib.Pipeline.Value
import Idealize.ShloMosaic.PureOps.Ideal.Laws
noncomputable section
open scoped BigOperators
open Idealize.ShloMosaic Idealize.ShloMosaic.ValueIdx Cert.KernelIdeal Cert.KernelIdeal.Gen

/-!
  One row's score, from the products f2 on: the hidden layer max (f2 * WA + BA) 0, each friend's logit against U, its
  masked exponential, the sum of those over the friends, the friend vector (the exponentials over their sum plus 1e-8,
  against f2), the user vector, the two mixing logits, their softmax, and the mixture against the item embedding plus
  the item bias. Each step is read at one entry, over the extended reals, and the whole is matched with the
  specification's score of a row.
-/

namespace Cert.Body1.B

/-! ## Layout operations at the shapes met here, read at an index written by coordinates -/

section Layout
variable {α : Type}

/-- A vector of length a cast to an a x 1 matrix reads, at (i, u), the vector at i. -/
theorem shapeCast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 matrix cast to a x 1 x 1 reads, at (i, u, u'), the matrix at (i, 0). -/
theorem shapeCast_a1_a11 {a : ℕ} (x : (⟨2, ![a, 1]⟩ : Shape).Idx → α) (h : (⟨2, ![a, 1]⟩ : Shape).ShapeCasts ⟨3, ![a, 1, 1]⟩)
    (i : Fin a) (u u' : Fin 1) : shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu']; omega)

/-- An a x b matrix cast to a x b x 1 reads, at (i, j, u), the matrix at (i, j). -/
theorem shapeCast_ab_ab1 {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu]; omega)

/-- A shape cast to the same shape is the identity. -/
theorem shapeCast_same {s : Shape} (x : s.Idx → α) (h : s.ShapeCasts s) (j : s.Idx) : shapeCast s x h j = x j :=
  shapeCast_apply x h j j rfl

/-- An a x 1 x 1 array broadcast to a x b x 1 reads, at (i, j, u), the operand at (i, 0, 0). -/
theorem broadcastTo_a11_ab1 {a b : ℕ} (v : (⟨3, ![a, 1, 1]⟩ : Shape).Idx → α) (h : (⟨3, ![a, 1, 1]⟩ : Shape).Broadcasts ⟨3, ![a, b, 1]⟩)
    (i : Fin a) (j : Fin b) (u : Fin 1) : broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An a x b x 1 array broadcast to a x b x c reads, at (i, j, k), the operand at (i, j, 0). -/
theorem broadcastTo_ab1_abc {a b c : ℕ} (v : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An a x 1 matrix broadcast to a x b reads, at (i, j), the operand at (i, 0). -/
theorem broadcastTo_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

end Cert.Body1.B

namespace Cert.Body1.B

/-- The single-precision word of minus infinity is the bottom element. -/
theorem ofBits_ninf_f32 : Ideal.ofBits .f32 0xFF800000#32 = ⊥ := by simp [Ideal.ofBits, Ideal.ieee]

/-! ## The index a one-axis reduction inserts, by coordinates -/

/-- Reducing the middle axis of a rank-3 shape: the inserted index over (p, d) with coordinate k is (p, k, d). -/
theorem lift3_axis1 {n0 n1 n2 : ℕ} (h : (⟨3, ![n0, n1, n2]⟩ : Shape).Reduces [1] ⟨2, ![n0, n2]⟩)
    (p : Fin n0) (d : Fin n2) (k : Fin n1) : h.lift (ix2 p d) k = ix3 p k d := by
  funext c; apply Fin.ext
  match c with
  | ⟨0, _⟩ => rfl
  | ⟨1, _⟩ => rfl
  | ⟨2, _⟩ => rfl

/-- Reducing the last axis of a matrix: the inserted index over p with coordinate k is (p, k). -/
theorem lift2_axis1 {n0 n1 : ℕ} (h : (⟨2, ![n0, n1]⟩ : Shape).Reduces [1] ⟨1, ![n0]⟩)
    (p : Fin n0) (k : Fin n1) : h.lift (ix1 p) k = ix2 p k := by
  funext c; apply Fin.ext
  match c with
  | ⟨0, _⟩ => rfl
  | ⟨1, _⟩ => rfl

/-! ## A matrix product read at an entry -/

/-- The product of an m x k by a k x n matrix into the zero accumulator, read at (a, b), is the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Body1.B

namespace Cert.Body1.B

/-! ## The score of a row, stage by stage -/

/-- The user vector: the user embedding plus the friends' embeddings weighted by the normalised masked exponentials. -/
def st92 (v2 : FVec Ideal S32x256 .f32) (v61 : FVec Ideal S32x64x256 .f32) (v82 : FVec Ideal S32x64x1 .f32) (v83 : FVec Ideal S32x1 .f32) : FVec Ideal S32x256 .f32 :=
  have v84 : FVec Ideal S32x1x1 .f32 := shapeCast S32x1x1 v83 shapeCasts_S32x1_S32x1x1
  have cst_33 : Ideal .f32 := Scalar.ofBits .f32 0x322BCC77#32
  have v85 : FVec Ideal S32x1x1 .f32 := broadcast S32x1x1 cst_33
  have v86 : FVec Ideal S32x1x1 .f32 := addf v84 v85
  have v87 : FVec Ideal S32x64x1 .f32 := broadcastTo S32x64x1 v86 broadcasts_S32x1x1_S32x64x1
  have v88 : FVec Ideal S32x64x1 .f32 := divf v82 v87
  have v89 : FVec Ideal S32x64x256 .f32 := broadcastTo S32x64x256 v88 broadcasts_S32x64x1_S32x64x256
  have v90 : FVec Ideal S32x64x256 .f32 := mulf v89 v61
  have v91 : FVec Ideal S32x256 .f32 := multiReduction .add [1] S32x256 v90 0x00000000#32 reduces_S32x64x256_S32x256 (.inl rfl) rfl
  have v92 : FVec Ideal S32x256 .f32 := addf v2 v91
  v92

theorem st92_apply (v2 : FVec Ideal S32x256 .f32) (v61 : FVec Ideal S32x64x256 .f32) (v82 : FVec Ideal S32x64x1 .f32) (v83 : FVec Ideal S32x1 .f32)
    (p : Fin 32) (d : Fin 256) :
    st92 v2 v61 v82 v83 (ix2 p d)
      = v2 (ix2 p d) + ∑ f : Fin 64, Ideal.div (v82 (ix3 p f 0)) (v83 (ix2 p 0) + Cert.Spec.eps8) * v61 (ix3 p f d) := by
  unfold st92
  refine congrArg (v2 (ix2 p d) + ·) ?_
  refine (Ideal.multiReduction_add_single _ _ reduces_S32x64x256_S32x256 _ _ (ix2 p d)).trans ?_
  refine Finset.sum_congr rfl fun f _ => ?_
  refine (congrArg _ (lift3_axis1 reduces_S32x64x256_S32x256 p d f)).trans ?_
  refine congrArg (· * v61 (ix3 p f d)) ?_
  refine (broadcastTo_ab1_abc _ broadcasts_S32x64x1_S32x64x256 p f d).trans ?_
  refine congrArg (Ideal.div (v82 (ix3 p f 0))) ?_
  refine (broadcastTo_a11_ab1 _ broadcasts_S32x1x1_S32x64x1 p f 0).trans ?_
  refine congrArg (· + Cert.Spec.eps8) ?_
  exact shapeCast_a1_a11 v83 shapeCasts_S32x1_S32x1x1 p 0 0

end Cert.Body1.B

namespace Cert.Body1.B

/-- The two logits: the user embedding against one matrix plus the user vector against the other. -/
def st103 (v2 v92 : FVec Ideal S32x256 .f32) (v93 v95 : Vec Ideal S256x2 .f32) : FVec Ideal S32x2 .f32 :=
  have v94 : FVec Ideal S256x2 .f32 := shapeCast S256x2 v93 shapeCasts_S256x2_S256x2
  have v96 : FVec Ideal S256x2 .f32 := shapeCast S256x2 v95 shapeCasts_S256x2_S256x2
  have v97 : FVec Ideal S32x256 .bf16 := truncf .bf16 v2 bitsLt_bf16_f32
  have v98 : FVec Ideal S256x2 .bf16 := truncf .bf16 v94 bitsLt_bf16_f32
  have cst_39 : FVec Ideal S32x2 .f32 := constant S32x2 .f32 0x00000000#32
  have v99 : FVec Ideal S32x2 .f32 := matmul dot_S32x256_S256x2_S32x2_1_0_0_1_n_n none v97 v98 cst_39
  have v100 : FVec Ideal S32x256 .bf16 := truncf .bf16 v92 bitsLt_bf16_f32
  have v101 : FVec Ideal S256x2 .bf16 := truncf .bf16 v96 bitsLt_bf16_f32
  have cst_40 : FVec Ideal S32x2 .f32 := constant S32x2 .f32 0x00000000#32
  have v102 : FVec Ideal S32x2 .f32 := matmul dot_S32x256_S256x2_S32x2_1_0_0_1_n_n none v100 v101 cst_40
  have v103 : FVec Ideal S32x2 .f32 := addf v99 v102
  v103

/-- One of the two products: a 32 x 256 block against a 256 x 2 matrix, read at (p, j). -/
theorem prod2_apply (x : FVec Ideal S32x256 .f32) (w : Vec Ideal S256x2 .f32) (p : Fin 32) (j : Fin 2) :
    matmul (F := Ideal) dot_S32x256_S256x2_S32x2_1_0_0_1_n_n none (truncf .bf16 x bitsLt_bf16_f32)
        (truncf .bf16 (shapeCast S256x2 w shapeCasts_S256x2_S256x2) bitsLt_bf16_f32) (constant S32x2 .f32 0x00000000#32) (ix2 p j)
      = ∑ d : Fin 256, x (ix2 p d) * w (ix2 d j) := by
  refine (matmul_zero_apply dot_S32x256_S256x2_S32x2_1_0_0_1_n_n_wf none _ _ p j).trans ?_
  refine Finset.sum_congr rfl fun d _ => ?_
  exact congrArg (x (ix2 p d) * ·) (shapeCast_same w shapeCasts_S256x2_S256x2 (ix2 d j))

theorem st103_apply (v2 v92 : FVec Ideal S32x256 .f32) (v93 v95 : Vec Ideal S256x2 .f32) (p : Fin 32) (j : Fin 2) :
    st103 v2 v92 v93 v95 (ix2 p j)
      = ∑ d : Fin 256, v2 (ix2 p d) * v93 (ix2 d j) + ∑ d : Fin 256, v92 (ix2 p d) * v95 (ix2 d j) := by
  unfold st103
  exact congrArg₂ (· + ·) (prod2_apply v2 v93 p j) (prod2_apply v92 v95 p j)

/-- The largest entry of a row of a 32 x 2 block, spread back over the row. -/
theorem rowmax_apply (v : FVec Ideal S32x2 .f32) (p : Fin 32) (j : Fin 2) :
    broadcastTo S32x2 (shapeCast S32x1 (multiReduction (F := Ideal) .maximumf [1] S32 v 0xFF800000#32 reduces_S32x2_S32 (.inl rfl) rfl)
        shapeCasts_S32_S32x1) broadcasts_S32x1_S32x2 (ix2 p j)
      = (Finset.univ : Finset (Fin 2)).fold max ⊥ (fun j => v (ix2 p j)) := by
  refine (broadcastTo_a1_ab _ broadcasts_S32x1_S32x2 p j).trans ?_
  refine (shapeCast_a_a1 _ shapeCasts_S32_S32x1 p 0).trans ?_
  refine (Ideal.multiReduction_maximumf_single v _ reduces_S32x2_S32 _ _ (ix1 p)).trans ?_
  have hf : (v ∘ reduces_S32x2_S32.lift (ix1 p)) = fun j : Fin 2 => v (ix2 p j) :=
    funext fun k => congrArg v (lift2_axis1 reduces_S32x2_S32 p k)
  exact congrArg₂ (fun b f => (Finset.univ : Finset (Fin 2)).fold max b f) ofBits_ninf_f32 hf

/-- The sum of a row of a 32 x 2 block, spread back over the row. -/
theorem rowsum_apply (v : FVec Ideal S32x2 .f32) (p : Fin 32) (j : Fin 2) :
    broadcastTo S32x2 (shapeCast S32x1 (multiReduction (F := Ideal) .add [1] S32 v 0x00000000#32 reduces_S32x2_S32 (.inl rfl) rfl)
        shapeCasts_S32_S32x1) broadcasts_S32x1_S32x2 (ix2 p j)
      = ∑ k : Fin 2, v (ix2 p k) := by
  refine (broadcastTo_a1_ab _ broadcasts_S32x1_S32x2 p j).trans ?_
  refine (shapeCast_a_a1 _ shapeCasts_S32_S32x1 p 0).trans ?_
  refine (Ideal.multiReduction_add_single v _ reduces_S32x2_S32 _ _ (ix1 p)).trans ?_
  exact Finset.sum_congr rfl fun k _ => congrArg v (lift2_axis1 reduces_S32x2_S32 p k)

/-- The softmax of the two logits. -/
def st112 (v103 : FVec Ideal S32x2 .f32) : FVec Ideal S32x2 .f32 :=
  have v104 : FVec Ideal S32 .f32 := multiReduction .maximumf [1] S32 v103 0xFF800000#32 reduces_S32x2_S32 (.inl rfl) rfl
  have v105 : FVec Ideal S32x1 .f32 := shapeCast S32x1 v104 shapeCasts_S32_S32x1
  have v106 : FVec Ideal S32x2 .f32 := broadcastTo S32x2 v105 broadcasts_S32x1_S32x2
  have v107 : FVec Ideal S32x2 .f32 := subf v103 v106
  have v108 : FVec Ideal S32x2 .f32 := exp v107
  have v109 : FVec Ideal S32 .f32 := multiReduction .add [1] S32 v108 0x00000000#32 reduces_S32x2_S32 (.inl rfl) rfl
  have v110 : FVec Ideal S32x1 .f32 := shapeCast S32x1 v109 shapeCasts_S32_S32x1
  have v111 : FVec Ideal S32x2 .f32 := broadcastTo S32x2 v110 broadcasts_S32x1_S32x2
  have v112 : FVec Ideal S32x2 .f32 := divf v108 v111
  v112

theorem st112_apply (v103 : FVec Ideal S32x2 .f32) (p : Fin 32) (j : Fin 2) :
    st112 v103 (ix2 p j) = Cert.Spec.att1 (fun j => v103 (ix2 p j)) j := by
  unfold st112 Cert.Spec.att1
  refine congrArg₂ Ideal.div (congrArg (fun m => Ideal.exp (v103 (ix2 p j) - m)) (rowmax_apply v103 p j)) ?_
  refine (rowsum_apply _ p j).trans ?_
  refine Finset.sum_congr rfl fun k _ => ?_
  exact congrArg (fun m => Ideal.exp (v103 (ix2 p k) - m)) (rowmax_apply v103 p k)

/-- The score: the mixture of the user embedding and the user vector against the item embedding, plus the item bias. -/
def st123 (v2 v92 v10 : FVec Ideal S32x256 .f32) (v112 : FVec Ideal S32x2 .f32) (v12 : FVec Ideal S32x1 .f32) : FVec Ideal S32x1 .f32 :=
  have v113 : FVec Ideal S32x1 .f32 := extractStridedSlice S32x1 ![0, 0] v112 slices_S32x2_o0_0_S32x1
  have v114 : FVec Ideal S32x256 .f32 := broadcastTo S32x256 v113 broadcasts_S32x1_S32x256
  have v115 : FVec Ideal S32x256 .f32 := mulf v2 v114
  have v116 : FVec Ideal S32x1 .f32 := extractStridedSlice S32x1 ![0, 1] v112 slices_S32x2_o0_1_S32x1
  have v117 : FVec Ideal S32x256 .f32 := broadcastTo S32x256 v116 broadcasts_S32x1_S32x256
  have v118 : FVec Ideal S32x256 .f32 := mulf v92 v117
  have v119 : FVec Ideal S32x256 .f32 := addf v115 v118
  have v120 : FVec Ideal S32x256 .f32 := mulf v119 v10
  have v121 : FVec Ideal S32 .f32 := multiReduction .add [1] S32 v120 0x00000000#32 reduces_S32x256_S32 (.inl rfl) rfl
  have v122 : FVec Ideal S32x1 .f32 := shapeCast S32x1 v121 shapeCasts_S32_S32x1
  have v123 : FVec Ideal S32x1 .f32 := addf v122 v12
  v123

theorem st123_apply (v2 v92 v10 : FVec Ideal S32x256 .f32) (v112 : FVec Ideal S32x2 .f32) (v12 : FVec Ideal S32x1 .f32) (p : Fin 32) :
    st123 v2 v92 v10 v112 v12 (ix2 p 0)
      = ∑ d : Fin 256, (v2 (ix2 p d) * v112 (ix2 p 0) + v92 (ix2 p d) * v112 (ix2 p 1)) * v10 (ix2 p d) + v12 (ix2 p 0) := by
  unfold st123
  refine congrArg (· + v12 (ix2 p 0)) ?_
  refine (shapeCast_a_a1 _ shapeCasts_S32_S32x1 p 0).trans ?_
  refine (Ideal.multiReduction_add_single _ _ reduces_S32x256_S32 _ _ (ix1 p)).trans ?_
  refine Finset.sum_congr rfl fun d _ => ?_
  refine (congrArg _ (lift2_axis1 reduces_S32x256_S32 p d)).trans ?_
  refine congrArg (· * v10 (ix2 p d)) ?_
  refine congrArg₂ (· + ·) (congrArg (v2 (ix2 p d) * ·) ?_) (congrArg (v92 (ix2 p d) * ·) ?_)
  · refine (broadcastTo_a1_ab _ broadcasts_S32x1_S32x256 p d).trans ?_
    exact slice2_axis1_apply 0 v112 slices_S32x2_o0_0_S32x1 p 0 0 rfl
  · refine (broadcastTo_a1_ab _ broadcasts_S32x1_S32x256 p d).trans ?_
    exact slice2_axis1_apply 1 v112 slices_S32x2_o0_1_S32x1 p 0 1 rfl

/-- The row's score is the four stages in sequence. -/
theorem pay1_split (v2 v10 : FVec Ideal S32x256 .f32) (v12 : FVec Ideal S32x1 .f32) (v61 : FVec Ideal S32x64x256 .f32)
    (v82 : FVec Ideal S32x64x1 .f32) (v83 : FVec Ideal S32x1 .f32) (v93 v95 : Vec Ideal S256x2 .f32) :
    k1_pay1 (F := Ideal) v2 v10 v12 v61 v82 v83 v93 v95
      = st123 v2 (st92 v2 v61 v82 v83) v10 (st112 (st103 v2 (st92 v2 v61 v82 v83) v93 v95)) v12 := rfl

end Cert.Body1.B

namespace Cert.Body1

open Cert.Body1.B

theorem pay1_apply (v2 v10 : FVec Ideal S32x256 .f32) (v12 : FVec Ideal S32x1 .f32) (v61 : FVec Ideal S32x64x256 .f32) (v82 : FVec Ideal S32x64x1 .f32) (v83 : FVec Ideal S32x1 .f32) (v93 v95 : Vec Ideal S256x2 .f32) (p : Fin 32) :
    k1_pay1 (F := Ideal) v2 v10 v12 v61 v82 v83 v93 v95 (ix2 p 0)
      = Cert.Spec.mix (fun d => v2 (ix2 p d)) (fun d => v2 (ix2 p d) + ∑ f : Fin 64, Ideal.div (v82 (ix3 p f 0)) (v83 (ix2 p 0) + Cert.Spec.eps8) * v61 (ix3 p f d)) (fun d => v10 (ix2 p d))
          (Cert.Spec.att1 (Cert.Spec.logit (fun d j => v93 (ix2 d j)) (fun d j => v95 (ix2 d j)) (fun d => v2 (ix2 p d)) (fun d => v2 (ix2 p d) + ∑ f : Fin 64, Ideal.div (v82 (ix3 p f 0)) (v83 (ix2 p 0) + Cert.Spec.eps8) * v61 (ix3 p f d)))) (v12 (ix2 p 0)) := by
  refine (congrFun (pay1_split v2 v10 v12 v61 v82 v83 v93 v95) (ix2 p 0)).trans ?_
  refine (st123_apply _ _ _ _ _ p).trans ?_
  have hu : ∀ d : Fin 256, st92 v2 v61 v82 v83 (ix2 p d)
      = v2 (ix2 p d) + ∑ f : Fin 64, Ideal.div (v82 (ix3 p f 0)) (v83 (ix2 p 0) + Cert.Spec.eps8) * v61 (ix3 p f d) :=
    fun d => st92_apply v2 v61 v82 v83 p d
  have hl : (fun j : Fin 2 => st103 v2 (st92 v2 v61 v82 v83) v93 v95 (ix2 p j))
      = Cert.Spec.logit (fun d j => v93 (ix2 d j)) (fun d j => v95 (ix2 d j)) (fun d => v2 (ix2 p d))
          (fun d => v2 (ix2 p d) + ∑ f : Fin 64, Ideal.div (v82 (ix3 p f 0)) (v83 (ix2 p 0) + Cert.Spec.eps8) * v61 (ix3 p f d)) := by
    funext j
    refine (st103_apply _ _ _ _ p j).trans ?_
    unfold Cert.Spec.logit
    refine congrArg (∑ d : Fin 256, v2 (ix2 p d) * v93 (ix2 d j) + ·) ?_
    exact Finset.sum_congr rfl fun d _ => congrArg (· * v95 (ix2 d j)) (hu d)
  have hatt : ∀ j : Fin 2, st112 (st103 v2 (st92 v2 v61 v82 v83) v93 v95) (ix2 p j)
      = Cert.Spec.att1 (Cert.Spec.logit (fun d j => v93 (ix2 d j)) (fun d j => v95 (ix2 d j)) (fun d => v2 (ix2 p d))
          (fun d => v2 (ix2 p d) + ∑ f : Fin 64, Ideal.div (v82 (ix3 p f 0)) (v83 (ix2 p 0) + Cert.Spec.eps8) * v61 (ix3 p f d))) j :=
    fun j => (st112_apply _ p j).trans (congrArg (fun lg => Cert.Spec.att1 lg j) hl)
  unfold Cert.Spec.mix
  refine congrArg (· + v12 (ix2 p 0)) (Finset.sum_congr rfl fun d _ => ?_)
  refine congrArg (· * v10 (ix2 p d)) ?_
  exact congrArg₂ (· + ·) (congrArg (v2 (ix2 p d) * ·) (hatt 0)) (congrArg₂ (· * ·) (hu d) (hatt 1))

end Cert.Body1

namespace Cert.Body1.B

/-! ## The masked exponential of a friend's logit -/

/-- Row p * 64 + f of the 2048 rows the 32 x 64 (row, friend) pairs are laid out in. -/
def row (p : Fin 32) (f : Fin 64) : Fin 2048 := ⟨p.val * 64 + f.val, by have := p.isLt; have := f.isLt; omega⟩

section Layout2
variable {α : Type}

/-- A 32 x 64 x 256 array cast to 2048 x 256 reads, at (p * 64 + f, d), the array at (p, f, d). -/
theorem shapeCast_32x64x256 (x : S32x64x256.Idx → α) (h : S32x64x256.ShapeCasts S2048x256) (p : Fin 32) (f : Fin 64) (d : Fin 256) :
    shapeCast S2048x256 x h (ix2 (row p f) d) = x (ix3 p f d) :=
  shapeCast_apply x h _ _ (by
    rw [Shape.rowMajor_val_three, Shape.rowMajor_val_two]
    rfl)

/-- A 2048 x 1 array cast to 32 x 64 x 1 reads, at (p, f, u), the array at (p * 64 + f, 0). -/
theorem shapeCast_2048x1 (x : S2048x1.Idx → α) (h : S2048x1.ShapeCasts S32x64x1) (p : Fin 32) (f : Fin 64) (u : Fin 1) :
    shapeCast S32x64x1 x h (ix3 p f u) = x (ix2 (row p f) (0 : Fin 1)) :=
  shapeCast_apply x h _ _ (by
    have hu : u.val = 0 := by omega
    rw [Shape.rowMajor_val_three, Shape.rowMajor_val_two]
    show (p.val * 64 + f.val) * 1 + 0 = (p.val * 64 + f.val) * 1 + u.val
    rw [hu])

end Layout2

/-- The masked exponential of each friend's logit, from the products f2 of the attention with the masked friends. -/
def st82 (v7 : FVec Ideal S32x64 .f32) (v61 : FVec Ideal S32x64x256 .f32) (v63 : Vec Ideal S256x256 .f32) (v64 : Vec Ideal S1x256 .f32) (v73 : Vec Ideal S1x256 .f32) : FVec Ideal S32x64x1 .f32 :=
  have v62 : FVec Ideal S2048x256 .f32 := shapeCast S2048x256 v61 shapeCasts_S32x64x256_S2048x256
  have v65 : FVec Ideal S1x256 .f32 := shapeCast S1x256 v64 shapeCasts_S1x256_S1x256
  have v66 : FVec Ideal S2048x256 .bf16 := truncf .bf16 v62 bitsLt_bf16_f32
  have v67 : FVec Ideal S256x256 .bf16 := truncf .bf16 v63 bitsLt_bf16_f32
  have cst_27 : FVec Ideal S2048x256 .f32 := constant S2048x256 .f32 0x00000000#32
  have v68 : FVec Ideal S2048x256 .f32 := matmul dot_S2048x256_S256x256_S2048x256_1_0_0_1_n_n none v66 v67 cst_27
  have v69 : FVec Ideal S2048x256 .f32 := broadcastTo S2048x256 v65 broadcasts_S1x256_S2048x256
  have v70 : FVec Ideal S2048x256 .f32 := addf v68 v69
  have cst_28 : Ideal .f32 := Scalar.ofBits .f32 0x00000000#32
  have v71 : FVec Ideal S2048x256 .f32 := broadcast S2048x256 cst_28
  have v72 : FVec Ideal S2048x256 .f32 := maximumf v70 v71
  have v74 : FVec Ideal S1x256 .f32 := shapeCast S1x256 v73 shapeCasts_S1x256_S1x256
  have v75 : FVec Ideal S2048x256 .f32 := broadcastTo S2048x256 v74 broadcasts_S1x256_S2048x256
  have v76 : FVec Ideal S2048x256 .f32 := mulf v72 v75
  have v77 : FVec Ideal S2048 .f32 := multiReduction .add [1] S2048 v76 0x00000000#32 reduces_S2048x256_S2048 (.inl rfl) rfl
  have v78 : FVec Ideal S2048x1 .f32 := shapeCast S2048x1 v77 shapeCasts_S2048_S2048x1
  have v79 : FVec Ideal S2048x1 .f32 := exp v78
  have v80 : FVec Ideal S32x64x1 .f32 := shapeCast S32x64x1 v79 shapeCasts_S2048x1_S32x64x1
  have v81 : FVec Ideal S32x64x1 .f32 := shapeCast S32x64x1 v7 shapeCasts_S32x64_S32x64x1
  have v82 : FVec Ideal S32x64x1 .f32 := mulf v81 v80
  v82

end Cert.Body1.B

namespace Cert.Body1

open Cert.Body1.B

theorem pay9_core (v7 : FVec Ideal S32x64 .f32) (v61 : FVec Ideal S32x64x256 .f32) (v63 : Vec Ideal S256x256 .f32) (v64 v73 : Vec Ideal S1x256 .f32) (p : Fin 32) (f : Fin 64) :
    st82 v7 v61 v63 v64 v73 (ix3 p f 0)
      = Cert.Spec.jv (fun f => v7 (ix2 p f)) (Cert.Spec.jlog (fun a => v73 (ix2 0 a))
          (Cert.Spec.hid (fun d a => v63 (ix2 d a)) (fun a => v64 (ix2 0 a)) (fun f d => v61 (ix3 p f d)))) f := by
  unfold st82 Cert.Spec.jv Cert.Spec.jlog Cert.Spec.hid
  refine congrArg₂ (· * ·) (shapeCast_ab_ab1 v7 shapeCasts_S32x64_S32x64x1 p f 0) ?_
  refine (shapeCast_2048x1 _ shapeCasts_S2048x1_S32x64x1 p f 0).trans ?_
  refine congrArg Ideal.exp ?_
  refine (shapeCast_a_a1 _ shapeCasts_S2048_S2048x1 (row p f) 0).trans ?_
  refine (Ideal.multiReduction_add_single _ _ reduces_S2048x256_S2048 _ _ (ix1 (row p f))).trans ?_
  refine Finset.sum_congr rfl fun a _ => ?_
  refine (congrArg _ (lift2_axis1 reduces_S2048x256_S2048 (row p f) a)).trans ?_
  refine congrArg₂ (· * ·) ?_ ?_
  · refine congrArg₂ max ?_ Ideal.ofBits_zero_f32
    refine congrArg₂ (· + ·) ?_ ?_
    · refine (matmul_zero_apply dot_S2048x256_S256x256_S2048x256_1_0_0_1_n_n_wf none _ _ (row p f) a).trans ?_
      refine Finset.sum_congr rfl fun d _ => ?_
      exact congrArg (· * v63 (ix2 d a)) (shapeCast_32x64x256 v61 shapeCasts_S32x64x256_S2048x256 p f d)
    · refine (broadcastTo_1b_ab_apply _ broadcasts_S1x256_S2048x256 (row p f) a).trans ?_
      exact shapeCast_same v64 shapeCasts_S1x256_S1x256 _
  · refine (broadcastTo_1b_ab_apply _ broadcasts_S1x256_S2048x256 (row p f) a).trans ?_
    exact shapeCast_same v73 shapeCasts_S1x256_S1x256 _

/-- The masked exponentials from the products f2 computed just before them. -/
theorem pay9_split (v7 : FVec Ideal S32x64 .f32) (v16 : FVec Ideal S32x64x256 .f32) (v40 : FVec Ideal S32x64x32 .f32) (v41 v44 : Vec Ideal S64x32 .f32)
    (v56 : Vec Ideal S32x256 .f32) (v63 : Vec Ideal S256x256 .f32) (v64 v73 : Vec Ideal S1x256 .f32) :
    k1_pay9 (F := Ideal) v7 v16 v40 v41 v44 v56 v63 v64 v73 = st82 v7 (k1_pay8 (F := Ideal) v7 v16 v40 v41 v44 v56) v63 v64 v73 := rfl

theorem pay9_apply (v7 : FVec Ideal S32x64 .f32) (v16 : FVec Ideal S32x64x256 .f32) (v40 : FVec Ideal S32x64x32 .f32) (v41 v44 : Vec Ideal S64x32 .f32)
    (v56 : Vec Ideal S32x256 .f32) (v63 : Vec Ideal S256x256 .f32) (v64 v73 : Vec Ideal S1x256 .f32) (p : Fin 32) (f : Fin 64) :
    k1_pay9 (F := Ideal) v7 v16 v40 v41 v44 v56 v63 v64 v73 (ix3 p f 0)
      = Cert.Spec.jv (fun f => v7 (ix2 p f)) (Cert.Spec.jlog (fun a => v73 (ix2 0 a))
          (Cert.Spec.hid (fun d a => v63 (ix2 d a)) (fun a => v64 (ix2 0 a))
            (fun f d => k1_pay8 (F := Ideal) v7 v16 v40 v41 v44 v56 (ix3 p f d)))) f :=
  (congrFun (pay9_split v7 v16 v40 v41 v44 v56 v63 v64 v73) (ix3 p f 0)).trans
    (pay9_core v7 (k1_pay8 (F := Ideal) v7 v16 v40 v41 v44 v56) v63 v64 v73 p f)

theorem pay10_apply (v7 : FVec Ideal S32x64 .f32) (v16 : FVec Ideal S32x64x256 .f32) (v40 : FVec Ideal S32x64x32 .f32) (v41 v44 : Vec Ideal S64x32 .f32)
    (v56 : Vec Ideal S32x256 .f32) (v63 : Vec Ideal S256x256 .f32) (v64 v73 : Vec Ideal S1x256 .f32) (p : Fin 32) :
    k1_pay10 (F := Ideal) v7 v16 v40 v41 v44 v56 v63 v64 v73 (ix2 p 0)
      = ∑ f : Fin 64, k1_pay9 (F := Ideal) v7 v16 v40 v41 v44 v56 v63 v64 v73 (ix3 p f 0) := by
  unfold k1_pay10
  refine (Ideal.multiReduction_add_single _ _ reduces_S32x64x1_S32x1 _ _ (ix2 p 0)).trans ?_
  exact Finset.sum_congr rfl fun f _ => congrArg _ (lift3_axis1 reduces_S32x64x1_S32x1 p 0 f)

end Cert.Body1

namespace Cert.Body1.B

/-! ## The whole body's result at one row -/

theorem hz2 : (![0, 0] : Fin 2 → Nat) = fun _ => 0 := funext fun a => by fin_cases a <;> rfl
theorem hz3 : (![0, 0, 0] : Fin 3 → Nat) = fun _ => 0 := funext fun a => by fin_cases a <;> rfl

/-- The score of a row from its pieces: the user embedding A, the item embedding and bias, the products P8 of the
    memory attention with the masked friends, the masked exponentials P9 of the friends' logits and their sum P10. -/
theorem glue (Key : Fin 256 → Fin 32 → EReal) (Mem : Fin 32 → Fin 256 → EReal) (WA : Fin 256 → Fin 256 → EReal) (BA U : Fin 256 → EReal)
    (Wa Wb : Fin 256 → Fin 2 → EReal) (G T : Fin 64 → Fin 32 → EReal)
    (a : Fin 256 → EReal) (fr : Fin 64 → EReal) (fe : Fin 64 → Fin 256 → EReal) (iid : Fin 256 → EReal) (ib : EReal)
    (A IID : Fin 256 → EReal) (IB : EReal) (P8 : Fin 64 → Fin 256 → EReal) (P9 : Fin 64 → EReal) (P10 : EReal)
    (hA : A = a) (hIID : IID = iid) (hIB : IB = ib)
    (h8 : P8 = Cert.Spec.f2 (Cert.Spec.f1 Mem (Cert.Spec.attMem G T (Cert.Spec.attKey Key a fr fe) fr)) (Cert.Spec.feM fr fe))
    (h9 : P9 = Cert.Spec.jv fr (Cert.Spec.jlog U (Cert.Spec.hid WA BA P8)))
    (h10 : P10 = ∑ f : Fin 64, P9 f) :
    Cert.Spec.mix A (fun d => A d + ∑ f : Fin 64, Ideal.div (P9 f) (P10 + Cert.Spec.eps8) * P8 f d) IID
        (Cert.Spec.att1 (Cert.Spec.logit Wa Wb A (fun d => A d + ∑ f : Fin 64, Ideal.div (P9 f) (P10 + Cert.Spec.eps8) * P8 f d))) IB
      = Cert.Spec.rowScore Key Mem WA BA U Wa Wb G T a fr fe iid ib := by
  subst hA hIID hIB h10 h9 h8
  rfl

end Cert.Body1.B

namespace Cert.Body1

open Cert.Body1.B

theorem out1_14_apply (x0 : Vec Ideal S32x256 .bf16) (x1 : Vec Ideal S32x64x256 .bf16) (x2 : Vec Ideal S32x64 .f32) (x3 : Vec Ideal S32x256 .bf16) (x4 : Vec Ideal S32x1 .f32) (x5 x6 : Vec Ideal S64x32 .f32) (x7 : Vec Ideal S256x32 .f32) (x8 : Vec Ideal S32x256 .f32) (x9 : Vec Ideal S256x256 .f32) (x10 x11 : Vec Ideal S1x256 .f32) (x12 x13 : Vec Ideal S256x2 .f32) (p : Fin 32) :
    out1_14 (F := Ideal) x0 x1 x2 x3 x4 x5 x6 x7 x8 x9 x10 x11 x12 x13 (ix2 p 0)
      = Cert.Spec.rowScore (fun d m => x7 (ix2 d m)) (fun m d => x8 (ix2 m d)) (fun d a => x9 (ix2 d a)) (fun a => x10 (ix2 0 a)) (fun a => x11 (ix2 0 a))
          (fun d j => x12 (ix2 d j)) (fun d j => x13 (ix2 d j)) (fun f m => x5 (ix2 f m)) (fun f m => x6 (ix2 f m))
          (fun d => x0 (ix2 p d)) (fun f => x2 (ix2 p f)) (fun f d => x1 (ix3 p f d)) (fun d => x3 (ix2 p d)) (x4 (ix2 p 0)) := by
  unfold out1_14
  rw [View.canon_unit_zero hz2]
  simp only [View.ld_unit_zero (S := S32x256) hz2, View.ld_unit_zero (S := S32x64x256) hz3, View.ld_unit_zero (S := S32x64) hz2,
    View.ld_unit_zero (S := S32x1) hz2, View.ld_unit_zero (S := S256x32) hz2, View.ld_unit_zero (S := S64x32) hz2,
    View.ld_unit_zero (S := S256x256) hz2, View.ld_unit_zero (S := S1x256) hz2, View.ld_unit_zero (S := S256x2) hz2]
  refine (pay1_apply _ _ _ _ _ _ _ _ p).trans ?_
  have h3 : (fun f : Fin 64 => k1_pay3 (F := Ideal) x2 (ix2 p f)) = fun f => x2 (ix2 p f) :=
    funext fun f => shapeCast_same x2 shapeCasts_S32x64_S32x64 (ix2 p f)
  have h6 : (fun (f : Fin 64) (d : Fin 256) => k1_pay6 (F := Ideal) x1 x2 (ix3 p f d))
      = Cert.Spec.feM (fun f => x2 (ix2 p f)) (fun f d => x1 (ix3 p f d)) :=
    funext fun f => funext fun d => pay6_apply x1 x2 p f d
  have h7 : (fun (f : Fin 64) (m : Fin 32) => k1_pay7 (F := Ideal) x0 x1 x2 x7 (ix3 p f m))
      = Cert.Spec.attKey (fun d m => x7 (ix2 d m)) (fun d => x0 (ix2 p d)) (fun f => x2 (ix2 p f)) (fun f d => x1 (ix3 p f d)) :=
    funext fun f => funext fun m => pay7_apply x0 x1 x2 x7 p f m
  refine glue _ _ _ _ _ _ _ _ _ _ _ _ _ _ _ _ _ _ _ _ ?_ ?_ ?_ ?_ ?_ ?_
  · exact funext fun d => pay2_apply x0 (ix2 p d)
  · exact funext fun d => shapeCast_same x3 shapeCasts_S32x256_S32x256 (ix2 p d)
  · exact shapeCast_same x4 shapeCasts_S32x1_S32x1 (ix2 p 0)
  · funext f d
    refine (pay8_apply _ _ _ _ _ _ p f d).trans ?_
    rw [h3, h6, h7]
  · funext f
    refine (pay9_apply _ _ _ _ _ _ _ _ _ p f).trans ?_
    rw [h3]
  · exact pay10_apply _ _ _ _ _ _ _ _ _ p

end Cert.Body1

end
-- ==== Proof.Body0.lean ====
/-
  Region 0, read as values.  Each grid step takes a tile of 64 batch rows, forms the tile's attention keys
  K p f m, and updates two running statistics per (f, m): the maximum M and the sum S of exp (key - M).
  A step leaves  M' = max M (max_p K p f m)  and  S' = S * exp (M - M') + sum_p exp (K p f m - M');
  the first step of a core starts from M = -infinity and S = 0.  The four theorems at the end state exactly this
  for the contents the generated frame finds after a step, with the keys kept as the opaque payload of the tile.
-/
import proofs.«174119_j9096740733368_2_alg».proof.Proof.Gen.KernelIdeal.Frame
import proofs.«174119_j9096740733368_2_alg».proof.Proof.Spec
import Idealize.ShloMosaic.Lib.Pipeline.Value
import Idealize.ShloMosaic.Lib.ValueLayout
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.ValueIdx
open scoped BigOperators

namespace Cert.Body0

open Cert.KernelIdeal Cert.KernelIdeal.Gen

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_B_4 (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : ¬cond0_0 i) (x0 : Vec F S64x256 .bf16) (x1 : Vec F S64x64x256 .bf16) (x2 : Vec F S64x64 .f32) (x3 : Vec F S256x32 .f32) (xo4 xo5 : Vec F S1x64x32 .f32) :
    out0_B_4 c i arg2 harg2 arg3 harg3 arg4 harg4 arg5 harg5 arg6 harg6 arg7 harg7 hc0 x0 x1 x2 x3 xo4 xo5 = k0_pay2 (k0_pay6 x0 x1 x2 x3) xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x256) hz2, View.ld_unit_zero (S := S64x64x256) hz3, View.ld_unit_zero (S := S64x64) hz2, View.ld_unit_zero (S := S256x32) hz2, View.ld_unit_zero (S := S1x64x32) hz3, shapeCast_self]

theorem out_B_5 (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : ¬cond0_0 i) (x0 : Vec F S64x256 .bf16) (x1 : Vec F S64x64x256 .bf16) (x2 : Vec F S64x64 .f32) (x3 : Vec F S256x32 .f32) (xo4 xo5 : Vec F S1x64x32 .f32) :
    out0_B_5 c i arg2 harg2 arg3 harg3 arg4 harg4 arg5 harg5 arg6 harg6 arg7 harg7 hc0 x0 x1 x2 x3 xo4 xo5 = k0_pay3 (k0_pay6 x0 x1 x2 x3) xo4 xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x256) hz2, View.ld_unit_zero (S := S64x64x256) hz3, View.ld_unit_zero (S := S64x64) hz2, View.ld_unit_zero (S := S256x32) hz2, View.ld_unit_zero (S := S1x64x32) hz3, shapeCast_self]

theorem out_A_4 (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : cond0_0 i) (x0 : Vec F S64x256 .bf16) (x1 : Vec F S64x64x256 .bf16) (x2 : Vec F S64x64 .f32) (x3 : Vec F S256x32 .f32) :
    out0_A_4 c i arg2 harg2 arg3 harg3 arg4 harg4 arg5 harg5 arg6 harg6 arg7 harg7 hc0 x0 x1 x2 x3 = k0_pay2 (k0_pay6 x0 x1 x2 x3) (k0_pay4 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x64x32) hz3]
  simp only [View.readCov_unit_zero (S := S1x64x32) _ hz3]
  simp only [View.readAt_eq_ld, harg2.read_unread, harg3.read_unread, harg4.read_unread, harg5.read_unread, harg6.read_unread, harg7.read_unread,
    View.ld_unit_zero (S := S64x256) hz2, View.ld_unit_zero (S := S64x64x256) hz3, View.ld_unit_zero (S := S64x64) hz2, View.ld_unit_zero (S := S256x32) hz2, View.ld_unit_zero (S := S1x64x32) hz3, shapeCast_self]

theorem out_A_5 (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : cond0_0 i) (x0 : Vec F S64x256 .bf16) (x1 : Vec F S64x64x256 .bf16) (x2 : Vec F S64x64 .f32) (x3 : Vec F S256x32 .f32) :
    out0_A_5 c i arg2 harg2 arg3 harg3 arg4 harg4 arg5 harg5 arg6 harg6 arg7 harg7 hc0 x0 x1 x2 x3 = k0_pay3 (k0_pay6 x0 x1 x2 x3) (k0_pay4 (F := F)) (k0_pay5 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x64x32) hz3]
  simp only [View.readCov_unit_zero (S := S1x64x32) _ hz3]
  simp only [View.readAt_eq_ld, harg2.read_unread, harg3.read_unread, harg4.read_unread, harg5.read_unread, harg6.read_unread, harg7.read_unread,
    View.ld_unit_zero (S := S64x256) hz2, View.ld_unit_zero (S := S64x64x256) hz3, View.ld_unit_zero (S := S64x64) hz2, View.ld_unit_zero (S := S256x32) hz2, View.ld_unit_zero (S := S1x64x32) hz3, shapeCast_self]

end Pieces

section AtIdeal

/-- The index the reduction along axis 0 inserts. -/
theorem lift_ix (f : Fin 64) (m : Fin 32) (p : Fin 64) :
    (Shape.Reduces.lift (s := S64x64x32) (t := S64x32) (a := 0) reduces_S64x64x32_S64x32 (ix2 f m) p) = ix3 p f m := by
  funext a
  match a with
  | ⟨0, _⟩ => rfl
  | ⟨1, _⟩ => rfl
  | ⟨2, _⟩ => rfl

/-- The single-precision word of minus infinity is the bottom of the extended reals. -/
theorem negInf : Ideal.ofBits .f32 0xFF800000#32 = ⊥ := by simp [Ideal.ofBits, Ideal.ieee]

/-- The largest key of the tile at (f, m). -/
def Kmax (K : FVec Ideal S64x64x32 .f32) (f : Fin 64) (m : Fin 32) : EReal :=
  (Finset.univ : Finset (Fin 64)).fold max ⊥ (fun p => K (ix3 p f m))

variable (K : FVec Ideal S64x64x32 .f32) (xo4 xo5 : Vec Ideal S1x64x32 .f32) (f : Fin 64) (m : Fin 32)

/-- The maximum along the row axis, read at (f, m). -/
theorem redmax_apply :
    multiReduction (F := Ideal) .maximumf [0] S64x32 K 0xFF800000#32 reduces_S64x64x32_S64x32 (.inl rfl) rfl (ix2 f m) = Kmax K f m := by
  refine (Ideal.multiReduction_maximumf_single K _ reduces_S64x64x32_S64x32 (.inl rfl) rfl (ix2 f m)).trans ?_
  unfold Kmax
  have h1 : (K ∘ Shape.Reduces.lift (s := S64x64x32) (t := S64x32) (a := 0) reduces_S64x64x32_S64x32 (ix2 f m)) = fun p => K (ix3 p f m) :=
    funext fun p => congrArg K (lift_ix f m p)
  rw [h1]
  show Finset.fold max (Ideal.ofBits .f32 0xFF800000#32) _ _ = _
  rw [negInf]
  rfl

/-- The sum along the row axis, read at (f, m). -/
theorem redadd_apply (E : FVec Ideal S64x64x32 .f32) :
    multiReduction (F := Ideal) .add [0] S64x32 E 0x00000000#32 reduces_S64x64x32_S64x32 (.inl rfl) rfl (ix2 f m) = ∑ p : Fin 64, E (ix3 p f m) := by
  refine (Ideal.multiReduction_add_single E _ reduces_S64x64x32_S64x32 (.inl rfl) rfl (ix2 f m)).trans ?_
  exact Finset.sum_congr rfl fun p _ => congrArg E (lift_ix f m p)

/-- One row broadcast over the 64 rows of the tile. -/
theorem bcast_apply (v : FVec Ideal S1x64x32 .f32) (p : Fin 64) :
    broadcastTo S64x64x32 v broadcasts_S1x64x32_S64x64x32 (ix3 p f m) = v (ix3 (0 : Fin 1) f m) := by
  refine broadcastTo_apply v broadcasts_S1x64x32_S64x64x32 (ix3 p f m) (ix3 (0 : Fin 1) f m) fun a => ?_
  match a with
  | ⟨0, _⟩ => rfl
  | ⟨1, _⟩ => rfl
  | ⟨2, _⟩ => rfl

/-- The new running maximum at (f, m). -/
theorem pay2_apply (u : Fin 1) : k0_pay2 K xo4 (ix3 u f m) = max (xo4 (ix3 u f m)) (Kmax K f m) := by
  unfold k0_pay2 k0_pay1
  refine congrArg₂ max (congrFun (shapeCast_self xo4 _) _) ?_
  refine (shapeCast_ab_1ab_apply _ shapeCasts_S64x32_S1x64x32 u f m).trans ?_
  exact redmax_apply K f m

/-- The carried maximum passes through its identity cast. -/
theorem pay1_apply (j : S1x64x32.Idx) : k0_pay1 xo4 j = xo4 j := by
  unfold k0_pay1
  exact congrFun (shapeCast_self xo4 _) j

/-- The new running sum at (f, m). -/
theorem pay3_apply :
    k0_pay3 K xo4 xo5 (ix3 (0 : Fin 1) f m)
      = xo5 (ix3 (0 : Fin 1) f m) * Ideal.exp (xo4 (ix3 (0 : Fin 1) f m) - max (xo4 (ix3 (0 : Fin 1) f m)) (Kmax K f m))
        + ∑ p : Fin 64, Ideal.exp (K (ix3 p f m) - max (xo4 (ix3 (0 : Fin 1) f m)) (Kmax K f m)) := by
  unfold k0_pay3
  show (shapeCast S1x64x32 xo5 _ (ix3 (0 : Fin 1) f m)) * Ideal.exp (k0_pay1 xo4 (ix3 (0 : Fin 1) f m) - k0_pay2 K xo4 (ix3 (0 : Fin 1) f m))
      + shapeCast S1x64x32 _ _ (ix3 (0 : Fin 1) f m) = _
  refine congrArg₂ (· + ·) (congrArg₂ (· * ·) (congrFun (shapeCast_self xo5 _) _)
    (congrArg Ideal.exp (congrArg₂ (· - ·) (pay1_apply xo4 _) (pay2_apply K xo4 f m 0)))) ?_
  refine (shapeCast_ab_1ab_apply _ shapeCasts_S64x32_S1x64x32 (0 : Fin 1) f m).trans ?_
  refine (redadd_apply f m _).trans (Finset.sum_congr rfl fun p _ => ?_)
  show Ideal.exp (K (ix3 p f m) - broadcastTo S64x64x32 (k0_pay2 K xo4) broadcasts_S1x64x32_S64x64x32 (ix3 p f m)) = _
  rw [bcast_apply, pay2_apply]

/-- The stored minus infinity, read at any index. -/
theorem pay4_apply (j : S1x64x32.Idx) : k0_pay4 (F := Ideal) j = ⊥ := negInf

/-- The stored zero, read at any index. -/
theorem pay5_apply (j : S1x64x32.Idx) : k0_pay5 (F := Ideal) j = 0 := Ideal.ofBits_zero_f32

/-! ## The four found pieces, read at (0, f, m) -/

/-- A later step of a core leaves, as running maximum, the larger of the carried maximum and the tile's largest key. -/
theorem out0_B_4_apply (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : ¬cond0_0 i) (x0 : Vec Ideal S64x256 .bf16) (x1 : Vec Ideal S64x64x256 .bf16) (x2 : Vec Ideal S64x64 .f32) (x3 : Vec Ideal S256x32 .f32) (xo4 xo5 : Vec Ideal S1x64x32 .f32) (f : Fin 64) (m : Fin 32) :
    out0_B_4 (F := Ideal) c i arg2 harg2 arg3 harg3 arg4 harg4 arg5 harg5 arg6 harg6 arg7 harg7 hc0 x0 x1 x2 x3 xo4 xo5 (ix3 (0 : Fin 1) f m)
      = max (xo4 (ix3 (0 : Fin 1) f m)) ((Finset.univ : Finset (Fin 64)).fold max ⊥ (fun p => k0_pay6 (F := Ideal) x0 x1 x2 x3 (ix3 p f m))) := by
  rw [out_B_4]
  exact pay2_apply (k0_pay6 (F := Ideal) x0 x1 x2 x3) xo4 f m 0

/-- A later step of a core leaves, as running sum, the carried sum rescaled to the new maximum plus the tile's
    exponentials against the new maximum. -/
theorem out0_B_5_apply (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : ¬cond0_0 i) (x0 : Vec Ideal S64x256 .bf16) (x1 : Vec Ideal S64x64x256 .bf16) (x2 : Vec Ideal S64x64 .f32) (x3 : Vec Ideal S256x32 .f32) (xo4 xo5 : Vec Ideal S1x64x32 .f32) (f : Fin 64) (m : Fin 32) :
    out0_B_5 (F := Ideal) c i arg2 harg2 arg3 harg3 arg4 harg4 arg5 harg5 arg6 harg6 arg7 harg7 hc0 x0 x1 x2 x3 xo4 xo5 (ix3 (0 : Fin 1) f m)
      = xo5 (ix3 (0 : Fin 1) f m) * Ideal.exp (xo4 (ix3 (0 : Fin 1) f m) - max (xo4 (ix3 (0 : Fin 1) f m)) ((Finset.univ : Finset (Fin 64)).fold max ⊥ (fun p => k0_pay6 (F := Ideal) x0 x1 x2 x3 (ix3 p f m))))
        + ∑ p : Fin 64, Ideal.exp (k0_pay6 (F := Ideal) x0 x1 x2 x3 (ix3 p f m) - max (xo4 (ix3 (0 : Fin 1) f m)) ((Finset.univ : Finset (Fin 64)).fold max ⊥ (fun p => k0_pay6 (F := Ideal) x0 x1 x2 x3 (ix3 p f m)))) := by
  rw [out_B_5]
  exact pay3_apply (k0_pay6 (F := Ideal) x0 x1 x2 x3) xo4 xo5 f m

/-- The first step of a core starts the running maximum from minus infinity. -/
theorem out0_A_4_apply (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : cond0_0 i) (x0 : Vec Ideal S64x256 .bf16) (x1 : Vec Ideal S64x64x256 .bf16) (x2 : Vec Ideal S64x64 .f32) (x3 : Vec Ideal S256x32 .f32) (f : Fin 64) (m : Fin 32) :
    out0_A_4 (F := Ideal) c i arg2 harg2 arg3 harg3 arg4 harg4 arg5 harg5 arg6 harg6 arg7 harg7 hc0 x0 x1 x2 x3 (ix3 (0 : Fin 1) f m)
      = max ⊥ ((Finset.univ : Finset (Fin 64)).fold max ⊥ (fun p => k0_pay6 (F := Ideal) x0 x1 x2 x3 (ix3 p f m))) := by
  rw [out_A_4]
  refine (pay2_apply (k0_pay6 (F := Ideal) x0 x1 x2 x3) (k0_pay4 (F := Ideal)) f m 0).trans ?_
  rw [pay4_apply]
  rfl

/-- The first step of a core starts the running sum from zero. -/
theorem out0_A_5_apply (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : cond0_0 i) (x0 : Vec Ideal S64x256 .bf16) (x1 : Vec Ideal S64x64x256 .bf16) (x2 : Vec Ideal S64x64 .f32) (x3 : Vec Ideal S256x32 .f32) (f : Fin 64) (m : Fin 32) :
    out0_A_5 (F := Ideal) c i arg2 harg2 arg3 harg3 arg4 harg4 arg5 harg5 arg6 harg6 arg7 harg7 hc0 x0 x1 x2 x3 (ix3 (0 : Fin 1) f m)
      = 0 * Ideal.exp (⊥ - max ⊥ ((Finset.univ : Finset (Fin 64)).fold max ⊥ (fun p => k0_pay6 (F := Ideal) x0 x1 x2 x3 (ix3 p f m))))
        + ∑ p : Fin 64, Ideal.exp (k0_pay6 (F := Ideal) x0 x1 x2 x3 (ix3 p f m) - max ⊥ ((Finset.univ : Finset (Fin 64)).fold max ⊥ (fun p => k0_pay6 (F := Ideal) x0 x1 x2 x3 (ix3 p f m)))) := by
  rw [out_A_5]
  refine (pay3_apply (k0_pay6 (F := Ideal) x0 x1 x2 x3) (k0_pay4 (F := Ideal)) (k0_pay5 (F := Ideal)) f m).trans ?_
  rw [pay4_apply, pay5_apply]
  rfl

end AtIdeal
end Cert.Body0
-- ==== Proof.Region0.lean ====
/-
  The first pallas_call, read as values.  Its grid is 2 x 32: point t = 32 u + i (core u, step i) stages rows
  64 t … 64 t + 63 of the user rows, the friend rows and the mask, and the whole Key matrix; the two outputs are
  [2, 64, 32] arrays whose block u (one [1, 64, 32] slab) is carried in its staging buffer over the 32 steps of core u and
  written back after the last.  At a first step the body starts from (-inf, 0); at every step it replaces the running
  pair (M, S) by (max M K, S * exp (M - max M K) + the tile's sum of exp (key - max M K)), K the tile's largest key.
  So slab u of the two output arrays holds the pair reached after the 32 tiles of core u.
-/
import proofs.«174119_j9096740733368_2_alg».proof.Proof.Spec
import proofs.«174119_j9096740733368_2_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- A tile's largest key at (f, m). -/
def tmax (Kt : S64x64x32.Idx → EReal) (f : Fin 64) (m : Fin 32) : EReal :=
  (Finset.univ : Finset (Fin 64)).fold max ⊥ (fun p => Kt (ix3 p f m))

/-- The running maximum after a tile. -/
def stepM (M : EReal) (Kt : S64x64x32.Idx → EReal) (f : Fin 64) (m : Fin 32) : EReal := max M (tmax Kt f m)

/-- The running sum of exponentials after a tile. -/
def stepS (M S : EReal) (Kt : S64x64x32.Idx → EReal) (f : Fin 64) (m : Fin 32) : EReal :=
  S * Ideal.exp (M - max M (tmax Kt f m)) + ∑ p : Fin 64, Ideal.exp (Kt (ix3 p f m) - max M (tmax Kt f m))

/-- What the body's two cases are required to leave in the two outputs' staging buffers, entry (0, f, m), from the tile's
    keys (the generated pure term `k0_pay6` of the staged blocks): the step from (-inf, 0) at a first step, the step from
    the carried contents otherwise. -/
structure PieceSpec : Prop where
  a4 : ∀ (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : cond0_0 i)
      (x0 : Vec Ideal S64x256 .bf16) (x1 : Vec Ideal S64x64x256 .bf16) (x2 : Vec Ideal S64x64 .f32) (x3 : Vec Ideal S256x32 .f32) (f : Fin 64) (m : Fin 32),
      out0_A_4 (F := Ideal) c i arg2 harg2 arg3 harg3 arg4 harg4 arg5 harg5 arg6 harg6 arg7 harg7 hc0 x0 x1 x2 x3 (ix3 0 f m)
        = stepM ⊥ (k0_pay6 (F := Ideal) x0 x1 x2 x3) f m
  a5 : ∀ (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : cond0_0 i)
      (x0 : Vec Ideal S64x256 .bf16) (x1 : Vec Ideal S64x64x256 .bf16) (x2 : Vec Ideal S64x64 .f32) (x3 : Vec Ideal S256x32 .f32) (f : Fin 64) (m : Fin 32),
      out0_A_5 (F := Ideal) c i arg2 harg2 arg3 harg3 arg4 harg4 arg5 harg5 arg6 harg6 arg7 harg7 hc0 x0 x1 x2 x3 (ix3 0 f m)
        = stepS ⊥ 0 (k0_pay6 (F := Ideal) x0 x1 x2 x3) f m
  b4 : ∀ (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : ¬cond0_0 i)
      (x0 : Vec Ideal S64x256 .bf16) (x1 : Vec Ideal S64x64x256 .bf16) (x2 : Vec Ideal S64x64 .f32) (x3 : Vec Ideal S256x32 .f32) (xo4 xo5 : Vec Ideal S1x64x32 .f32) (f : Fin 64) (m : Fin 32),
      out0_B_4 (F := Ideal) c i arg2 harg2 arg3 harg3 arg4 harg4 arg5 harg5 arg6 harg6 arg7 harg7 hc0 x0 x1 x2 x3 xo4 xo5 (ix3 0 f m)
        = stepM (xo4 (ix3 0 f m)) (k0_pay6 (F := Ideal) x0 x1 x2 x3) f m
  b5 : ∀ (c : Dev nD) (i : grid0.Coords) (arg2 : Memref sig .tc .vmem S64x256 .bf16) (harg2 : arg2.IsWhole) (arg3 : Memref sig .tc .vmem S64x64x256 .bf16) (harg3 : arg3.IsWhole) (arg4 : Memref sig .tc .vmem S64x64 .f32) (harg4 : arg4.IsWhole) (arg5 : Memref sig .tc .vmem S256x32 .f32) (harg5 : arg5.IsWhole) (arg6 : Memref sig .tc .vmem S1x64x32 .f32) (harg6 : arg6.IsWhole) (arg7 : Memref sig .tc .vmem S1x64x32 .f32) (harg7 : arg7.IsWhole) (hc0 : ¬cond0_0 i)
      (x0 : Vec Ideal S64x256 .bf16) (x1 : Vec Ideal S64x64x256 .bf16) (x2 : Vec Ideal S64x64 .f32) (x3 : Vec Ideal S256x32 .f32) (xo4 xo5 : Vec Ideal S1x64x32 .f32) (f : Fin 64) (m : Fin 32),
      out0_B_5 (F := Ideal) c i arg2 harg2 arg3 harg3 arg4 harg4 arg5 harg5 arg6 harg6 arg7 harg7 hc0 x0 x1 x2 x3 xo4 xo5 (ix3 0 f m)
        = stepS (xo4 (ix3 0 f m)) (xo5 (ix3 0 f m)) (k0_pay6 (F := Ideal) x0 x1 x2 x3) f m

variable (V : (c : Dev nD) → (b : Ref sig .tc) → Buf (Elt Ideal) ((c : Thread nD τ).loc b))

/-- The keys of the tile staged at point t. -/
def Kt (c : Dev nD) (t : Fin cfg0.N) : S64x64x32.Idx → EReal :=
  k0_pay6 (F := Ideal) (iblk0 V c 0 t) (iblk0 V c 1 t) (iblk0 V c 2 t) (iblk0 V c 3 t)

/-- The running pair at (f, m) after point n: restarted at the first step of a core. -/
def acc (c : Dev nD) (f : Fin 64) (m : Fin 32) : (n : ℕ) → n < cfg0.N → EReal × EReal
  | 0, h => (stepM ⊥ (Kt V c ⟨0, h⟩) f m, stepS ⊥ 0 (Kt V c ⟨0, h⟩) f m)
  | n + 1, h =>
    if (n + 1) % 32 = 0 then (stepM ⊥ (Kt V c ⟨n + 1, h⟩) f m, stepS ⊥ 0 (Kt V c ⟨n + 1, h⟩) f m)
    else (stepM (acc c f m n (Nat.lt_of_succ_lt h)).1 (Kt V c ⟨n + 1, h⟩) f m,
          stepS (acc c f m n (Nat.lt_of_succ_lt h)).1 (acc c f m n (Nat.lt_of_succ_lt h)).2 (Kt V c ⟨n + 1, h⟩) f m)

theorem acc_zero (c : Dev nD) (f : Fin 64) (m : Fin 32) (h : 0 < cfg0.N) :
    acc V c f m 0 h = (stepM ⊥ (Kt V c ⟨0, h⟩) f m, stepS ⊥ 0 (Kt V c ⟨0, h⟩) f m) := by rw [acc]

theorem acc_first (c : Dev nD) (f : Fin 64) (m : Fin 32) (n : ℕ) (h : n + 1 < cfg0.N) (h0 : (n + 1) % 32 = 0) :
    acc V c f m (n + 1) h = (stepM ⊥ (Kt V c ⟨n + 1, h⟩) f m, stepS ⊥ 0 (Kt V c ⟨n + 1, h⟩) f m) := by rw [acc, if_pos h0]

theorem acc_next (c : Dev nD) (f : Fin 64) (m : Fin 32) (n : ℕ) (h : n + 1 < cfg0.N) (h0 : ¬(n + 1) % 32 = 0) :
    acc V c f m (n + 1) h = (stepM (acc V c f m n (Nat.lt_of_succ_lt h)).1 (Kt V c ⟨n + 1, h⟩) f m,
      stepS (acc V c f m n (Nat.lt_of_succ_lt h)).1 (acc V c f m n (Nat.lt_of_succ_lt h)).2 (Kt V c ⟨n + 1, h⟩) f m) := by rw [acc, if_neg h0]

/-- What the two staging buffers hold after point n, entry (0, f, m), is the running pair. -/
theorem outsAt_eq (hp : PieceSpec) (c : Dev nD) (f : Fin 64) (m : Fin 32) : ∀ (n : ℕ) (h : n < cfg0.N),
    (outsAt0 V c n h).1 (ix3 0 f m) = (acc V c f m n h).1 ∧ (outsAt0 V c n h).2 (ix3 0 f m) = (acc V c f m n h).2
  | 0, h => by
    have hc : cond0_0 (grid0.coords ⟨0, h⟩) := (hcond0_0 ⟨0, h⟩).mpr (Nat.zero_mod _)
    have e : outsAt0 V c 0 h = (out0_A_4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) hc (iblk0 V c 0 ⟨0, h⟩) (iblk0 V c 1 ⟨0, h⟩) (iblk0 V c 2 ⟨0, h⟩) (iblk0 V c 3 ⟨0, h⟩), out0_A_5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) hc (iblk0 V c 0 ⟨0, h⟩) (iblk0 V c 1 ⟨0, h⟩) (iblk0 V c 2 ⟨0, h⟩) (iblk0 V c 3 ⟨0, h⟩)) :=
      outsAt0_A V c ⟨0, h⟩ (Nat.zero_mod _)
    rw [e, acc_zero]
    dsimp only
    exact ⟨hp.a4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) hc (iblk0 V c 0 ⟨0, h⟩) (iblk0 V c 1 ⟨0, h⟩) (iblk0 V c 2 ⟨0, h⟩) (iblk0 V c 3 ⟨0, h⟩) f m, hp.a5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) hc (iblk0 V c 0 ⟨0, h⟩) (iblk0 V c 1 ⟨0, h⟩) (iblk0 V c 2 ⟨0, h⟩) (iblk0 V c 3 ⟨0, h⟩) f m⟩
  | n + 1, h => by
    by_cases h0 : (n + 1) % 32 = 0
    · have hc : cond0_0 (grid0.coords ⟨n + 1, h⟩) := (hcond0_0 ⟨n + 1, h⟩).mpr h0
      have e : outsAt0 V c (n + 1) h = (out0_A_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩), out0_A_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩)) :=
        outsAt0_A V c ⟨n + 1, h⟩ h0
      rw [e, acc_first V c f m n h h0]
      dsimp only
      exact ⟨hp.a4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩) f m, hp.a5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩) f m⟩
    · have hc : ¬cond0_0 (grid0.coords ⟨n + 1, h⟩) := fun hh => h0 ((hcond0_0 ⟨n + 1, h⟩).mp hh)
      obtain ⟨ih1, ih2⟩ := outsAt_eq hp c f m n (Nat.lt_of_succ_lt h)
      have e : outsAt0 V c (n + 1) h = (out0_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).1 (outsAt0 V c n (Nat.lt_of_succ_lt h)).2,
          out0_B_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).1 (outsAt0 V c n (Nat.lt_of_succ_lt h)).2) :=
        outsAt0_B V c ⟨n + 1, h⟩ h0
      rw [e, acc_next V c f m n h h0]
      dsimp only
      refine ⟨(hp.b4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).1 (outsAt0 V c n (Nat.lt_of_succ_lt h)).2 f m).trans ?_,
        (hp.b5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) hc (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)).1 (outsAt0 V c n (Nat.lt_of_succ_lt h)).2 f m).trans ?_⟩
      · rw [ih1]; rfl
      · rw [ih1, ih2]; rfl

end Cert.KernelIdeal.R0

end
-- ==== Proof.R0Final.lean ====
/-
  What the two output arrays of the first call hold after it.  Each is a [2, 64, 32] array whose slab u is the
  staging block carried over the 32 steps of core u and written back after the last, point 32 u + 31.  So entry
  (u, f, m) of the first array is the running maximum, and of the second the running sum of exponentials, reached
  at (f, m) after point 32 u + 31.
-/
import proofs.«174119_j9096740733368_2_alg».proof.Proof.Body0
import proofs.«174119_j9096740733368_2_alg».proof.Proof.Region0
import Idealize.ShloMosaic.Lib.Pipeline.Value
import Idealize.ShloMosaic.Lib.ValueIdx

set_option maxRecDepth 16384

noncomputable section

open scoped BigOperators

namespace Cert.KernelIdeal.R0F

open Cert.KernelIdeal Cert.KernelIdeal.Gen Cert.KernelIdeal.R0
open Idealize.ShloMosaic Idealize.ShloMosaic.TcCoe Idealize.SL.Sem Idealize.ShloMosaic.ValueIdx
open Idealize.ShloMosaic.Pipeline (Dat Cfg Window)

/-- The body's two cases leave the steps of the running pair. -/
theorem pieces : PieceSpec :=
  ⟨fun c i a2 h2 a3 h3 a4 h4 a5 h5 a6 h6 a7 h7 hc x0 x1 x2 x3 f m => Cert.Body0.out0_A_4_apply c i a2 h2 a3 h3 a4 h4 a5 h5 a6 h6 a7 h7 hc x0 x1 x2 x3 f m,
   fun c i a2 h2 a3 h3 a4 h4 a5 h5 a6 h6 a7 h7 hc x0 x1 x2 x3 f m => Cert.Body0.out0_A_5_apply c i a2 h2 a3 h3 a4 h4 a5 h5 a6 h6 a7 h7 hc x0 x1 x2 x3 f m,
   fun c i a2 h2 a3 h3 a4 h4 a5 h5 a6 h6 a7 h7 hc x0 x1 x2 x3 xo4 xo5 f m => Cert.Body0.out0_B_4_apply c i a2 h2 a3 h3 a4 h4 a5 h5 a6 h6 a7 h7 hc x0 x1 x2 x3 xo4 xo5 f m,
   fun c i a2 h2 a3 h3 a4 h4 a5 h5 a6 h6 a7 h7 hc x0 x1 x2 x3 xo4 xo5 f m => Cert.Body0.out0_B_5_apply c i a2 h2 a3 h3 a4 h4 a5 h5 a6 h6 a7 h7 hc x0 x1 x2 x3 xo4 xo5 f m⟩

variable (V : (c : Dev nD) → (b : Ref sig .tc) → Buf (Elt Ideal) ((c : Thread nD τ).loc b))

/-- The last point of core u is a point of the grid. -/
theorem bnd (u : ℕ) (hu : u < 2) : 32 * u + 31 < cfg0.N := by
  have hN : cfg0.N = 64 := N_0
  omega

/-- The running pair does not depend on how its arguments are written. -/
theorem acc_congr (c : Dev nD) {f f' : Fin 64} {m m' : Fin 32} {n n' : ℕ} (h : n < cfg0.N) (h' : n' < cfg0.N)
    (hf : f = f') (hm : m = m') (hn : n = n') : acc V c f m n h = acc V c f' m' n' h' := by
  subst hf hm hn
  rfl

/-- The first output array: slab u holds core u's final running maxima. -/
def G4 (c : Dev nD) : S2x64x32.Idx → EReal := fun i =>
  (acc V c ⟨(i 1).val, (i 1).isLt⟩ ⟨(i 2).val, (i 2).isLt⟩ (32 * (i 0).val + 31) (bnd _ (i 0).isLt)).1

/-- The second output array: slab u holds core u's final running sums. -/
def G5 (c : Dev nD) : S2x64x32.Idx → EReal := fun i =>
  (acc V c ⟨(i 1).val, (i 1).isLt⟩ ⟨(i 2).val, (i 2).isLt⟩ (32 * (i 0).val + 31) (bnd _ (i 0).isLt)).2

/-- The printed index maps of the two outputs over the grid: block (t / 32, 0, 0) at point t. -/
theorem idx_facts : ∀ t : Fin cfg0.N,
    win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0 :=
  (by decide +kernel : ∀ t : Fin grid0.N, _)

/-- After its last step, core u's point writes back slab u of output one (the running maxima). -/
theorem flushed4 (hp : PieceSpec) (c : Dev nD) (t : Fin cfg0.N) (hf : (cfg0.win 4).flush t = true) :
    (dat0 V c).flushed 4 t = ((cfg0.win 4).blk t).view.read (Elt Ideal) (G4 V c) := by
  show (cfg0.win 4).cut (grid0.coords t) ((dat0 V c).after 4 t) = _
  rw [after0_4]
  funext j
  obtain ⟨u, f, m, rfl⟩ : ∃ (u : Fin 1) (f : Fin 64) (m : Fin 32), j = ix3 u f m := ⟨j 0, j 1, j 2, eq_ix3 j⟩
  obtain rfl : u = 0 := Subsingleton.elim _ _
  refine ((outsAt_eq V hp c f m t.val t.isLt).1).trans ?_
  have h31 : t.val % 32 = 31 := (flush0_4 t).mp hf
  have ht : t.val < 64 := lt_of_lt_of_eq t.isLt N_0
  obtain ⟨e0, e1, e2, e3, e4, e5⟩ := idx_facts t
  show _ = G4 V c (((cfg0.win 4).blk t).view.emb (ix3 0 f m))
  unfold G4
  refine congrArg Prod.fst (acc_congr V c _ _ (Fin.ext ?_) (Fin.ext ?_) ?_)
  · show f.val = win0_4.index t (1 : Fin 3) * 64 + 1 * f.val; omega
  · show m.val = win0_4.index t (2 : Fin 3) * 32 + 1 * m.val; omega
  · show t.val = 32 * (win0_4.index t (0 : Fin 3) * 1 + 1 * (0 : Fin 1).val) + 31
    have : ((0 : Fin 1).val) = 0 := rfl
    omega

/-- An index of the output array is in point t's block iff each coordinate is within the block's extent. -/
theorem mem_blk4 (t : Fin cfg0.N) (i : S2x64x32.Idx) :
    i ∈ ((cfg0.win 4).blk t).view.set ↔ ∀ a : Fin 3, win0_4.index t a * S1x64x32.size a ≤ (i a).val ∧ (i a).val < win0_4.index t a * S1x64x32.size a + S1x64x32.size a := by
  show i ∈ ((View.whole main_v40_0).slice (win0_4.rect t)).set ↔ _
  rw [View.set_slice_whole, Rect.mem_set_unit]
  exact Iff.rfl

/-- The output array after the call: slab u holds what core u reached after its 32 tiles — the point that covers slab u
    is 32 u + 31. -/
theorem final4 (hp : PieceSpec) (c : Dev nD) : (dat0 V c).arrAt 4 cfg0.N = G4 V c :=
  (dat0 V c).arrAt_eq_of_cover 4 (G4 V c) (fun t hf => flushed4 V hp c t hf) fun i => by
    have h0 : (i 0).val < 2 := (i 0).isLt
    have h1 : (i 1).val < 64 := (i 1).isLt
    have h2 : (i 2).val < 32 := (i 2).isLt
    have hN : cfg0.N = 64 := N_0
    refine ⟨⟨32 * (i 0).val + 31, by omega⟩, (flush0_4 _).mpr (by show (32 * (i 0).val + 31) % 32 = 31; omega), ?_⟩
    rw [mem_blk4]
    obtain ⟨e0, e1, e2, e3, e4, e5⟩ := idx_facts ⟨32 * (i 0).val + 31, by omega⟩
    intro a
    match a with
    | ⟨0, _⟩ => show win0_4.index ⟨32 * (i 0).val + 31, _⟩ (0 : Fin 3) * 1 ≤ (i 0).val ∧ (i 0).val < win0_4.index ⟨32 * (i 0).val + 31, _⟩ (0 : Fin 3) * 1 + 1
                rw [e0]; dsimp only; omega
    | ⟨1, _⟩ => show win0_4.index ⟨32 * (i 0).val + 31, _⟩ (1 : Fin 3) * 64 ≤ (i 1).val ∧ (i 1).val < win0_4.index ⟨32 * (i 0).val + 31, _⟩ (1 : Fin 3) * 64 + 64
                rw [e1]; omega
    | ⟨2, _⟩ => show win0_4.index ⟨32 * (i 0).val + 31, _⟩ (2 : Fin 3) * 32 ≤ (i 2).val ∧ (i 2).val < win0_4.index ⟨32 * (i 0).val + 31, _⟩ (2 : Fin 3) * 32 + 32
                rw [e2]; omega

/-- Entry (u, f, m) of the output array after the call. -/
theorem final4_apply (hp : PieceSpec) (c : Dev nD) (u : Fin 2) (f : Fin 64) (m : Fin 32) :
    (dat0 V c).arrAt 4 cfg0.N (ix3 u f m) = (acc V c f m (32 * u.val + 31) (bnd u.val u.isLt)).1 := by
  rw [final4 V hp c]
  rfl

/-- After its last step, core u's point writes back slab u of output two (the running sums). -/
theorem flushed5 (hp : PieceSpec) (c : Dev nD) (t : Fin cfg0.N) (hf : (cfg0.win 5).flush t = true) :
    (dat0 V c).flushed 5 t = ((cfg0.win 5).blk t).view.read (Elt Ideal) (G5 V c) := by
  show (cfg0.win 5).cut (grid0.coords t) ((dat0 V c).after 5 t) = _
  rw [after0_5]
  funext j
  obtain ⟨u, f, m, rfl⟩ : ∃ (u : Fin 1) (f : Fin 64) (m : Fin 32), j = ix3 u f m := ⟨j 0, j 1, j 2, eq_ix3 j⟩
  obtain rfl : u = 0 := Subsingleton.elim _ _
  refine ((outsAt_eq V hp c f m t.val t.isLt).2).trans ?_
  have h31 : t.val % 32 = 31 := (flush0_5 t).mp hf
  have ht : t.val < 64 := lt_of_lt_of_eq t.isLt N_0
  obtain ⟨e0, e1, e2, e3, e4, e5⟩ := idx_facts t
  show _ = G5 V c (((cfg0.win 5).blk t).view.emb (ix3 0 f m))
  unfold G5
  refine congrArg Prod.snd (acc_congr V c _ _ (Fin.ext ?_) (Fin.ext ?_) ?_)
  · show f.val = win0_5.index t (1 : Fin 3) * 64 + 1 * f.val; omega
  · show m.val = win0_5.index t (2 : Fin 3) * 32 + 1 * m.val; omega
  · show t.val = 32 * (win0_5.index t (0 : Fin 3) * 1 + 1 * (0 : Fin 1).val) + 31
    have : ((0 : Fin 1).val) = 0 := rfl
    omega

/-- An index of the output array is in point t's block iff each coordinate is within the block's extent. -/
theorem mem_blk5 (t : Fin cfg0.N) (i : S2x64x32.Idx) :
    i ∈ ((cfg0.win 5).blk t).view.set ↔ ∀ a : Fin 3, win0_5.index t a * S1x64x32.size a ≤ (i a).val ∧ (i a).val < win0_5.index t a * S1x64x32.size a + S1x64x32.size a := by
  show i ∈ ((View.whole main_v40_1).slice (win0_5.rect t)).set ↔ _
  rw [View.set_slice_whole, Rect.mem_set_unit]
  exact Iff.rfl

/-- The output array after the call: slab u holds what core u reached after its 32 tiles — the point that covers slab u
    is 32 u + 31. -/
theorem final5 (hp : PieceSpec) (c : Dev nD) : (dat0 V c).arrAt 5 cfg0.N = G5 V c :=
  (dat0 V c).arrAt_eq_of_cover 5 (G5 V c) (fun t hf => flushed5 V hp c t hf) fun i => by
    have h0 : (i 0).val < 2 := (i 0).isLt
    have h1 : (i 1).val < 64 := (i 1).isLt
    have h2 : (i 2).val < 32 := (i 2).isLt
    have hN : cfg0.N = 64 := N_0
    refine ⟨⟨32 * (i 0).val + 31, by omega⟩, (flush0_5 _).mpr (by show (32 * (i 0).val + 31) % 32 = 31; omega), ?_⟩
    rw [mem_blk5]
    obtain ⟨e0, e1, e2, e3, e4, e5⟩ := idx_facts ⟨32 * (i 0).val + 31, by omega⟩
    intro a
    match a with
    | ⟨0, _⟩ => show win0_5.index ⟨32 * (i 0).val + 31, _⟩ (0 : Fin 3) * 1 ≤ (i 0).val ∧ (i 0).val < win0_5.index ⟨32 * (i 0).val + 31, _⟩ (0 : Fin 3) * 1 + 1
                rw [e3]; dsimp only; omega
    | ⟨1, _⟩ => show win0_5.index ⟨32 * (i 0).val + 31, _⟩ (1 : Fin 3) * 64 ≤ (i 1).val ∧ (i 1).val < win0_5.index ⟨32 * (i 0).val + 31, _⟩ (1 : Fin 3) * 64 + 64
                rw [e4]; omega
    | ⟨2, _⟩ => show win0_5.index ⟨32 * (i 0).val + 31, _⟩ (2 : Fin 3) * 32 ≤ (i 2).val ∧ (i 2).val < win0_5.index ⟨32 * (i 0).val + 31, _⟩ (2 : Fin 3) * 32 + 32
                rw [e5]; omega

/-- Entry (u, f, m) of the output array after the call. -/
theorem final5_apply (hp : PieceSpec) (c : Dev nD) (u : Fin 2) (f : Fin 64) (m : Fin 32) :
    (dat0 V c).arrAt 5 cfg0.N (ix3 u f m) = (acc V c f m (32 * u.val + 31) (bnd u.val u.isLt)).2 := by
  rw [final5 V hp c]
  rfl

end Cert.KernelIdeal.R0F

end
-- ==== Proof.SpecReal.lean ====
/-
  Every attention key is a real number when the gathered arrays and the Key matrix hold reals.

  The masked friend entries are products of reals.  A sum of squares of reals is a nonnegative real, its square root
  is a nonnegative real, the norm floor is a positive real, so the floored norm is a positive real and the quotient by
  it is the real quotient.  A key is a finite sum of products of such quotients with entries of Key.
-/
import proofs.«174119_j9096740733368_2_alg».proof.Proof.Spec
import Idealize.ShloMosaic.PureOps.Ideal.Laws

noncomputable section

open scoped BigOperators

namespace Cert.SpecReal

open Idealize.ShloMosaic Idealize.ShloMosaic.ValueIdx Cert.Spec

/-- An extended real that is a real number. -/
def IsR (x : EReal) : Prop := ∃ r : ℝ, x = (r : EReal)

theorem IsR.mul {x y : EReal} (hx : IsR x) (hy : IsR y) : IsR (x * y) := by
  obtain ⟨r, rfl⟩ := hx
  obtain ⟨s, rfl⟩ := hy
  exact ⟨r * s, (EReal.coe_mul r s).symm⟩

theorem IsR.add {x y : EReal} (hx : IsR x) (hy : IsR y) : IsR (x + y) := by
  obtain ⟨r, rfl⟩ := hx
  obtain ⟨s, rfl⟩ := hy
  exact ⟨r + s, (EReal.coe_add r s).symm⟩

/-- The coercion of a finite sum of reals is the sum of the coercions. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsR.sum {ι : Type} (s : Finset ι) (f : ι → EReal) (h : ∀ i, IsR (f i)) : IsR (∑ i ∈ s, f i) := by
  choose g hg using h
  refine ⟨∑ i ∈ s, g i, ?_⟩
  rw [coe_sum]
  exact Finset.sum_congr rfl fun i _ => hg i

/-- The norm floor is a positive real. -/
theorem eps12_pos : ∃ e : ℝ, 0 < e ∧ eps12 = (e : EReal) := by
  have h : eps12 = (((2 ^ 23 + 834764 : ℕ) * (2 : ℝ) ^ ((87 : ℤ) - 127 - 23) : ℝ) : EReal) := by
    simp [eps12, Ideal.ofBits, Ideal.ieee]
  exact ⟨_, by positivity, h⟩

/-- The floored norm of a real vector is a positive real. -/
theorem nrm_pos (x : Fin 256 → EReal) (hx : ∀ d, IsR (x d)) : ∃ y : ℝ, 0 < y ∧ nrm x = (y : EReal) := by
  choose g hg using hx
  obtain ⟨e, he, hee⟩ := eps12_pos
  have hs : (∑ d, x d * x d) = ((∑ d, g d * g d : ℝ) : EReal) := by
    rw [coe_sum]
    exact Finset.sum_congr rfl fun d _ => by rw [hg d, EReal.coe_mul]
  have hn : ¬ (∑ d, g d * g d : ℝ) < 0 := not_lt.mpr (Finset.sum_nonneg fun d _ => mul_self_nonneg (g d))
  refine ⟨max (Real.sqrt (∑ d, g d * g d)) e, lt_max_of_lt_right he, ?_⟩
  rw [nrm, hs, Ideal.sqrt_coe, if_neg hn, hee]
  exact (EReal.coe_strictMono.monotone.map_max).symm

/-- A real divided by a positive real is a real. -/
theorem div_real {x y : EReal} (hx : IsR x) (hy : ∃ r : ℝ, 0 < r ∧ y = (r : EReal)) : IsR (Ideal.div x y) := by
  obtain ⟨r, hr, rfl⟩ := hy
  rw [Ideal.div_coe hr.ne']
  exact hx.mul ⟨_, rfl⟩

theorem feM_real (fr : Fin 64 → EReal) (fe : Fin 64 → Fin 256 → EReal) (hfr : ∀ f, IsR (fr f)) (hfe : ∀ f d, IsR (fe f d))
    (f : Fin 64) (d : Fin 256) : IsR (feM fr fe f d) := (hfr f).mul (hfe f d)

theorem cross_real (a : Fin 256 → EReal) (fr : Fin 64 → EReal) (fe : Fin 64 → Fin 256 → EReal)
    (ha : ∀ d, IsR (a d)) (hfr : ∀ f, IsR (fr f)) (hfe : ∀ f d, IsR (fe f d)) (f : Fin 64) (d : Fin 256) :
    IsR (cross a fr fe f d) :=
  (div_real (ha d) (nrm_pos a ha)).mul
    (div_real (feM_real fr fe hfr hfe f d) (nrm_pos (feM fr fe f) (feM_real fr fe hfr hfe f)))

theorem attKey_real (Key : Fin 256 → Fin 32 → EReal) (a : Fin 256 → EReal) (fr : Fin 64 → EReal) (fe : Fin 64 → Fin 256 → EReal)
    (hK : ∀ d m, IsR (Key d m)) (ha : ∀ d, IsR (a d)) (hfr : ∀ f, IsR (fr f)) (hfe : ∀ f d, IsR (fe f d))
    (f : Fin 64) (m : Fin 32) : IsR (attKey Key a fr fe f m) :=
  IsR.sum _ _ fun d => (cross_real a fr fe ha hfr hfe f d).mul (hK d m)

/-- Every key of every row is a real when the Key matrix, the user rows, the mask and the friend rows hold reals. -/
theorem keysOf_real (KeyA : (⟨2, ![256, 32]⟩ : Shape).Idx → EReal) (A : (⟨2, ![4096, 256]⟩ : Shape).Idx → EReal)
    (FR : (⟨2, ![4096, 64]⟩ : Shape).Idx → EReal) (FE : (⟨3, ![4096, 64, 256]⟩ : Shape).Idx → EReal)
    (hK : ∀ i, ∃ r : ℝ, KeyA i = (r : EReal)) (hA : ∀ i, ∃ r : ℝ, A i = (r : EReal))
    (hFR : ∀ i, ∃ r : ℝ, FR i = (r : EReal)) (hFE : ∀ i, ∃ r : ℝ, FE i = (r : EReal))
    (b : Fin 4096) (f : Fin 64) (m : Fin 32) : ∃ r : ℝ, keysOf KeyA A FR FE b f m = (r : EReal) :=
  attKey_real _ _ _ _ (fun d m => hK (ix2 d m)) (fun d => hA (ix2 b d)) (fun f => hFR (ix2 b f))
    (fun f d => hFE (ix3 b f d)) f m

end Cert.SpecReal

end
-- ==== Proof.Online.lean ====
/-
  The online softmax statistics, over the reals.

  For real numbers a i, mx a s is the largest a i over a finite set s (the bottom element for the empty set) and sm a s is
  the sum over s of exp (a i - mx a s).  Rescaling a sum of exponentials from one real offset to another is a
  multiplication by the exponential of the difference; hence the running pair (mx, sm) over a union of two disjoint
  nonempty sets is obtained from the pairs of the parts, which is what a tiled pass over the batch and the merge of two
  such passes compute.  The last section lists the rows of a tile of 64 consecutive rows out of 4096 and the rows a pass
  has seen after each of its 32 tiles.
-/
import proofs.«174119_j9096740733368_2_alg».proof.Proof.SpecReal

noncomputable section

open scoped BigOperators

namespace Cert.Online

open Idealize.ShloMosaic

variable {ι : Type} [DecidableEq ι]

/-- The largest a i over s; the bottom element for the empty set. -/
def mx (a : ι → ℝ) (s : Finset ι) : EReal := s.fold max ⊥ (fun i => (a i : EReal))

/-- The sum over s of exp (a i - mx a s). -/
def sm (a : ι → ℝ) (s : Finset ι) : EReal := ∑ i ∈ s, Ideal.exp ((a i : EReal) - mx a s)

theorem mx_eq_sup (a : ι → ℝ) (s : Finset ι) : mx a s = s.sup (fun i => (a i : EReal)) := by
  induction s using Finset.induction_on with
  | empty => simp [mx]
  | insert i s hi ih => rw [mx, Finset.fold_insert hi, Finset.sup_insert, ← ih]; rfl

/-- Over a nonempty set the largest value is attained, so it is a real. -/
theorem mx_real (a : ι → ℝ) (s : Finset ι) (hs : s.Nonempty) : ∃ μ : ℝ, mx a s = (μ : EReal) := by
  obtain ⟨i, _, hi⟩ := Finset.exists_mem_eq_sup s hs (fun i => (a i : EReal))
  exact ⟨a i, by rw [mx_eq_sup, hi]⟩

theorem mx_union (a : ι → ℝ) (s t : Finset ι) : mx a (s ∪ t) = max (mx a s) (mx a t) := by
  rw [mx_eq_sup, mx_eq_sup, mx_eq_sup, Finset.sup_union]

theorem exp_sub_coe (x y : ℝ) : Ideal.exp ((x : EReal) - (y : EReal)) = ((Real.exp (x - y) : ℝ) : EReal) := by
  rw [← EReal.coe_sub]; rfl

/-- Changing the offset of a sum of exponentials. -/
theorem rescale (a : ι → ℝ) (s : Finset ι) (μ M' : ℝ) :
    (∑ i ∈ s, Ideal.exp ((a i : EReal) - (μ : EReal))) * Ideal.exp ((μ : EReal) - (M' : EReal))
      = ∑ i ∈ s, Ideal.exp ((a i : EReal) - (M' : EReal)) := by
  simp only [exp_sub_coe]
  rw [← SpecReal.coe_sum, ← SpecReal.coe_sum, ← EReal.coe_mul, Finset.sum_mul]
  refine congrArg _ (Finset.sum_congr rfl fun i _ => ?_)
  rw [← Real.exp_add]
  exact congrArg _ (by ring)

theorem coe_max (x y : ℝ) : max (x : EReal) (y : EReal) = ((max x y : ℝ) : EReal) :=
  (EReal.coe_strictMono.monotone.map_max).symm

/-- The first tile: the initial pair (bottom, 0) followed by one update is the tile's pair. -/
theorem first (a : ι → ℝ) (t : Finset ι) (ht : t.Nonempty) :
    max ⊥ (mx a t) = mx a t
      ∧ (0 : EReal) * Ideal.exp (⊥ - max ⊥ (mx a t)) + ∑ i ∈ t, Ideal.exp ((a i : EReal) - max ⊥ (mx a t)) = sm a t := by
  have h : max ⊥ (mx a t) = mx a t := max_bot_left _
  exact ⟨h, by rw [h, zero_mul, zero_add, sm]⟩

/-- One update of the running pair by a further tile. -/
theorem step (a : ι → ℝ) (s t : Finset ι) (hd : Disjoint s t) (hs : s.Nonempty) (ht : t.Nonempty) :
    sm a s * Ideal.exp (mx a s - max (mx a s) (mx a t)) + ∑ i ∈ t, Ideal.exp ((a i : EReal) - max (mx a s) (mx a t))
      = sm a (s ∪ t) := by
  obtain ⟨μ, hμ⟩ := mx_real a s hs
  obtain ⟨ν, hν⟩ := mx_real a t ht
  have hM : max (mx a s) (mx a t) = ((max μ ν : ℝ) : EReal) := by rw [hμ, hν, coe_max]
  rw [sm, sm, mx_union, hM, hμ, rescale, Finset.sum_union hd]

/-- The merge of the pairs of two disjoint parts. -/
theorem merge (a : ι → ℝ) (s t : Finset ι) (hd : Disjoint s t) (hs : s.Nonempty) (ht : t.Nonempty) :
    sm a s * Ideal.exp (mx a s - max (mx a s) (mx a t)) + sm a t * Ideal.exp (mx a t - max (mx a s) (mx a t))
      = sm a (s ∪ t) := by
  obtain ⟨μ, hμ⟩ := mx_real a s hs
  obtain ⟨ν, hν⟩ := mx_real a t ht
  have hM : max (mx a s) (mx a t) = ((max μ ν : ℝ) : EReal) := by rw [hμ, hν, coe_max]
  rw [sm, sm, sm, mx_union, hM, hμ, hν, rescale, rescale, Finset.sum_union hd]

/-- Over a nonempty set the sum of the exponentials is a positive real. -/
theorem sm_pos (a : ι → ℝ) (s : Finset ι) (hs : s.Nonempty) : ∃ σ : ℝ, 0 < σ ∧ sm a s = (σ : EReal) := by
  obtain ⟨μ, hμ⟩ := mx_real a s hs
  refine ⟨∑ i ∈ s, Real.exp (a i - μ), Finset.sum_pos (fun i _ => Real.exp_pos _) hs, ?_⟩
  rw [sm, hμ, SpecReal.coe_sum]
  exact Finset.sum_congr rfl fun i _ => exp_sub_coe _ _

/-! ## The specification's batch statistics -/

theorem gmax_eq {n : Nat} (AK : Fin n → Fin 64 → Fin 32 → EReal) (a : Fin n → ℝ) (f : Fin 64) (m : Fin 32)
    (h : ∀ b, AK b f m = (a b : EReal)) : Cert.Spec.gmax AK f m = mx a Finset.univ := by
  unfold Cert.Spec.gmax mx
  exact congrArg (fun g => (Finset.univ : Finset (Fin n)).fold max ⊥ g) (funext h)

theorem gsum_eq {n : Nat} (AK : Fin n → Fin 64 → Fin 32 → EReal) (a : Fin n → ℝ) (f : Fin 64) (m : Fin 32)
    (h : ∀ b, AK b f m = (a b : EReal)) : Cert.Spec.gsum AK f m = sm a Finset.univ := by
  unfold Cert.Spec.gsum sm
  rw [gmax_eq AK a f m h]
  exact Finset.sum_congr rfl fun b _ => by rw [h b]

/-! ## Tiles of 64 rows -/

/-- The rows of tile t. -/
def tile (t : Fin 64) : Finset (Fin 4096) := Finset.univ.filter (fun b : Fin 4096 => b.val / 64 = t.val)

/-- The rows of the tiles a pass has read up to and including tile t (a pass reads 32 consecutive tiles). -/
def rows (t : Fin 64) : Finset (Fin 4096) :=
  Finset.univ.filter (fun b : Fin 4096 => 32 * (t.val / 32) ≤ b.val / 64 ∧ b.val / 64 ≤ t.val)

/-- Row p of tile t. -/
def emb (t : Fin 64) : Fin 64 ↪ Fin 4096 :=
  ⟨fun p => ⟨64 * t.val + p.val, by omega⟩, fun p q h => Fin.ext (by have := congrArg Fin.val h; simp only at this; omega)⟩

theorem emb_val (t p : Fin 64) : (emb t p).val = 64 * t.val + p.val := rfl

theorem tile_eq_map (t : Fin 64) : tile t = Finset.univ.map (emb t) := by
  ext b
  simp only [tile, Finset.mem_filter, Finset.mem_univ, true_and, Finset.mem_map]
  constructor
  · intro h
    refine ⟨⟨b.val % 64, Nat.mod_lt _ (by norm_num)⟩, Fin.ext ?_⟩
    rw [emb_val]
    show 64 * t.val + b.val % 64 = b.val
    omega
  · rintro ⟨p, rfl⟩
    rw [emb_val]
    omega

theorem sum_tile {M : Type} [AddCommMonoid M] (g : Fin 4096 → M) (t : Fin 64) :
    ∑ p : Fin 64, g ⟨64 * t.val + p.val, by omega⟩ = ∑ b ∈ tile t, g b := by
  rw [tile_eq_map, Finset.sum_map]; rfl

theorem fold_tile (g : Fin 4096 → EReal) (t : Fin 64) :
    (Finset.univ : Finset (Fin 64)).fold max ⊥ (fun p => g ⟨64 * t.val + p.val, by omega⟩) = (tile t).fold max ⊥ g := by
  rw [tile_eq_map, Finset.fold_map]; rfl

theorem tile_nonempty (t : Fin 64) : (tile t).Nonempty :=
  ⟨⟨64 * t.val, by omega⟩, by simp only [tile, Finset.mem_filter, Finset.mem_univ, true_and]; omega⟩

theorem tile_disjoint (t t' : Fin 64) (h : t ≠ t') : Disjoint (tile t) (tile t') :=
  Finset.disjoint_left.mpr fun b hb hb' => by
    simp only [tile, Finset.mem_filter, Finset.mem_univ, true_and] at hb hb'
    exact h (Fin.ext (hb.symm.trans hb'))

theorem tile_subset_rows (t : Fin 64) : tile t ⊆ rows t := fun b hb => by
  simp only [tile, rows, Finset.mem_filter, Finset.mem_univ, true_and] at hb ⊢
  omega

theorem rows_nonempty (t : Fin 64) : (rows t).Nonempty := (tile_nonempty t).mono (tile_subset_rows t)

/-- At a pass's first tile the rows read are the tile's. -/
theorem rows_first (t : Fin 64) (h : t.val % 32 = 0) : rows t = tile t := by
  ext b
  simp only [tile, rows, Finset.mem_filter, Finset.mem_univ, true_and]
  omega

/-- At a later tile the rows read are those read before and the tile's. -/
theorem rows_succ (t : Fin 64) (h : t.val % 32 ≠ 0) : rows t = rows ⟨t.val - 1, by omega⟩ ∪ tile t := by
  ext b
  simp only [tile, rows, Finset.mem_filter, Finset.mem_univ, true_and, Finset.mem_union]
  omega

theorem rows_succ_disjoint (t : Fin 64) (h : t.val % 32 ≠ 0) : Disjoint (rows ⟨t.val - 1, by omega⟩) (tile t) :=
  Finset.disjoint_left.mpr fun b hb hb' => by
    simp only [tile, rows, Finset.mem_filter, Finset.mem_univ, true_and] at hb hb'
    omega

/-- The two passes together read every row. -/
theorem rows_union : rows ⟨31, by omega⟩ ∪ rows ⟨63, by omega⟩ = (Finset.univ : Finset (Fin 4096)) := by
  ext b
  simp only [rows, Finset.mem_filter, Finset.mem_univ, true_and, Finset.mem_union, iff_true]
  omega

theorem rows_halves_disjoint : Disjoint (rows ⟨31, by omega⟩) (rows ⟨63, by omega⟩) :=
  Finset.disjoint_left.mpr fun b hb hb' => by
    simp only [rows, Finset.mem_filter, Finset.mem_univ, true_and] at hb hb'
    omega

end Cert.Online

end
-- ==== Proof.R0Online.lean ====
/-
  The running pair of the first pallas_call is the online maximum and sum of exponentials over the rows read so far.

  When the keys of the tile staged at point t are the real numbers a (64 t + p), the tile's largest key is the largest
  a b over the tile's rows and the tile's sum of exponentials is the sum over the tile's rows; the pair restarts at the
  first tile of a pass and is updated by one online step at every later tile, so after point n it is the pair of the
  rows the pass has read.  The two passes read disjoint halves of the batch, and their merge is the pair of the batch.
-/
import proofs.«174119_j9096740733368_2_alg».proof.Proof.Region0
import proofs.«174119_j9096740733368_2_alg».proof.Proof.Online

set_option maxRecDepth 16384

noncomputable section

open scoped BigOperators

namespace Cert.KernelIdeal.R0O

open Cert.KernelIdeal Cert.KernelIdeal.Gen Cert.KernelIdeal.R0 Cert.Online
open Idealize.ShloMosaic Idealize.ShloMosaic.TcCoe Idealize.SL.Sem Idealize.ShloMosaic.ValueIdx

/-! ## One tile, from its keys -/

section Tile

variable (a : Fin 4096 → ℝ) (f : Fin 64) (m : Fin 32) (K : S64x64x32.Idx → EReal) (t : Fin 64)
  (hKt : ∀ p : Fin 64, K (ix3 p f m) = ((a ⟨64 * t.val + p.val, by omega⟩ : ℝ) : EReal))

include hKt

/-- The tile's largest key is the largest a b over the tile's rows. -/
theorem tmax_eq : tmax K f m = mx a (tile t) := by
  unfold tmax mx
  rw [← fold_tile (fun b => (a b : EReal)) t]
  exact congrArg (fun g => (Finset.univ : Finset (Fin 64)).fold max ⊥ g) (funext hKt)

/-- The tile's sum of exponentials against an offset is the sum over the tile's rows. -/
theorem tsum_eq (M : EReal) :
    ∑ p : Fin 64, Ideal.exp (K (ix3 p f m) - M) = ∑ b ∈ tile t, Ideal.exp ((a b : EReal) - M) := by
  rw [← sum_tile (fun b => Ideal.exp ((a b : EReal) - M)) t]
  exact Finset.sum_congr rfl fun p _ => by rw [hKt p]

theorem stepM_first : stepM ⊥ K f m = mx a (tile t) := by
  unfold stepM
  rw [tmax_eq a f m K t hKt]
  exact (first a (tile t) (tile_nonempty t)).1

theorem stepS_first : stepS ⊥ 0 K f m = sm a (tile t) := by
  unfold stepS
  rw [tsum_eq a f m K t hKt, tmax_eq a f m K t hKt]
  exact (first a (tile t) (tile_nonempty t)).2

theorem stepM_next (s : Finset (Fin 4096)) : stepM (mx a s) K f m = mx a (s ∪ tile t) := by
  unfold stepM
  rw [tmax_eq a f m K t hKt, mx_union]

theorem stepS_next (s : Finset (Fin 4096)) (hd : Disjoint s (tile t)) (hs : s.Nonempty) :
    stepS (mx a s) (sm a s) K f m = sm a (s ∪ tile t) := by
  unfold stepS
  rw [tsum_eq a f m K t hKt, tmax_eq a f m K t hKt]
  exact step a s (tile t) hd hs (tile_nonempty t)

end Tile

/-! ## The running pair -/

theorem lt64 {n : ℕ} (h : n < cfg0.N) : n < 64 := by
  have : cfg0.N = 64 := N_0
  omega

theorem lt_N {n : ℕ} (h : n < 64) : n < cfg0.N := by
  have : cfg0.N = 64 := N_0
  omega

variable (V : (c : Dev nD) → (b : Ref sig .tc) → Buf (Elt Ideal) ((c : Thread nD τ).loc b))
  (c : Dev nD) (f : Fin 64) (m : Fin 32) (a : Fin 4096 → ℝ)

/-- After point n the running pair is the pair of the rows the pass has read. -/
theorem acc_eq
    (hK : ∀ (t : Fin cfg0.N) (p : Fin 64), Kt V c t (ix3 p f m)
      = ((a ⟨64 * t.val + p.val, by have := t.isLt; have : cfg0.N = 64 := N_0; omega⟩ : ℝ) : EReal)) :
    ∀ (n : ℕ) (h : n < cfg0.N), acc V c f m n h = (mx a (rows ⟨n, lt64 h⟩), sm a (rows ⟨n, lt64 h⟩))
  | 0, h => by
    have hKt : ∀ p : Fin 64, Kt V c ⟨0, h⟩ (ix3 p f m)
        = ((a ⟨64 * (⟨0, lt64 h⟩ : Fin 64).val + p.val, by omega⟩ : ℝ) : EReal) := fun p => hK ⟨0, h⟩ p
    rw [acc_zero, rows_first ⟨0, lt64 h⟩ rfl, stepM_first a f m _ ⟨0, lt64 h⟩ hKt, stepS_first a f m _ ⟨0, lt64 h⟩ hKt]
  | n + 1, h => by
    have hKt : ∀ p : Fin 64, Kt V c ⟨n + 1, h⟩ (ix3 p f m)
        = ((a ⟨64 * (⟨n + 1, lt64 h⟩ : Fin 64).val + p.val, by have := lt64 h; omega⟩ : ℝ) : EReal) :=
      fun p => hK ⟨n + 1, h⟩ p
    by_cases h0 : (n + 1) % 32 = 0
    · rw [acc_first V c f m n h h0, rows_first ⟨n + 1, lt64 h⟩ h0, stepM_first a f m _ ⟨n + 1, lt64 h⟩ hKt,
        stepS_first a f m _ ⟨n + 1, lt64 h⟩ hKt]
    · have ih := acc_eq hK n (Nat.lt_of_succ_lt h)
      have hr : rows ⟨n + 1, lt64 h⟩ = rows ⟨n, lt64 (Nat.lt_of_succ_lt h)⟩ ∪ tile ⟨n + 1, lt64 h⟩ :=
        rows_succ ⟨n + 1, lt64 h⟩ h0
      have hd : Disjoint (rows ⟨n, lt64 (Nat.lt_of_succ_lt h)⟩) (tile ⟨n + 1, lt64 h⟩) :=
        rows_succ_disjoint ⟨n + 1, lt64 h⟩ h0
      rw [acc_next V c f m n h h0, ih, hr]
      dsimp only
      rw [stepM_next a f m _ ⟨n + 1, lt64 h⟩ hKt, stepS_next a f m _ ⟨n + 1, lt64 h⟩ hKt _ hd (rows_nonempty _)]

/-- The merge of the two passes' pairs is the pair of the whole batch. -/
theorem merged
    (hK : ∀ (t : Fin cfg0.N) (p : Fin 64), Kt V c t (ix3 p f m)
      = ((a ⟨64 * t.val + p.val, by have := t.isLt; have : cfg0.N = 64 := N_0; omega⟩ : ℝ) : EReal))
    (h31 : 31 < cfg0.N) (h63 : 63 < cfg0.N) :
    max (acc V c f m 31 h31).1 (acc V c f m 63 h63).1 = mx a Finset.univ
      ∧ (acc V c f m 31 h31).2 * Ideal.exp ((acc V c f m 31 h31).1 - max (acc V c f m 31 h31).1 (acc V c f m 63 h63).1)
          + (acc V c f m 63 h63).2 * Ideal.exp ((acc V c f m 63 h63).1 - max (acc V c f m 31 h31).1 (acc V c f m 63 h63).1)
        = sm a Finset.univ := by
  rw [acc_eq V c f m a hK 31 h31, acc_eq V c f m a hK 63 h63]
  dsimp only
  constructor
  · exact (mx_union a _ _).symm.trans (congrArg (mx a) rows_union)
  · exact (merge a _ _ rows_halves_disjoint (rows_nonempty _) (rows_nonempty _)).trans (congrArg (sm a) rows_union)

/-- The merge of the two passes' pairs is the specification's batch maximum and batch sum. -/
theorem merged_spec
    (hK : ∀ (t : Fin cfg0.N) (p : Fin 64), Kt V c t (ix3 p f m)
      = ((a ⟨64 * t.val + p.val, by have := t.isLt; have : cfg0.N = 64 := N_0; omega⟩ : ℝ) : EReal))
    (AK : Fin 4096 → Fin 64 → Fin 32 → EReal) (hAK : ∀ b, AK b f m = (a b : EReal))
    (h31 : 31 < cfg0.N) (h63 : 63 < cfg0.N) :
    max (acc V c f m 31 h31).1 (acc V c f m 63 h63).1 = Cert.Spec.gmax AK f m
      ∧ (acc V c f m 31 h31).2 * Ideal.exp ((acc V c f m 31 h31).1 - max (acc V c f m 31 h31).1 (acc V c f m 63 h63).1)
          + (acc V c f m 63 h63).2 * Ideal.exp ((acc V c f m 63 h63).1 - max (acc V c f m 31 h31).1 (acc V c f m 63 h63).1)
        = Cert.Spec.gsum AK f m := by
  rw [gmax_eq AK a f m hAK, gsum_eq AK a f m hAK]
  exact merged V c f m a hK h31 h63

end Cert.KernelIdeal.R0O

end
-- ==== Proof.R0Keys.lean ====
/-
  The keys of the tile staged at a point of the first pallas_call are the specification's keys of the batch rows the
  tile covers.  The grid is 2 x 32; point t stages rows 64 t … 64 t + 63 of the user rows, the friend rows and the mask,
  and the whole Key matrix: block row p of point t IS array row 64 t + p, so the tile's keys at (p, f, m) are the keys of
  batch row 64 t + p at (f, m).
-/
import proofs.«174119_j9096740733368_2_alg».proof.Proof.Spec
import proofs.«174119_j9096740733368_2_alg».proof.Proof.Gen.KernelIdeal.Frame
import proofs.«174119_j9096740733368_2_alg».proof.Proof.Region0
import proofs.«174119_j9096740733368_2_alg».proof.Proof.Body1a
import Idealize.ShloMosaic.Lib.Pipeline.Value
import Idealize.ShloMosaic.Lib.ValueIdx

set_option maxRecDepth 16384

noncomputable section

open scoped BigOperators

namespace Cert.KernelIdeal.R0K

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the grid: a per-row window's block index is the point, the Key matrix's is zero. -/
theorem idx_facts0 : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-! ## A block's entry is the array's -/

theorem blk0_0 (c : Dev nD) (t : Fin cfg0.N) (p : Fin 64) (d : Fin 256) (b : Fin 4096) (hb : b.val = 64 * t.val + p.val) :
    iblk0 V c 0 t (ix2 p d) = (V c main_v7 : S4096x256.Idx → EReal) (ix2 b d) := by
  show (V c main_v7 : S4096x256.Idx → EReal) (((cfg0.win 0).blk t).view.emb (ix2 p d)) = _
  refine congrArg _ (funext fun a => Fin.ext ?_)
  obtain ⟨e0, e1, -⟩ := idx_facts0 t
  match a with
  | ⟨0, _⟩ => show win0_0.index t (0 : Fin 2) * 64 + 1 * p.val = b.val; omega
  | ⟨1, _⟩ => show win0_0.index t (1 : Fin 2) * 256 + 1 * d.val = d.val; omega

theorem blk0_1 (c : Dev nD) (t : Fin cfg0.N) (p f : Fin 64) (d : Fin 256) (b : Fin 4096) (hb : b.val = 64 * t.val + p.val) :
    iblk0 V c 1 t (ix3 p f d) = (V c main_v31 : S4096x64x256.Idx → EReal) (ix3 b f d) := by
  show (V c main_v31 : S4096x64x256.Idx → EReal) (((cfg0.win 1).blk t).view.emb (ix3 p f d)) = _
  refine congrArg _ (funext fun a => Fin.ext ?_)
  obtain ⟨-, -, e0, e1, e2, -⟩ := idx_facts0 t
  match a with
  | ⟨0, _⟩ => show win0_1.index t (0 : Fin 3) * 64 + 1 * p.val = b.val; omega
  | ⟨1, _⟩ => show win0_1.index t (1 : Fin 3) * 64 + 1 * f.val = f.val; omega
  | ⟨2, _⟩ => show win0_1.index t (2 : Fin 3) * 256 + 1 * d.val = d.val; omega

theorem blk0_2 (c : Dev nD) (t : Fin cfg0.N) (p f : Fin 64) (b : Fin 4096) (hb : b.val = 64 * t.val + p.val) :
    iblk0 V c 2 t (ix2 p f) = (V c main_v34 : S4096x64.Idx → EReal) (ix2 b f) := by
  show (V c main_v34 : S4096x64.Idx → EReal) (((cfg0.win 2).blk t).view.emb (ix2 p f)) = _
  refine congrArg _ (funext fun a => Fin.ext ?_)
  obtain ⟨-, -, -, -, -, e0, e1, -⟩ := idx_facts0 t
  match a with
  | ⟨0, _⟩ => show win0_2.index t (0 : Fin 2) * 64 + 1 * p.val = b.val; omega
  | ⟨1, _⟩ => show win0_2.index t (1 : Fin 2) * 64 + 1 * f.val = f.val; omega

/-- The Key matrix's block is the whole array. -/
theorem blk0_3 (c : Dev nD) (t : Fin cfg0.N) (y : S256x32.Idx) : iblk0 V c 3 t y = (V c main_arg6 : S256x32.Idx → EReal) y := by
  show (V c main_arg6 : S256x32.Idx → EReal) (((cfg0.win 3).blk t).view.emb y) = _
  refine congrArg _ (funext fun a => Fin.ext ?_)
  obtain ⟨-, -, -, -, -, -, -, e0, e1⟩ := idx_facts0 t
  match a with
  | ⟨0, _⟩ => show win0_3.index t (0 : Fin 2) * 256 + 1 * (y 0).val = (y 0).val; omega
  | ⟨1, _⟩ => show win0_3.index t (1 : Fin 2) * 32 + 1 * (y 1).val = (y 1).val; omega

/-! ## The tile's keys are the batch rows' keys -/

theorem Kt_eq (c : Dev nD) (t : Fin cfg0.N) (p f : Fin 64) (m : Fin 32) (b : Fin 4096) (hb : b.val = 64 * t.val + p.val) :
    Cert.KernelIdeal.R0.Kt V c t (ix3 p f m)
      = Cert.Spec.keysOf (V c main_arg6 : S256x32.Idx → EReal) (V c main_v7 : S4096x256.Idx → EReal)
          (V c main_v34 : S4096x64.Idx → EReal) (V c main_v31 : S4096x64x256.Idx → EReal) b f m := by
  unfold Cert.KernelIdeal.R0.Kt
  refine (Cert.Body1.k0_pay6_apply (iblk0 V c 0 t) (iblk0 V c 1 t) (iblk0 V c 2 t) (iblk0 V c 3 t) p f m).trans ?_
  unfold Cert.Spec.keysOf
  have a0 : (fun d => iblk0 V c 0 t (ix2 p d)) = fun d => (V c main_v7 : S4096x256.Idx → EReal) (ix2 b d) :=
    funext fun d => blk0_0 V c t p d b hb
  have a1 : (fun f d => iblk0 V c 1 t (ix3 p f d)) = fun f d => (V c main_v31 : S4096x64x256.Idx → EReal) (ix3 b f d) :=
    funext fun f => funext fun d => blk0_1 V c t p f d b hb
  have a2 : (fun f => iblk0 V c 2 t (ix2 p f)) = fun f => (V c main_v34 : S4096x64.Idx → EReal) (ix2 b f) :=
    funext fun f => blk0_2 V c t p f b hb
  have a3 : (fun (d : Fin 256) (m : Fin 32) => iblk0 V c 3 t (ix2 d m)) = fun d m => (V c main_arg6 : S256x32.Idx → EReal) (ix2 d m) :=
    funext fun d => funext fun m => blk0_3 V c t (ix2 d m)
  rw [a0, a1, a2, a3]

end Cert.KernelIdeal.R0K

end
-- ==== Proof.PreReal.lean ====
/-
  From the certificate's precondition to real numbers.

  The precondition says, for each float argument, that every entry's absolute value is below +infinity.  An extended
  real whose absolute value is below the top element is neither the top nor the bottom element, hence a real.  A gather
  returns entries of its operand, so a gather of a real array is real.  A format change is the identity on extended
  reals, and a one-bit word converted to a float is 0 or 1.
-/
import proofs.«174119_j9096740733368_2_alg».proof.Pre_finite_inputs
import Idealize.ShloMosaic.Lib.ReduceAll
import Idealize.ShloMosaic.Lib.ValueIdx
import Idealize.ShloMosaic.PureOps.Ideal.Laws

noncomputable section

namespace Cert.PreReal

open Idealize.ShloMosaic Idealize.ShloMosaic.ValueIdx Cert.Pre_finite_inputs

instance : Subsingleton S_.Idx := ⟨fun a b => funext fun d => d.elim0⟩

/-- An extended real whose absolute value is below +infinity is a real. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- One entry of an array whose comparison word against +infinity is 1. -/
theorem elem_real {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) :=
  real_of_abs_lt (x i) h

/-- The printed "all entries are finite" of one array. -/
theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant (F := Ideal) S_ .f32 0x7F800000#32)))
      (constantI S_ 1 1#1) hr hu ix0 = 1#1) : ∀ i, ∃ r : ℝ, x i = (r : EReal) :=
  fun i => elem_real hb x i (Host.reduce_andi_all _ _ hr hu ix0 h i)

/-- The precondition's function being all ones makes every float argument an array of reals. -/
theorem reals_of_fn [Facts] (x0 x1 : IVec S4096 32) (x2 : IVec S4096x64 32) (x3 : FVec Ideal S500001x256 .f32)
    (x4 : FVec Ideal S100000x256 .f32) (x5 : FVec Ideal S100000 .f32) (x6 : FVec Ideal S256x32 .f32)
    (x7 : FVec Ideal S32x256 .f32) (x8 : FVec Ideal S256x256 .f32) (x9 : FVec Ideal S256 .f32)
    (x10 : FVec Ideal S256x1 .f32) (x11 : FVec Ideal S512x2 .f32)
    (h : fn (F := Ideal) x0 x1 x2 x3 x4 x5 x6 x7 x8 x9 x10 x11 = fun _ => 1#1) :
    (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal))
      ∧ (∀ i, ∃ r : ℝ, x9 i = (r : EReal)) ∧ (∀ i, ∃ r : ℝ, x10 i = (r : EReal)) ∧ (∀ i, ∃ r : ℝ, x11 i = (r : EReal)) := by
  have h0 := congrFun h ix0
  dsimp only [fn, fn_part1, fn_part2, andi] at h0
  simp only [IntOp.andi_eq_one] at h0
  obtain ⟨⟨⟨⟨⟨⟨⟨⟨h3, h4⟩, h5⟩, h6⟩, h7⟩, h8⟩, h9⟩, h10⟩, h11⟩ := h0
  exact ⟨all_real _ _ _ x3 h3, all_real _ _ _ x4 h4, all_real _ _ _ x5 h5, all_real _ _ _ x6 h6, all_real _ _ _ x7 h7,
    all_real _ _ _ x8 h8, all_real _ _ _ x9 h9, all_real _ _ _ x10 h10, all_real _ _ _ x11 h11⟩

/-! ## The gathered arrays -/

/-- A gather of an array of reals is an array of reals: each entry of the result is the operand's entry at the
    gather's operand index, so no value other than an operand entry ever appears. -/
theorem gather_real {s si t : Shape} {w : Nat} (D : GatherDims s si t) (x : s.Idx → EReal) (idx : IVec si w)
    (hx : ∀ i, ∃ r : ℝ, x i = (r : EReal)) (j : t.Idx) : ∃ r : ℝ, Host.gather D x idx j = (r : EReal) :=
  hx (D.operandIdx j idx)

/-- A gathered entry is the operand's entry at the gather's operand index. -/
theorem gather_apply {s si t : Shape} {w : Nat} {α : Type} (D : GatherDims s si t) (x : s.Idx → α) (idx : IVec si w) (j : t.Idx) :
    Host.gather D x idx j = x (D.operandIdx j idx) := rfl

/-- A narrowing format change is the identity on extended reals. -/
theorem truncf_eq {s : Shape} {φ : FTy} (ψ : FTy) (x : FVec Ideal s φ) (h : ψ.bits < φ.bits) :
    truncf (F := Ideal) ψ x h = x := rfl

/-- A widening format change is the identity on extended reals. -/
theorem extf_eq {s : Shape} {φ : FTy} (ψ : FTy) (x : FVec Ideal s φ) (h : φ.bits < ψ.bits) :
    extf (F := Ideal) ψ x h = x := rfl

/-- A narrowed array of reals is an array of reals. -/
theorem truncf_real {s : Shape} {φ : FTy} (ψ : FTy) (x : FVec Ideal s φ) (h : ψ.bits < φ.bits)
    (hx : ∀ i, ∃ r : ℝ, x i = (r : EReal)) (i : s.Idx) : ∃ r : ℝ, truncf (F := Ideal) ψ x h i = (r : EReal) := hx i

/-- A one-bit word converted to a float is 0 or 1. -/
theorem uitofp_i1 {s : Shape} (φ : FTy) (x : IVec s 1) (i : s.Idx) :
    uitofp (F := Ideal) φ x i = if x i = 1#1 then (1 : EReal) else 0 := by
  show (((x i).toNat : ℝ) : EReal) = _
  generalize x i = b
  rcases (by revert b; decide : b = 0#1 ∨ b = 1#1) with rfl | rfl
  · simp
  · simp

/-- An integer word converted to a float is a real. -/
theorem uitofp_real {s : Shape} {w : Nat} (φ : FTy) (x : IVec s w) (i : s.Idx) :
    ∃ r : ℝ, uitofp (F := Ideal) φ x i = (r : EReal) := ⟨((x i).toNat : ℝ), rfl⟩

end Cert.PreReal

end
-- ==== Proof.Bridge.lean ====
/-
  The idealized kernel's result, row by row, is the specification's score.

  The batch statistics first: the two cores' running pairs, merged by the host operations between the two calls, are
  the largest key of the whole batch and the batch's sum of exp (key - largest key) — when every key is a real
  number, which the finiteness of the inputs gives.  Then the second call's score of row b, from the arrays it finds,
  is the specification's score with those statistics.
-/
import proofs.«174119_j9096740733368_2_alg».proof.Proof.Spec
import proofs.«174119_j9096740733368_2_alg».proof.Proof.KRun
import proofs.«174119_j9096740733368_2_alg».proof.Proof.KHost
import proofs.«174119_j9096740733368_2_alg».proof.Proof.Region1
import proofs.«174119_j9096740733368_2_alg».proof.Proof.Body1b
import proofs.«174119_j9096740733368_2_alg».proof.Proof.R0Final
import proofs.«174119_j9096740733368_2_alg».proof.Proof.R0Online
import proofs.«174119_j9096740733368_2_alg».proof.Proof.R0Keys
import proofs.«174119_j9096740733368_2_alg».proof.Proof.SpecReal
import proofs.«174119_j9096740733368_2_alg».proof.Proof.PreReal
import proofs.«174119_j9096740733368_2_alg».proof.Proof.RefReadP

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The keys of the batch, from the arrays the first call finds. -/
def AK (c : Dev nD) : Fin 4096 → Fin 64 → Fin 32 → EReal :=
  Cert.Spec.keysOf (V1 m ρ c main_arg6 : S256x32.Idx → EReal) (V1 m ρ c main_v7 : S4096x256.Idx → EReal)
    (V1 m ρ c main_v34 : S4096x64.Idx → EReal) (V1 m ρ c main_v31 : S4096x64x256.Idx → EReal)

/-- The merged statistics the second call finds are the batch's. -/
theorem stats (c : Dev nD) (hfin : ∀ b f k, ∃ r : ℝ, AK m ρ c b f k = (r : EReal)) (f : Fin 64) (k : Fin 32) :
    (V3 m ρ c main_v49 : S64x32.Idx → EReal) (ix2 f k) = Cert.Spec.gmax (AK m ρ c) f k
    ∧ (V3 m ρ c main_v56 : S64x32.Idx → EReal) (ix2 f k) = Cert.Spec.gsum (AK m ρ c) f k := by
  choose a ha using fun b => hfin b f k
  have hK : ∀ (t : Fin cfg0.N) (p : Fin 64), R0.Kt (V1 m ρ) c t (ix3 p f k)
      = ((a ⟨64 * t.val + p.val, by have := t.isLt; have : cfg0.N = 64 := N_0; omega⟩ : ℝ) : EReal) :=
    fun t p => (R0K.Kt_eq (V1 m ρ) c t p f k _ rfl).trans (ha _)
  obtain ⟨hG, hT⟩ := R0O.merged_spec (V1 m ρ) c f k a hK (AK m ρ c) ha (R0O.lt_N (by norm_num)) (R0O.lt_N (by norm_num))
  have e4 : ∀ u : Fin 2, (W2 m ρ c (Proc.devRef .tc main_v40_0) : S2x64x32.Idx → EReal) (ix3 u f k)
      = (R0.acc (V1 m ρ) c f k (32 * u.val + 31) (R0F.bnd u.val u.isLt)).1 :=
    fun u => (congrFun (W2_arr m ρ c 4) _).trans (R0F.final4_apply (V1 m ρ) R0F.pieces c u f k)
  have e5 : ∀ u : Fin 2, (W2 m ρ c (Proc.devRef .tc main_v40_1) : S2x64x32.Idx → EReal) (ix3 u f k)
      = (R0.acc (V1 m ρ) c f k (32 * u.val + 31) (R0F.bnd u.val u.isLt)).2 :=
    fun u => (congrFun (W2_arr m ρ c 5) _).trans (R0F.final5_apply (V1 m ρ) R0F.pieces c u f k)
  have h49 := KHost.host1_v49_apply (W2 m ρ c) f k
  have h56 := KHost.host1_v56_apply (W2 m ρ c) f k
  unfold KHost.mergeSum at h56
  unfold KHost.mergeMax at h49 h56
  rw [e4 0, e4 1] at h49
  rw [e4 0, e4 1, e5 0, e5 1] at h56
  exact ⟨h49.trans hG, h56.trans hT⟩

/-- The second call's body leaves the score of each block row. -/
theorem body1 : R1.BodySpec := fun x0 x1 x2 x3 x4 x5 x6 x7 x8 x9 x10 x11 x12 x13 p =>
  Cert.Body1.out1_14_apply x0 x1 x2 x3 x4 x5 x6 x7 x8 x9 x10 x11 x12 x13 p

/-- Entry b of the result: the score of row b from the arrays the FIRST call finds and the batch statistics. -/
theorem result_row (c : Dev nD) (hfin : ∀ b f k, ∃ r : ℝ, AK m ρ c b f k = (r : EReal)) (b : Fin 4096) :
    (W5 m ρ c (Proc.devRef .tc main_v58) : S4096.Idx → EReal) (ix1 b)
      = Cert.Spec.rowScore
          (fun d k => (V1 m ρ c main_arg6 : S256x32.Idx → EReal) (ix2 d k))
          (fun k d => (V1 m ρ c main_arg7 : S32x256.Idx → EReal) (ix2 k d))
          (fun d a => (V1 m ρ c main_arg8 : S256x256.Idx → EReal) (ix2 d a))
          (fun a => (V1 m ρ c main_v35 : S1x256.Idx → EReal) (ix2 0 a))
          (fun a => (V1 m ρ c main_v39 : S1x256.Idx → EReal) (ix2 0 a))
          (fun d j => (V1 m ρ c main_v36 : S256x2.Idx → EReal) (ix2 d j))
          (fun d j => (V1 m ρ c main_v37 : S256x2.Idx → EReal) (ix2 d j))
          (Cert.Spec.gmax (AK m ρ c)) (Cert.Spec.gsum (AK m ρ c))
          (fun d => (V1 m ρ c main_v7 : S4096x256.Idx → EReal) (ix2 b d))
          (fun f => (V1 m ρ c main_v34 : S4096x64.Idx → EReal) (ix2 b f))
          (fun f d => (V1 m ρ c main_v31 : S4096x64x256.Idx → EReal) (ix3 b f d))
          (fun d => (V1 m ρ c main_v15 : S4096x256.Idx → EReal) (ix2 b d))
          ((V1 m ρ c main_v23 : S4096x1.Idx → EReal) (ix2 b 0)) := by
  rw [KHost.W5_v58_apply m ρ c b]
  have h1 : W4 m ρ c (Proc.devRef .tc main_v57) = R1.G1 (V3 m ρ) c := (W4_arr m ρ c 14).trans (R1.final (V3 m ρ) body1 c)
  rw [h1]
  show R1.row (V3 m ρ) c b = _
  unfold R1.row
  have k6 : V3 m ρ c main_arg6 = V1 m ρ c main_arg6 := (KHost.V3_keep m ρ c main_arg6 (by decide)).trans (KHost.W2_arg6 m ρ c)
  have k7 : V3 m ρ c main_arg7 = V1 m ρ c main_arg7 := (KHost.V3_keep m ρ c main_arg7 (by decide)).trans (KHost.W2_arg7 m ρ c)
  have k8 : V3 m ρ c main_arg8 = V1 m ρ c main_arg8 := (KHost.V3_keep m ρ c main_arg8 (by decide)).trans (KHost.W2_arg8 m ρ c)
  have k35 : V3 m ρ c main_v35 = V1 m ρ c main_v35 := (KHost.V3_keep m ρ c main_v35 (by decide)).trans (KHost.W2_v35 m ρ c)
  have k39 : V3 m ρ c main_v39 = V1 m ρ c main_v39 := (KHost.V3_keep m ρ c main_v39 (by decide)).trans (KHost.W2_v39 m ρ c)
  have k36 : V3 m ρ c main_v36 = V1 m ρ c main_v36 := (KHost.V3_keep m ρ c main_v36 (by decide)).trans (KHost.W2_v36 m ρ c)
  have k37 : V3 m ρ c main_v37 = V1 m ρ c main_v37 := (KHost.V3_keep m ρ c main_v37 (by decide)).trans (KHost.W2_v37 m ρ c)
  have k7' : V3 m ρ c main_v7 = V1 m ρ c main_v7 := (KHost.V3_keep m ρ c main_v7 (by decide)).trans (KHost.W2_v7 m ρ c)
  have k34 : V3 m ρ c main_v34 = V1 m ρ c main_v34 := (KHost.V3_keep m ρ c main_v34 (by decide)).trans (KHost.W2_v34 m ρ c)
  have k31 : V3 m ρ c main_v31 = V1 m ρ c main_v31 := (KHost.V3_keep m ρ c main_v31 (by decide)).trans (KHost.W2_v31 m ρ c)
  have k15 : V3 m ρ c main_v15 = V1 m ρ c main_v15 := (KHost.V3_keep m ρ c main_v15 (by decide)).trans (KHost.W2_v15 m ρ c)
  have k23 : V3 m ρ c main_v23 = V1 m ρ c main_v23 := (KHost.V3_keep m ρ c main_v23 (by decide)).trans (KHost.W2_v23 m ρ c)
  have kG : (fun f k => (V3 m ρ c main_v49 : S64x32.Idx → EReal) (ix2 f k)) = Cert.Spec.gmax (AK m ρ c) :=
    funext fun f => funext fun k => (stats m ρ c hfin f k).1
  have kT : (fun f k => (V3 m ρ c main_v56 : S64x32.Idx → EReal) (ix2 f k)) = Cert.Spec.gsum (AK m ρ c) :=
    funext fun f => funext fun k => (stats m ρ c hfin f k).2
  rw [kG, kT, k6, k7, k8, k35, k39, k36, k37, k7', k34, k31, k15, k23]

/-- Under the precondition (every float input finite) every key of the batch is a real number: the gathered rows are
    rows of finite tables, the mask is 0 or 1, and the norms are floored away from zero. -/
theorem keys_real [Cert.Pre_finite_inputs.Facts] (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (fun _ => 1#1)) :
    ∀ b f k, ∃ r : ℝ, AK m ρ c b f k = (r : EReal) := by
  obtain ⟨h3, h4, h5, h6, h7, h8, h9, h10, h11⟩ := Cert.PreReal.reals_of_fn _ _ _ _ _ _ _ _ _ _ _ _ hpre
  unfold AK
  refine Cert.SpecReal.keysOf_real _ _ _ _ ?_ ?_ ?_ ?_
  · intro i; rw [KHost.V1_arg6 m ρ c]; exact h6 i
  · intro i; rw [KHost.V1_v7 m ρ c]; exact Cert.PreReal.truncf_real _ _ _ (fun j => Cert.PreReal.gather_real _ _ _ h3 j) i
  · intro i; rw [KHost.V1_v34 m ρ c]; exact Cert.PreReal.uitofp_real _ _ i
  · intro i; rw [KHost.V1_v31 m ρ c]; exact Cert.PreReal.truncf_real _ _ _ (fun j => Cert.PreReal.gather_real _ _ _ h3 j) i

/-! ## The gathered arrays are the reference's stages

  Both programs compute the user rows, friend rows, mask, item rows and item biases by the same host operations of
  the arguments; the kernel's additionally pass through a change of float format, the identity on extended reals. -/

theorem uid_eq (c : Dev nD) : (V1 m ρ c main_v7 : S4096x256.Idx → EReal) = Cert.ReferenceIdeal.Read.val_main_v6 (F := Ideal) (m ((c.tc : Thread nD τ).loc main_arg0)) (m ((c.tc : Thread nD τ).loc main_arg3)) :=
  (KHost.V1_v7 m ρ c).trans rfl
theorem mask_eq (c : Dev nD) : (V1 m ρ c main_v34 : S4096x64.Idx → EReal) = Cert.ReferenceIdeal.Read.val_main_v30 (F := Ideal) (m ((c.tc : Thread nD τ).loc main_arg2)) :=
  (KHost.V1_v34 m ρ c).trans rfl
theorem friends_eq (c : Dev nD) : (V1 m ρ c main_v31 : S4096x64x256.Idx → EReal) = Cert.ReferenceIdeal.Read.val_main_v27 (F := Ideal) (m ((c.tc : Thread nD τ).loc main_arg2)) (m ((c.tc : Thread nD τ).loc main_arg3)) :=
  (KHost.V1_v31 m ρ c).trans rfl
theorem item_eq (c : Dev nD) : (V1 m ρ c main_v15 : S4096x256.Idx → EReal) = Cert.ReferenceIdeal.Read.val_main_v13 (F := Ideal) (m ((c.tc : Thread nD τ).loc main_arg1)) (m ((c.tc : Thread nD τ).loc main_arg4)) :=
  (KHost.V1_v15 m ρ c).trans rfl
theorem bias_eq (c : Dev nD) (b : Fin 4096) :
    (V1 m ρ c main_v23 : S4096x1.Idx → EReal) (ix2 b 0) = Cert.ReferenceIdeal.Read.val_main_v20 (F := Ideal) (m ((c.tc : Thread nD τ).loc main_arg1)) (m ((c.tc : Thread nD τ).loc main_arg5)) (ix1 b) :=
  (KHost.host0_v23_apply (fun b => m (c, b)) b 0).trans (congrFun ((KHost.host0_v22 (fun b => m (c, b))).trans rfl) (ix1 b))

/-- Entry b of the idealized kernel's result is the specification's score of row b of the batch. -/
theorem kernel_total [Cert.Pre_finite_inputs.Facts] (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = (fun _ => 1#1)) (b : Fin 4096) :
    (W5 m ρ c (Proc.devRef .tc main_v58) : S4096.Idx → EReal) (ix1 b)
      = Cert.Spec.total (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (Cert.ReferenceIdeal.Read.val_main_v6 (F := Ideal) (m ((c.tc : Thread nD τ).loc main_arg0)) (m ((c.tc : Thread nD τ).loc main_arg3))) (Cert.ReferenceIdeal.Read.val_main_v30 (F := Ideal) (m ((c.tc : Thread nD τ).loc main_arg2)))
          (Cert.ReferenceIdeal.Read.val_main_v27 (F := Ideal) (m ((c.tc : Thread nD τ).loc main_arg2)) (m ((c.tc : Thread nD τ).loc main_arg3))) (Cert.ReferenceIdeal.Read.val_main_v13 (F := Ideal) (m ((c.tc : Thread nD τ).loc main_arg1)) (m ((c.tc : Thread nD τ).loc main_arg4)))
          (Cert.ReferenceIdeal.Read.val_main_v20 (F := Ideal) (m ((c.tc : Thread nD τ).loc main_arg1)) (m ((c.tc : Thread nD τ).loc main_arg5))) b := by
  rw [result_row m ρ c (keys_real m ρ c hpre) b]
  unfold Cert.Spec.total AK
  have e6 : (V1 m ρ c main_arg6 : S256x32.Idx → EReal) = (m ((c.tc : Thread nD τ).loc main_arg6)) := KHost.V1_arg6 m ρ c
  have e7 : (V1 m ρ c main_arg7 : S32x256.Idx → EReal) = (m ((c.tc : Thread nD τ).loc main_arg7)) := KHost.V1_arg7 m ρ c
  have e8 : (V1 m ρ c main_arg8 : S256x256.Idx → EReal) = (m ((c.tc : Thread nD τ).loc main_arg8)) := KHost.V1_arg8 m ρ c
  have e35 : (fun a => (V1 m ρ c main_v35 : S1x256.Idx → EReal) (ix2 0 a)) = fun a => ((m ((c.tc : Thread nD τ).loc main_arg9)) : S256.Idx → EReal) (ix1 a) :=
    funext fun a => KHost.host0_v35_apply (fun b => m (c, b)) 0 a
  have e39 : (fun a => (V1 m ρ c main_v39 : S1x256.Idx → EReal) (ix2 0 a)) = fun a => ((m ((c.tc : Thread nD τ).loc main_arg10)) : S256x1.Idx → EReal) (ix2 a 0) :=
    funext fun a => KHost.host0_v39_apply (fun b => m (c, b)) 0 a
  have e36 : (fun d j => (V1 m ρ c main_v36 : S256x2.Idx → EReal) (ix2 d j)) = fun (d : Fin 256) j => ((m ((c.tc : Thread nD τ).loc main_arg11)) : S512x2.Idx → EReal) (ix2 (⟨d.val, by omega⟩ : Fin 512) j) :=
    funext fun d => funext fun j => KHost.host0_v36_apply (fun b => m (c, b)) d j
  have e37 : (fun d j => (V1 m ρ c main_v37 : S256x2.Idx → EReal) (ix2 d j)) = fun (d : Fin 256) j => ((m ((c.tc : Thread nD τ).loc main_arg11)) : S512x2.Idx → EReal) (ix2 (⟨d.val + 256, by omega⟩ : Fin 512) j) :=
    funext fun d => funext fun j => KHost.host0_v37_apply (fun b => m (c, b)) d j
  rw [e35, e39, e36, e37, bias_eq m ρ c b, e6, e7, e8, uid_eq m ρ c, mask_eq m ρ c, friends_eq m ρ c, item_eq m ρ c]

end Cert.KernelIdeal.Bridge

end
-- ==== Proof.RefKeys.lean ====
/-
  The reference's attention keys and their batch statistics are the specification's.

  Row b's user embedding is divided by the larger of its Euclidean norm and 1e-12; friend f's embedding is multiplied by its
  mask and divided likewise; the key at (b, f, m) is the contraction over d of the product of the two with Key d m.  Over the
  batch axis the largest key at (f, m) is a fold of max from -inf (taken once more against -inf, which changes nothing), and the
  sum of exp (key - largest key) is a sum from zero.
-/
import proofs.«174119_j9096740733368_2_alg».proof.Proof.Spec
import proofs.«174119_j9096740733368_2_alg».proof.Proof.RefReadP
import Idealize.ShloMosaic.Lib.ValueIdx
import Idealize.ShloMosaic.Lib.ValueLayout
import Idealize.ShloMosaic.Lib.Pipeline.Value
import Idealize.ShloMosaic.PureOps.Ideal.Laws
noncomputable section
open scoped BigOperators
open Idealize.ShloMosaic Idealize.ShloMosaic.ValueIdx Cert.ReferenceIdeal Cert.ReferenceIdeal.Read

namespace Cert.RefKeys
variable (x0 : (⟨S4096, .i32⟩ : BufTy).Contents (Elt Ideal)) (x2 : (⟨S4096x64, .i32⟩ : BufTy).Contents (Elt Ideal))
  (x3 : (⟨S500001x256, .f32⟩ : BufTy).Contents (Elt Ideal)) (x6 : (⟨S256x32, .f32⟩ : BufTy).Contents (Elt Ideal))

/-! ## The normalised user row -/

theorem ref_unorm (b : Fin 4096) (d : Fin 256) :
    val_main_v41 (F := Ideal) x0 x3 (ix2 b d)
      = Ideal.div (val_main_v6 (F := Ideal) x0 x3 (ix2 b d)) (Cert.Spec.nrm fun d' => val_main_v6 (F := Ideal) x0 x3 (ix2 b d')) := by
  have e40 : idx_main_v40 (ix2 b d) = ix2 b (0 : Fin 1) :=
    funext fun a => Fin.ext (by match a with | ⟨0, _⟩ => rfl | ⟨1, _⟩ => rfl)
  have e36 : idx_main_v36 (ix2 b (0 : Fin 1)) = ix1 b :=
    funext fun a => Fin.ext (by match a with | ⟨0, _⟩ => rfl)
  have e35 : ∀ k : Fin 256, idx_main_v35 (ix1 b) k = ix2 b k := fun k =>
    funext fun a => Fin.ext (by match a with | ⟨0, _⟩ => rfl | ⟨1, _⟩ => rfl)
  rw [val_main_v41_apply, val_main_v40_apply, e40, val_main_v39_apply, val_main_v37_apply, val_main_v36_apply, e36,
    val_main_v35_apply, val_main_v38_apply, val_main_cst_8_apply, val_main_cst_apply]
  simp only [e35, val_main_v34_apply, Ideal.hostDivf_def, Ideal.maximumf_def, Ideal.hostUnary_sqrt_def, Ideal.mulf_def,
    Ideal.ofBits_def, Ideal.ofBits_zero_f32, zero_add]
  rfl

/-! ## The masked friend rows and their normalisation -/

theorem ref_feM (b : Fin 4096) (f : Fin 64) (d : Fin 256) :
    val_main_v33 (F := Ideal) x2 x3 (ix3 b f d)
      = Cert.Spec.feM (fun f' => val_main_v30 (F := Ideal) x2 (ix2 b f')) (fun f' d' => val_main_v27 (F := Ideal) x2 x3 (ix3 b f' d')) f d := by
  have e32 : idx_main_v31 (idx_main_v32 (ix3 b f d)) = ix2 b f :=
    funext fun a => Fin.ext (by match a with | ⟨0, _⟩ => rfl | ⟨1, _⟩ => rfl)
  rw [val_main_v33_apply, val_main_v32_apply, val_main_v31_apply, e32]
  rfl

theorem ref_fnorm (b : Fin 4096) (f : Fin 64) (d : Fin 256) :
    val_main_v49 (F := Ideal) x2 x3 (ix3 b f d)
      = Ideal.div (Cert.Spec.feM (fun f' => val_main_v30 (F := Ideal) x2 (ix2 b f')) (fun f' d' => val_main_v27 (F := Ideal) x2 x3 (ix3 b f' d')) f d)
          (Cert.Spec.nrm (Cert.Spec.feM (fun f' => val_main_v30 (F := Ideal) x2 (ix2 b f')) (fun f' d' => val_main_v27 (F := Ideal) x2 x3 (ix3 b f' d')) f)) := by
  have e48 : idx_main_v48 (ix3 b f d) = ix3 b f (0 : Fin 1) :=
    funext fun a => Fin.ext (by match a with | ⟨0, _⟩ => rfl | ⟨1, _⟩ => rfl | ⟨2, _⟩ => rfl)
  have e44 : idx_main_v44 (ix3 b f (0 : Fin 1)) = ix2 b f :=
    funext fun a => Fin.ext (by match a with | ⟨0, _⟩ => rfl | ⟨1, _⟩ => rfl)
  have e43 : ∀ k : Fin 256, idx_main_v43 (ix2 b f) k = ix3 b f k := fun k =>
    funext fun a => Fin.ext (by match a with | ⟨0, _⟩ => rfl | ⟨1, _⟩ => rfl | ⟨2, _⟩ => rfl)
  rw [val_main_v49_apply, val_main_v48_apply, e48, val_main_v47_apply, val_main_v45_apply, val_main_v44_apply, e44,
    val_main_v43_apply, val_main_v46_apply, val_main_cst_10_apply, val_main_cst_9_apply]
  simp only [e43, val_main_v42_apply, ref_feM, Ideal.hostDivf_def, Ideal.maximumf_def, Ideal.hostUnary_sqrt_def, Ideal.mulf_def,
    Ideal.ofBits_def, Ideal.ofBits_zero_f32, zero_add]
  rfl

/-! ## Their product and its contraction with the key matrix -/

theorem ref_cross (b : Fin 4096) (f : Fin 64) (d : Fin 256) :
    val_main_v52 (F := Ideal) x0 x2 x3 (ix3 b f d)
      = Cert.Spec.cross (fun d' => val_main_v6 (F := Ideal) x0 x3 (ix2 b d')) (fun f' => val_main_v30 (F := Ideal) x2 (ix2 b f'))
          (fun f' d' => val_main_v27 (F := Ideal) x2 x3 (ix3 b f' d')) f d := by
  have e51 : idx_main_v50 (idx_main_v51 (ix3 b f d)) = ix2 b d :=
    funext fun a => Fin.ext (by match a with | ⟨0, _⟩ => rfl | ⟨1, _⟩ => rfl)
  rw [val_main_v52_apply, val_main_v51_apply, val_main_v50_apply, e51, ref_unorm, ref_fnorm]
  rfl

theorem ref_keys (b : Fin 4096) (f : Fin 64) (m : Fin 32) :
    val_main_v53 (F := Ideal) x0 x2 x3 x6 (ix3 b f m)
      = Cert.Spec.keysOf x6 (val_main_v6 (F := Ideal) x0 x3) (val_main_v30 (F := Ideal) x2) (val_main_v27 (F := Ideal) x2 x3) b f m := by
  have el : ∀ k : Fin 256, lidx_main_v53 (ix3 b f m) k = ix3 b f k := fun k =>
    funext fun a => Fin.ext (by match a with | ⟨0, _⟩ => rfl | ⟨1, _⟩ => rfl | ⟨2, _⟩ => rfl)
  have er : ∀ k : Fin 256, ridx_main_v53 (ix3 b f m) k = ix2 k m := fun k =>
    funext fun a => Fin.ext (by match a with | ⟨0, _⟩ => rfl | ⟨1, _⟩ => rfl)
  rw [val_main_v53_apply]
  unfold Cert.Spec.keysOf Cert.Spec.attKey
  refine Finset.sum_congr rfl fun k _ => ?_
  rw [el, er, ref_cross]

/-! ## The batch statistics of the keys -/

/-- The -inf word is the bottom element. -/
theorem negInf_eq_bot : Ideal.ofBits .f32 0xFF800000#32 = (⊥ : EReal) := by simp [Ideal.ofBits, Ideal.ieee]

/-- The reduced index (f, m) with batch row k put back is (k, f, m). -/
theorem lift_d0 (h : S4096x64x32.Reduces [0] S64x32) (f : Fin 64) (m : Fin 32) (k : Fin (S4096x64x32.size 0)) :
    h.lift (ix2 f m) k = ix3 (⟨k.val, k.isLt⟩ : Fin 4096) f m := by
  funext c; apply Fin.ext
  fin_cases c <;> rfl

theorem ref_gmax54 (f : Fin 64) (m : Fin 32) :
    val_main_v54 (F := Ideal) x0 x2 x3 x6 (ix2 f m)
      = (Finset.univ : Finset (Fin 4096)).fold max ⊥ (fun b => val_main_v53 (F := Ideal) x0 x2 x3 x6 (ix3 b f m)) := by
  unfold val_main_v54
  generalize val_main_v53 (F := Ideal) x0 x2 x3 x6 = y
  have h : S4096x64x32.Reduces [0] S64x32 := by decide
  refine (Host.reduce_eq_fold_single (α := Ideal .f32) FloatOps.maximumf y _ Gen.reducesTo_S4096x64x32_S64x32_d0 h Gen.h_S_ (ix2 f m)).trans ?_
  have hf : (y ∘ h.lift (ix2 f m)) = fun k : Fin 4096 => y (ix3 k f m) := funext fun k => congrArg y (lift_d0 h f m k)
  show Finset.fold max (Ideal.ofBits .f32 0xFF800000#32) (y ∘ h.lift (ix2 f m)) (Finset.univ : Finset (Fin 4096)) = _
  rw [hf, negInf_eq_bot]
  rfl

theorem ref_gmax (f : Fin 64) (m : Fin 32) :
    val_main_v56 (F := Ideal) x0 x2 x3 x6 (ix2 f m)
      = Cert.Spec.gmax (fun b f m => val_main_v53 (F := Ideal) x0 x2 x3 x6 (ix3 b f m)) f m := by
  rw [val_main_v56_apply, val_main_v55_apply, val_main_cst_12_apply, ref_gmax54]
  show max (Ideal.ofBits .f32 0xFF800000#32) _ = _
  rw [negInf_eq_bot, max_bot_left]
  rfl

theorem ref_gsum (f : Fin 64) (m : Fin 32) :
    val_main_v61 (F := Ideal) x0 x2 x3 x6 (ix2 f m)
      = Cert.Spec.gsum (fun b f m => val_main_v53 (F := Ideal) x0 x2 x3 x6 (ix3 b f m)) f m := by
  have e61 : ∀ k : Fin 4096, idx_main_v61 (ix2 f m) k = ix3 k f m := fun k =>
    funext fun a => Fin.ext (by match a with | ⟨0, _⟩ => rfl | ⟨1, _⟩ => rfl | ⟨2, _⟩ => rfl)
  have e57 : ∀ k : Fin 4096, idx_main_v57 (idx_main_v58 (ix3 k f m)) = ix2 f m := fun k =>
    funext fun a => Fin.ext (by match a with | ⟨0, _⟩ => rfl | ⟨1, _⟩ => rfl)
  rw [val_main_v61_apply, val_main_cst_13_apply]
  show Ideal.ofBits .f32 0x00000000#32 + _ = _
  rw [Ideal.ofBits_zero_f32, zero_add]
  unfold Cert.Spec.gsum
  refine Finset.sum_congr rfl fun k _ => ?_
  rw [e61 k, val_main_v60_apply, val_main_v59_apply, val_main_v58_apply, val_main_v57_apply, e57 k, ref_gmax]
  rfl

end Cert.RefKeys

end
-- ==== Proof.RefScore.lean ====
/-
  The reference's result row b, from the stage after the keys' batch statistics to the score, is the specification's
  score of that row: the keys, their batch maxima and their batch sums of exponentials enter as opaque stage values.
-/
import proofs.«174119_j9096740733368_2_alg».proof.Proof.Spec
import proofs.«174119_j9096740733368_2_alg».proof.Proof.RefReadP
import Idealize.ShloMosaic.Lib.ValueIdx
import Idealize.ShloMosaic.Lib.ValueLayout
import Idealize.ShloMosaic.Lib.Pipeline.Value
import Idealize.ShloMosaic.PureOps.Ideal.Laws
noncomputable section
open scoped BigOperators
open Idealize.ShloMosaic Idealize.ShloMosaic.ValueIdx Cert.ReferenceIdeal Cert.ReferenceIdeal.Read
open Idealize.SL.Sem Cert.ReferenceIdeal.Gen

namespace Cert.RefScore

variable (x0 x1 : (⟨S4096, .i32⟩ : BufTy).Contents (Elt Ideal)) (x2 : (⟨S4096x64, .i32⟩ : BufTy).Contents (Elt Ideal))
  (x3 : (⟨S500001x256, .f32⟩ : BufTy).Contents (Elt Ideal)) (x4 : (⟨S100000x256, .f32⟩ : BufTy).Contents (Elt Ideal))
  (x5 : (⟨S100000, .f32⟩ : BufTy).Contents (Elt Ideal)) (x6 : (⟨S256x32, .f32⟩ : BufTy).Contents (Elt Ideal))
  (x7 : (⟨S32x256, .f32⟩ : BufTy).Contents (Elt Ideal)) (x8 : (⟨S256x256, .f32⟩ : BufTy).Contents (Elt Ideal))
  (x9 : (⟨S256, .f32⟩ : BufTy).Contents (Elt Ideal)) (x10 : (⟨S256x1, .f32⟩ : BufTy).Contents (Elt Ideal))
  (x11 : (⟨S512x2, .f32⟩ : BufTy).Contents (Elt Ideal))

/-! ## The score from the mixture weights (the last ten operations) -/

/-- The first mixture weight, broadcast along the row. -/
theorem v103_at (b : Fin 4096) (d : Fin 256) :
    val_main_v103 (F := Ideal) x0 x2 x3 x6 x7 x8 x9 x10 x11 (ix2 b d)
      = val_main_v101 (F := Ideal) x0 x2 x3 x6 x7 x8 x9 x10 x11 (ix2 b 0) := by
  rw [val_main_v103_apply, val_main_v102_apply]
  exact congrArg _ (funext fun a => Fin.ext (by match a with | ⟨0, _⟩ => rfl | ⟨1, _⟩ => rfl))

/-- The second mixture weight, broadcast along the row. -/
theorem v106_at (b : Fin 4096) (d : Fin 256) :
    val_main_v106 (F := Ideal) x0 x2 x3 x6 x7 x8 x9 x10 x11 (ix2 b d)
      = val_main_v101 (F := Ideal) x0 x2 x3 x6 x7 x8 x9 x10 x11 (ix2 b 1) := by
  rw [val_main_v106_apply, val_main_v105_apply]
  exact congrArg _ (funext fun a => Fin.ext (by match a with | ⟨0, _⟩ => rfl | ⟨1, _⟩ => rfl))

/-- The mixture times the item embedding, entry d of row b. -/
theorem v109_at (b : Fin 4096) (d : Fin 256) :
    val_main_v109 (F := Ideal) x0 x1 x2 x3 x4 x6 x7 x8 x9 x10 x11 (ix2 b d)
      = (val_main_v6 (F := Ideal) x0 x3 (ix2 b d) * val_main_v101 (F := Ideal) x0 x2 x3 x6 x7 x8 x9 x10 x11 (ix2 b 0)
          + val_main_v88 (F := Ideal) x0 x2 x3 x6 x7 x8 x9 x10 (ix2 b d) * val_main_v101 (F := Ideal) x0 x2 x3 x6 x7 x8 x9 x10 x11 (ix2 b 1))
        * val_main_v13 (F := Ideal) x1 x4 (ix2 b d) := by
  rw [val_main_v109_apply, val_main_v108_apply, val_main_v104_apply, val_main_v107_apply, v103_at, v106_at]
  rfl

/-- The score of row b from the mixture weights. -/
theorem v111_at (b : Fin 4096) :
    val_main_v111 (F := Ideal) x0 x1 x2 x3 x4 x5 x6 x7 x8 x9 x10 x11 (ix1 b)
      = Cert.Spec.mix (fun d => val_main_v6 (F := Ideal) x0 x3 (ix2 b d))
          (fun d => val_main_v88 (F := Ideal) x0 x2 x3 x6 x7 x8 x9 x10 (ix2 b d))
          (fun d => val_main_v13 (F := Ideal) x1 x4 (ix2 b d))
          (fun j => val_main_v101 (F := Ideal) x0 x2 x3 x6 x7 x8 x9 x10 x11 (ix2 b j))
          (val_main_v20 (F := Ideal) x1 x5 (ix1 b)) := by
  rw [val_main_v111_apply, val_main_v110_apply, val_main_cst_20_apply]
  unfold Cert.Spec.mix
  rw [Ideal.addf_def, Ideal.ofBits_def, Ideal.ofBits_zero_f32, zero_add]
  refine congrArg (· + _) (Finset.sum_congr rfl fun d _ => ?_)
  refine Eq.trans (congrArg _ (funext fun a => Fin.ext (by match a with | ⟨0, _⟩ => rfl | ⟨1, _⟩ => rfl))) (v109_at x0 x1 x2 x3 x4 x6 x7 x8 x9 x10 x11 b d)

/-! ## The mixture weights: a softmax of the two logits -/

/-- The word of minus infinity is the least extended real. -/
theorem ofBits_ninf : Ideal.ofBits .f32 0xFF800000#32 = (⊥ : EReal) := by simp [Ideal.ofBits, Ideal.ieee]

/-- Row b with column k put back on axis 1 of a [4096, 2] array. -/
theorem lift_v91 (h : S4096x2.Reduces [1] S4096) (b : Fin 4096) (k : Fin (S4096x2.size 1)) :
    h.lift (ix1 b) k = ix2 b (⟨k.val, k.isLt⟩ : Fin 2) := by
  funext c; apply Fin.ext
  fin_cases c <;> rfl

/-- Reducing [4096, 2] along axis 1 is a reduction of one axis. -/
theorem red_h : S4096x2.Reduces [1] S4096 := by decide

/-- From minus infinity the maximum-reduce of a [4096, 2] array along axis 1, at row b, is the larger of the row's two entries. -/
theorem v91_gen (y : FVec Ideal S4096x2 .f32) (b : Fin 4096) :
    Host.reduce FloatOps.maximumf y (constant S_ .f32 0xFF800000#32) reducesTo_S4096x2_S4096_d1 h_S_ (ix1 b)
      = (Finset.univ : Finset (Fin 2)).fold max ⊥ (fun j => y (ix2 b j)) := by
  rw [Host.reduce_eq_fold_single FloatOps.maximumf y _ reducesTo_S4096x2_S4096_d1 red_h h_S_]
  have hf : (y ∘ red_h.lift (ix1 b)) = fun j : Fin 2 => y (ix2 b j) := funext fun k => congrArg y (lift_v91 red_h b k)
  refine Eq.trans (congrArg (fun f => Finset.fold max (Ideal.ofBits .f32 0xFF800000#32) f (Finset.univ : Finset (Fin 2))) hf) ?_
  rw [ofBits_ninf]

/-- The larger of the two logits of row b, floored at minus infinity. -/
theorem v93_at (b : Fin 4096) :
    val_main_v93 (F := Ideal) x0 x2 x3 x6 x7 x8 x9 x10 x11 (ix1 b)
      = (Finset.univ : Finset (Fin 2)).fold max ⊥ (fun j => val_main_v90 (F := Ideal) x0 x2 x3 x6 x7 x8 x9 x10 x11 (ix2 b j)) := by
  rw [val_main_v93_apply, val_main_v92_apply, val_main_cst_18_apply, Ideal.maximumf_def, Ideal.ofBits_def, ofBits_ninf]
  rw [max_eq_right bot_le]
  unfold val_main_v91
  exact v91_gen (val_main_v90 (F := Ideal) x0 x2 x3 x6 x7 x8 x9 x10 x11) b

/-- The exponential of a logit less the larger one. -/
theorem v97_at (b : Fin 4096) (j : Fin 2) :
    val_main_v97 (F := Ideal) x0 x2 x3 x6 x7 x8 x9 x10 x11 (ix2 b j)
      = Ideal.exp (val_main_v90 (F := Ideal) x0 x2 x3 x6 x7 x8 x9 x10 x11 (ix2 b j)
          - (Finset.univ : Finset (Fin 2)).fold max ⊥ (fun j => val_main_v90 (F := Ideal) x0 x2 x3 x6 x7 x8 x9 x10 x11 (ix2 b j))) := by
  rw [val_main_v97_apply, val_main_v96_apply, val_main_v95_apply, val_main_v94_apply, Ideal.hostUnary_exp_def, Ideal.subf_def]
  refine congrArg (fun t => Ideal.exp (_ - t)) ?_
  refine Eq.trans (congrArg _ (funext fun a => Fin.ext (by match a with | ⟨0, _⟩ => rfl))) (v93_at x0 x2 x3 x6 x7 x8 x9 x10 x11 b)

/-- The sum of the two exponentials. -/
theorem v100_at (b : Fin 4096) (j : Fin 2) :
    val_main_v100 (F := Ideal) x0 x2 x3 x6 x7 x8 x9 x10 x11 (ix2 b j)
      = ∑ j' : Fin 2, val_main_v97 (F := Ideal) x0 x2 x3 x6 x7 x8 x9 x10 x11 (ix2 b j') := by
  rw [val_main_v100_apply, val_main_v99_apply, val_main_v98_apply, val_main_cst_19_apply, Ideal.ofBits_def, Ideal.ofBits_zero_f32, zero_add]
  refine Finset.sum_congr rfl fun k _ => congrArg _ (funext fun a => Fin.ext (by match a with | ⟨0, _⟩ => rfl | ⟨1, _⟩ => rfl))

/-- The mixture weights of row b are the softmax of its two logits. -/
theorem v101_at (b : Fin 4096) (j : Fin 2) :
    val_main_v101 (F := Ideal) x0 x2 x3 x6 x7 x8 x9 x10 x11 (ix2 b j)
      = Cert.Spec.att1 (fun j => val_main_v90 (F := Ideal) x0 x2 x3 x6 x7 x8 x9 x10 x11 (ix2 b j)) j := by
  rw [val_main_v101_apply, v100_at, Ideal.hostDivf_def]
  unfold Cert.Spec.att1
  simp only [v97_at]

/-! ## The two logits: [user embedding | user vector] against the mixing matrix -/

/-- A sum over 512 terms is the sum of its two halves. -/
theorem sum_fin512 (f : Fin 512 → EReal) :
    ∑ k, f k = ∑ d : Fin 256, f ⟨d.val, by omega⟩ + ∑ d : Fin 256, f ⟨d.val + 256, by omega⟩ := by
  have h := Fin.sum_univ_add (a := 256) (b := 256) (f := f)
  refine h.trans ?_
  exact congrArg₂ (· + ·) (Finset.sum_congr rfl fun d _ => congrArg f (Fin.ext rfl))
    (Finset.sum_congr rfl fun d _ => congrArg f (Fin.ext (Nat.add_comm _ _)))

/-- The left half of the concatenation is the user embedding. -/
theorem v89_left (b : Fin 4096) (d : Fin 256) :
    val_main_v89 (F := Ideal) x0 x2 x3 x6 x7 x8 x9 x10 (ix2 b (⟨d.val, by omega⟩ : Fin 512))
      = val_main_v6 (F := Ideal) x0 x3 (ix2 b d) := by
  unfold val_main_v89
  exact concatenate_pair_apply_left (t := S4096x512) 1 _ _ concatenates_S4096x256_S4096x256_S4096x512_d1 _ rfl (ix2 b d)
    (fun c => by match c with | ⟨0, _⟩ => rfl | ⟨1, _⟩ => rfl)

/-- The right half of the concatenation is the user vector. -/
theorem v89_right (b : Fin 4096) (d : Fin 256) :
    val_main_v89 (F := Ideal) x0 x2 x3 x6 x7 x8 x9 x10 (ix2 b (⟨d.val + 256, by omega⟩ : Fin 512))
      = val_main_v88 (F := Ideal) x0 x2 x3 x6 x7 x8 x9 x10 (ix2 b d) := by
  unfold val_main_v89
  exact concatenate_pair_apply_right (t := S4096x512) 1 _ _ concatenates_S4096x256_S4096x256_S4096x512_d1 _ rfl rfl (ix2 b d)
    (fun c hc => by match c with | ⟨0, _⟩ => rfl | ⟨1, _⟩ => exact absurd rfl hc) rfl

/-- The logits of row b. -/
theorem v90_at (b : Fin 4096) (j : Fin 2) :
    val_main_v90 (F := Ideal) x0 x2 x3 x6 x7 x8 x9 x10 x11 (ix2 b j)
      = Cert.Spec.logit (fun d j => x11 (ix2 (⟨d.val, by omega⟩ : Fin 512) j)) (fun d j => x11 (ix2 (⟨d.val + 256, by omega⟩ : Fin 512) j))
          (fun d => val_main_v6 (F := Ideal) x0 x3 (ix2 b d)) (fun d => val_main_v88 (F := Ideal) x0 x2 x3 x6 x7 x8 x9 x10 (ix2 b d)) j := by
  rw [val_main_v90_apply]
  unfold Cert.Spec.logit
  have e : ∀ k : Fin 512, val_main_v89 (F := Ideal) x0 x2 x3 x6 x7 x8 x9 x10 (lidx_main_v90 (ix2 b j) k) * x11 (ridx_main_v90 (ix2 b j) k)
      = val_main_v89 (F := Ideal) x0 x2 x3 x6 x7 x8 x9 x10 (ix2 b k) * x11 (ix2 k j) := fun k =>
    congrArg₂ (· * ·) (congrArg _ (funext fun a => Fin.ext (by match a with | ⟨0, _⟩ => rfl | ⟨1, _⟩ => rfl)))
      (congrArg _ (funext fun a => Fin.ext (by match a with | ⟨0, _⟩ => rfl | ⟨1, _⟩ => rfl)))
  rw [Finset.sum_congr rfl fun k _ => e k, sum_fin512]
  simp only [v89_left, v89_right]

/-! ## The user vector: the user embedding plus the weighted friends -/

/-- The user vector of row b. -/
theorem v88_at (b : Fin 4096) (d : Fin 256) :
    val_main_v88 (F := Ideal) x0 x2 x3 x6 x7 x8 x9 x10 (ix2 b d)
      = val_main_v6 (F := Ideal) x0 x3 (ix2 b d)
        + Cert.Spec.friend (fun f => val_main_v84 (F := Ideal) x0 x2 x3 x6 x7 x8 x9 x10 (ix3 b f 0))
            (fun f d => val_main_v69 (F := Ideal) x0 x2 x3 x6 x7 (ix3 b f d)) d := by
  rw [val_main_v88_apply, val_main_v87_apply, val_main_cst_16_apply, Ideal.addf_def, Ideal.ofBits_def, Ideal.ofBits_zero_f32, zero_add]
  unfold Cert.Spec.friend
  refine congrArg (_ + ·) (Finset.sum_congr rfl fun f _ => ?_)
  have e : idx_main_v87 (ix2 b d) f = ix3 b f d :=
    funext fun a => Fin.ext (by match a with | ⟨0, _⟩ => rfl | ⟨1, _⟩ => rfl | ⟨2, _⟩ => rfl)
  rw [e, val_main_v86_apply, val_main_v85_apply, Ideal.mulf_def]
  refine congrArg (· * _) (congrArg _ (funext fun a => Fin.ext (by match a with | ⟨0, _⟩ => rfl | ⟨1, _⟩ => rfl | ⟨2, _⟩ => rfl)))

/-- A friend's weight: its masked exponential over their sum plus 1e-8. -/
theorem v84_at (b : Fin 4096) (f : Fin 64) :
    val_main_v84 (F := Ideal) x0 x2 x3 x6 x7 x8 x9 x10 (ix3 b f 0)
      = Cert.Spec.wgt (fun f => val_main_v78 (F := Ideal) x0 x2 x3 x6 x7 x8 x9 x10 (ix3 b f 0)) f := by
  rw [val_main_v84_apply, val_main_v83_apply, val_main_v82_apply, val_main_v81_apply, val_main_cst_15_apply, val_main_v80_apply,
    val_main_v79_apply, val_main_cst_14_apply, Ideal.hostDivf_def, Ideal.addf_def, Ideal.ofBits_def, Ideal.ofBits_def, Ideal.ofBits_zero_f32, zero_add]
  unfold Cert.Spec.wgt
  refine congrArg (fun t => Ideal.div _ (t + _)) (Finset.sum_congr rfl fun k _ => ?_)
  exact congrArg _ (funext fun a => Fin.ext (by match a with | ⟨0, _⟩ => rfl | ⟨1, _⟩ => rfl | ⟨2, _⟩ => rfl))

/-- A friend's masked exponential. -/
theorem v78_at (b : Fin 4096) (f : Fin 64) :
    val_main_v78 (F := Ideal) x0 x2 x3 x6 x7 x8 x9 x10 (ix3 b f 0)
      = Cert.Spec.jv (fun f => val_main_v30 (F := Ideal) x2 (ix2 b f))
          (fun f => val_main_v75 (F := Ideal) x0 x2 x3 x6 x7 x8 x9 x10 (ix3 b f 0)) f := by
  rw [val_main_v78_apply, val_main_v77_apply, val_main_v76_apply, Ideal.mulf_def, Ideal.hostUnary_exp_def]
  unfold Cert.Spec.jv
  refine congrArg (· * _) (congrArg _ (funext fun a => Fin.ext (by match a with | ⟨0, _⟩ => rfl | ⟨1, _⟩ => rfl)))

/-- A friend's logit. -/
theorem v75_at (b : Fin 4096) (f : Fin 64) :
    val_main_v75 (F := Ideal) x0 x2 x3 x6 x7 x8 x9 x10 (ix3 b f 0)
      = Cert.Spec.jlog (fun a => x10 (ix2 a 0)) (fun f a => val_main_v74 (F := Ideal) x0 x2 x3 x6 x7 x8 x9 (ix3 b f a)) f := by
  rw [val_main_v75_apply]
  unfold Cert.Spec.jlog
  refine Finset.sum_congr rfl fun k _ => ?_
  exact congrArg₂ (· * ·) (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl)))

/-- The hidden layer. -/
theorem v74_at (b : Fin 4096) (f : Fin 64) (a : Fin 256) :
    val_main_v74 (F := Ideal) x0 x2 x3 x6 x7 x8 x9 (ix3 b f a)
      = Cert.Spec.hid (fun d a => x8 (ix2 d a)) (fun a => x9 (ix1 a))
          (fun f d => val_main_v69 (F := Ideal) x0 x2 x3 x6 x7 (ix3 b f d)) f a := by
  rw [val_main_v74_apply, val_main_call0_v0_apply, val_main_call0_cst_apply, val_main_v73_apply, val_main_v72_apply, val_main_v71_apply,
    val_main_v70_apply, Ideal.maximumf_def, Ideal.addf_def, Ideal.ofBits_def, Ideal.ofBits_zero_f32]
  unfold Cert.Spec.hid
  refine congrArg₂ (fun s t => max (s + t) 0) (Finset.sum_congr rfl fun k _ => ?_) ?_
  · exact congrArg₂ (· * ·) (congrArg _ (funext fun c => Fin.ext (by match c with | ⟨0, _⟩ => rfl | ⟨1, _⟩ => rfl | ⟨2, _⟩ => rfl)))
      (congrArg _ (funext fun c => Fin.ext (by match c with | ⟨0, _⟩ => rfl | ⟨1, _⟩ => rfl)))
  · exact congrArg _ (funext fun c => Fin.ext (by match c with | ⟨0, _⟩ => rfl))

/-! ## The attended friends -/

/-- The masked friend embedding. -/
theorem v33_at (b : Fin 4096) (f : Fin 64) (d : Fin 256) :
    val_main_v33 (F := Ideal) x2 x3 (ix3 b f d)
      = Cert.Spec.feM (fun f => val_main_v30 (F := Ideal) x2 (ix2 b f)) (fun f d => val_main_v27 (F := Ideal) x2 x3 (ix3 b f d)) f d := by
  rw [val_main_v33_apply, val_main_v32_apply, val_main_v31_apply, Ideal.mulf_def]
  unfold Cert.Spec.feM
  refine congrArg (· * _) (congrArg _ (funext fun a => Fin.ext (by match a with | ⟨0, _⟩ => rfl | ⟨1, _⟩ => rfl)))

/-- The attention against the memory matrix, times the masked friend embedding. -/
theorem v69_at (b : Fin 4096) (f : Fin 64) (d : Fin 256) :
    val_main_v69 (F := Ideal) x0 x2 x3 x6 x7 (ix3 b f d)
      = Cert.Spec.f2 (Cert.Spec.f1 (fun m d => x7 (ix2 m d)) (fun f m => val_main_v67 (F := Ideal) x0 x2 x3 x6 (ix3 b f m)))
          (Cert.Spec.feM (fun f => val_main_v30 (F := Ideal) x2 (ix2 b f)) (fun f d => val_main_v27 (F := Ideal) x2 x3 (ix3 b f d))) f d := by
  rw [val_main_v69_apply, v33_at, val_main_v68_apply, Ideal.mulf_def]
  unfold Cert.Spec.f2 Cert.Spec.f1
  refine congrArg (· * _) (Finset.sum_congr rfl fun k _ => ?_)
  exact congrArg₂ (· * ·) (congrArg _ (funext fun c => Fin.ext (by match c with | ⟨0, _⟩ => rfl | ⟨1, _⟩ => rfl | ⟨2, _⟩ => rfl)))
    (congrArg _ (funext fun c => Fin.ext (by match c with | ⟨0, _⟩ => rfl | ⟨1, _⟩ => rfl)))

/-- The memory attention: the mask times the batch softmax of the keys. -/
theorem v67_at (b : Fin 4096) (f : Fin 64) (m : Fin 32) :
    val_main_v67 (F := Ideal) x0 x2 x3 x6 (ix3 b f m)
      = Cert.Spec.attMem (fun f m => val_main_v56 (F := Ideal) x0 x2 x3 x6 (ix2 f m)) (fun f m => val_main_v61 (F := Ideal) x0 x2 x3 x6 (ix2 f m))
          (fun f m => val_main_v53 (F := Ideal) x0 x2 x3 x6 (ix3 b f m)) (fun f => val_main_v30 (F := Ideal) x2 (ix2 b f)) f m := by
  rw [val_main_v67_apply, val_main_v66_apply, val_main_v65_apply, val_main_v64_apply, val_main_v63_apply, val_main_v62_apply,
    val_main_v60_apply, val_main_v59_apply, val_main_v58_apply, val_main_v57_apply,
    Ideal.mulf_def, Ideal.hostDivf_def, Ideal.hostUnary_exp_def, Ideal.subf_def]
  unfold Cert.Spec.attMem
  refine congrArg₂ (· * ·) (congrArg _ (funext fun c => Fin.ext (by match c with | ⟨0, _⟩ => rfl | ⟨1, _⟩ => rfl))) ?_
  refine congrArg₂ (fun s t => Ideal.div (Ideal.exp (_ - s)) t)
    (congrArg _ (funext fun c => Fin.ext (by match c with | ⟨0, _⟩ => rfl | ⟨1, _⟩ => rfl)))
    (congrArg _ (funext fun c => Fin.ext (by match c with | ⟨0, _⟩ => rfl | ⟨1, _⟩ => rfl)))

/-! ## The reference's result row -/

/-- The reference's result at row b is the specification's score of that row from its keys and the keys' batch
    statistics. -/
theorem ref_score (b : Fin 4096) :
    val_main_v111 (F := Ideal) x0 x1 x2 x3 x4 x5 x6 x7 x8 x9 x10 x11 (ix1 b)
      = Cert.Spec.rowScoreK (fun m d => x7 (ix2 m d)) (fun d a => x8 (ix2 d a)) (fun a => x9 (ix1 a)) (fun a => x10 (ix2 a 0))
          (fun d j => x11 (ix2 (⟨d.val, by omega⟩ : Fin 512) j)) (fun d j => x11 (ix2 (⟨d.val + 256, by omega⟩ : Fin 512) j))
          (fun f m => val_main_v56 (F := Ideal) x0 x2 x3 x6 (ix2 f m)) (fun f m => val_main_v61 (F := Ideal) x0 x2 x3 x6 (ix2 f m))
          (fun f m => val_main_v53 (F := Ideal) x0 x2 x3 x6 (ix3 b f m))
          (fun d => val_main_v6 (F := Ideal) x0 x3 (ix2 b d)) (fun f => val_main_v30 (F := Ideal) x2 (ix2 b f))
          (fun f d => val_main_v27 (F := Ideal) x2 x3 (ix3 b f d))
          (fun d => val_main_v13 (F := Ideal) x1 x4 (ix2 b d)) (val_main_v20 (F := Ideal) x1 x5 (ix1 b)) := by
  unfold Cert.Spec.rowScoreK
  dsimp only
  have h67 := funext fun f => funext fun m => v67_at x0 x2 x3 x6 b f m
  have h69 := funext fun f => funext fun d => v69_at x0 x2 x3 x6 x7 b f d
  have h74 := funext fun f => funext fun a => v74_at x0 x2 x3 x6 x7 x8 x9 b f a
  have h75 := funext fun f => v75_at x0 x2 x3 x6 x7 x8 x9 x10 b f
  have h78 := funext fun f => v78_at x0 x2 x3 x6 x7 x8 x9 x10 b f
  have h84 := funext fun f => v84_at x0 x2 x3 x6 x7 x8 x9 x10 b f
  have h88 := funext fun d => v88_at x0 x2 x3 x6 x7 x8 x9 x10 b d
  have h90 := funext fun j => v90_at x0 x2 x3 x6 x7 x8 x9 x10 x11 b j
  have h101 := funext fun j => v101_at x0 x2 x3 x6 x7 x8 x9 x10 x11 b j
  rw [v111_at, h101, h90, h88, h84, h78, h75, h74, h69, h67]

end Cert.RefScore

end
-- ==== Proof.RefTotal.lean ====
/-
  The reference's result row b is the specification's total score of row b: the row's score from its keys and the keys'
  batch statistics, with the keys, their batch maxima and their batch sums of exponentials read as the specification's.
-/
import proofs.«174119_j9096740733368_2_alg».proof.Proof.Spec
import proofs.«174119_j9096740733368_2_alg».proof.Proof.RefReadP
import proofs.«174119_j9096740733368_2_alg».proof.Proof.RefKeys
import proofs.«174119_j9096740733368_2_alg».proof.Proof.RefScore
import Idealize.ShloMosaic.Lib.ValueIdx
noncomputable section
open scoped BigOperators
open Idealize.ShloMosaic Idealize.ShloMosaic.ValueIdx Cert.ReferenceIdeal Cert.ReferenceIdeal.Read
open Idealize.SL.Sem

namespace Cert.RefTotal

variable (x0 x1 : (⟨S4096, .i32⟩ : BufTy).Contents (Elt Ideal)) (x2 : (⟨S4096x64, .i32⟩ : BufTy).Contents (Elt Ideal))
  (x3 : (⟨S500001x256, .f32⟩ : BufTy).Contents (Elt Ideal)) (x4 : (⟨S100000x256, .f32⟩ : BufTy).Contents (Elt Ideal))
  (x5 : (⟨S100000, .f32⟩ : BufTy).Contents (Elt Ideal)) (x6 : (⟨S256x32, .f32⟩ : BufTy).Contents (Elt Ideal))
  (x7 : (⟨S32x256, .f32⟩ : BufTy).Contents (Elt Ideal)) (x8 : (⟨S256x256, .f32⟩ : BufTy).Contents (Elt Ideal))
  (x9 : (⟨S256, .f32⟩ : BufTy).Contents (Elt Ideal)) (x10 : (⟨S256x1, .f32⟩ : BufTy).Contents (Elt Ideal))
  (x11 : (⟨S512x2, .f32⟩ : BufTy).Contents (Elt Ideal))

/-- The keys of the whole batch are the specification's keys of the gathered arrays. -/
theorem keys_eq :
    (fun b f m => val_main_v53 (F := Ideal) x0 x2 x3 x6 (ix3 b f m))
      = Cert.Spec.keysOf x6 (val_main_v6 (F := Ideal) x0 x3) (val_main_v30 (F := Ideal) x2) (val_main_v27 (F := Ideal) x2 x3) :=
  funext fun b => funext fun f => funext fun m => Cert.RefKeys.ref_keys x0 x2 x3 x6 b f m

/-- The batch maxima of the keys are the specification's. -/
theorem gmax_eq :
    (fun f m => val_main_v56 (F := Ideal) x0 x2 x3 x6 (ix2 f m))
      = Cert.Spec.gmax (Cert.Spec.keysOf x6 (val_main_v6 (F := Ideal) x0 x3) (val_main_v30 (F := Ideal) x2) (val_main_v27 (F := Ideal) x2 x3)) := by
  rw [← keys_eq]
  exact funext fun f => funext fun m => Cert.RefKeys.ref_gmax x0 x2 x3 x6 f m

/-- The batch sums of exponentials of the keys are the specification's. -/
theorem gsum_eq :
    (fun f m => val_main_v61 (F := Ideal) x0 x2 x3 x6 (ix2 f m))
      = Cert.Spec.gsum (Cert.Spec.keysOf x6 (val_main_v6 (F := Ideal) x0 x3) (val_main_v30 (F := Ideal) x2) (val_main_v27 (F := Ideal) x2 x3)) := by
  rw [← keys_eq]
  exact funext fun f => funext fun m => Cert.RefKeys.ref_gsum x0 x2 x3 x6 f m

/-- Row b's keys are the specification's attention keys of row b. -/
theorem rowkeys_eq (b : Fin 4096) :
    (fun f m => val_main_v53 (F := Ideal) x0 x2 x3 x6 (ix3 b f m))
      = Cert.Spec.attKey (fun d m => x6 (ix2 d m)) (fun d => val_main_v6 (F := Ideal) x0 x3 (ix2 b d))
          (fun f => val_main_v30 (F := Ideal) x2 (ix2 b f)) (fun f d => val_main_v27 (F := Ideal) x2 x3 (ix3 b f d)) :=
  funext fun f => funext fun m => Cert.RefKeys.ref_keys x0 x2 x3 x6 b f m

/-- The reference's result at row b is the specification's total score of row b over the gathered arrays. -/
theorem ref_total (b : Fin 4096) :
    val_main_v111 (F := Ideal) x0 x1 x2 x3 x4 x5 x6 x7 x8 x9 x10 x11 (ix1 b)
      = Cert.Spec.total x6 x7 x8 x9 x10 x11 (val_main_v6 (F := Ideal) x0 x3) (val_main_v30 (F := Ideal) x2)
          (val_main_v27 (F := Ideal) x2 x3) (val_main_v13 (F := Ideal) x1 x4) (val_main_v20 (F := Ideal) x1 x5) b := by
  rw [Cert.RefScore.ref_score]
  unfold Cert.Spec.total Cert.Spec.rowScore
  rw [gmax_eq, gsum_eq, rowkeys_eq]

end Cert.RefTotal

end
-- ==== Proof.LibTypedRef.lean ====
/-
  A host operation's result is written into a buffer whose declared type is, by a stated equation, the type of the value;
  the value is carried along that equation into the buffer and, when a later operation reads it, carried back. Carried
  there and back, a value is itself: the two transports cancel, whatever the value is.
-/
import Idealize.ShloMosaic.Lib.StableHlo

namespace Cert.Lib.TypedRef

open Idealize.ShloMosaic

/-- Contents carried to a typed reference's buffer type and back are the contents. -/
theorem ofBuf_toBuf {sg : RefSig} {T : BufTy} {Val : EltTy → Type} (x : StableHlo.TRef sg T) (v : T.Contents Val) :
    x.ofBuf (x.toBuf v) = v := by
  obtain ⟨r, h, _, _⟩ := x
  subst h
  rfl

/-- Contents of the buffer's type carried to the value's type and back are the contents. -/
theorem toBuf_ofBuf {sg : RefSig} {T : BufTy} {Val : EltTy → Type} (x : StableHlo.TRef sg T) (v : x.ref.ty.Contents Val) :
    x.toBuf (x.ofBuf v) = v := by
  obtain ⟨r, h, _, _⟩ := x
  subst h
  rfl

end Cert.Lib.TypedRef
-- ==== Proof.RefRun.lean ====
/-
  The reference's run, read back against its stages.

  The reference is a straight line of 137 host operations, each writing one buffer once. Folding the operations over the
  launch contents and reading the result buffer gives, operation by operation, the stage that operation computes from the
  stages of its operands; the last stage is the score. One operation joins two arrays along an axis and takes them as a list
  of (shape, array) pairs: the two arrays are named as plain arguments first, so that the read-back reaches them like any
  other operand. The operations of the called rectifier write through typed references, whose two transports cancel.
-/
import proofs.«174119_j9096740733368_2_alg».proof.Proof.RefOpsP
import proofs.«174119_j9096740733368_2_alg».proof.Proof.RefReadP
import proofs.«174119_j9096740733368_2_alg».proof.Proof.LibTypedRef
import Idealize.ShloMosaic.Lib.StableHlo.Run

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Two arrays joined along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concat2_fold {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = concat2 t a s₁ s₂ x y h := rfl

/-- What a buffer holds after a line of operations, as one pass: each operation's result at its own buffer is its function
    of its operands' contents, at any other buffer what was there; a join's two operands are reached through `concat2`,
    and a value carried to a typed reference's buffer type and back is the value. -/
macro "after_results_join" : tactic =>
  `(tactic| (simp (disch := decide) only [after_cons, after_nil, concat2_fold,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.Lib.TypedRef.ofBuf_toBuf, cast_eq]))

set_option maxRecDepth 65536 in
set_option maxHeartbeats 4000000 in
/-- After the 137 operations the result buffer holds the last stage of the arguments' contents. -/
theorem after_v111 (V : Valuation τ sig (Elt F)) :
    StableHlo.after (Cert.ReferenceIdeal.Value.ops (F := F)) V (Proc.devRef .tc main_v111)
      = Cert.ReferenceIdeal.Read.val_main_v111 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  after_results_join
  rfl

set_option maxRecDepth 8192 in
set_option maxHeartbeats 54800000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v111).trans (after_v111 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.RefRun

end
-- ==== Proof.lean ====
/-
  The certificate of a masked friend-attention memory network's score kernel against its plain reference.

  A batch of 4096 rows: per row a user embedding, 64 friend embeddings with a 0/1 mask, an item embedding and bias.  The
  attention keys (normalised user x normalised masked friend, contracted with Key) are soft-maxed over the BATCH.  The
  kernel does this in two pallas_calls: the first keeps, per core, a running maximum M and running sum S of exp (key - M)
  over tiles of 64 rows (from (-inf, 0); a tile with largest key K turns (M, S) into (max M K, S * exp (M - max M K) + the
  tile's sum of exp (key - max M K))); the host merges the two cores, G = max M0 M1, T = S0 * exp (M0 - G) + S1 * exp (M1 - G);
  the second call computes every row's score from G and T.  The reference takes the batch maximum and the sum of
  exp (key - maximum) directly.  On the extended reals the two agree when every key is a real number — which the
  precondition (finite inputs) gives: exp (a - M) * exp (M - M') = exp (a - M') on the reals — and everything else is the
  same arithmetic in another arrangement (tiles of rows; a contraction with the two halves of a matrix against a
  contraction with the whole matrix over the two vectors laid side by side).

  Frames: the generated frame certificates of the kernel at words and at extended reals; the reference's run with its
  result dropped.  The idealization rewrote no operation, so there is nothing to preserve.  Algebraic: both runs end
  with entry b of the result at the specification's score of row b (Proof/Spec.lean) of arguments that agree.
-/
import proofs.«174119_j9096740733368_2_alg».proof.Defs
import proofs.«174119_j9096740733368_2_alg».proof.Proof.Gen.Kernel
import proofs.«174119_j9096740733368_2_alg».proof.Proof.Gen.Kernel.Skeleton
import proofs.«174119_j9096740733368_2_alg».proof.Proof.Gen.Kernel.Launch
import proofs.«174119_j9096740733368_2_alg».proof.Proof.Gen.Kernel.Points
import proofs.«174119_j9096740733368_2_alg».proof.Proof.Gen.Kernel.Frame
import proofs.«174119_j9096740733368_2_alg».proof.Proof.Gen.KernelIdeal
import proofs.«174119_j9096740733368_2_alg».proof.Proof.Gen.KernelIdeal.Skeleton
import proofs.«174119_j9096740733368_2_alg».proof.Proof.Gen.KernelIdeal.Launch
import proofs.«174119_j9096740733368_2_alg».proof.Proof.Gen.KernelIdeal.Points
import proofs.«174119_j9096740733368_2_alg».proof.Proof.Gen.KernelIdeal.Frame
import proofs.«174119_j9096740733368_2_alg».proof.Proof.Gen.ReferenceIdeal
import proofs.«174119_j9096740733368_2_alg».proof.Proof.Gen.Pre_finite_inputs
import proofs.«174119_j9096740733368_2_alg».proof.Proof.Bridge
import proofs.«174119_j9096740733368_2_alg».proof.Proof.RefTotal
import proofs.«174119_j9096740733368_2_alg».proof.Proof.RefRun
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- Both runs end with entry b of the result at the specification's score of row b. -/
theorem algebraic : Cert.algebraic_KernelIdeal_ReferenceIdeal := by
  intro m ρ m' ρ' hpre hagree
  refine ⟨fun c => fun i => Cert.Spec.total (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (Cert.ReferenceIdeal.Read.val_main_v30 (F := Ideal) (m ((c.tc : Thread Cert.KernelIdeal.nD Cert.KernelIdeal.τ).loc Cert.KernelIdeal.main_arg2)))
      (Cert.ReferenceIdeal.Read.val_main_v27 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
      (Cert.ReferenceIdeal.Read.val_main_v20 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5))) ⟨(i 0).val, (i 0).isLt⟩, ?_, ?_⟩
  · refine (θ_run Cert.KernelIdeal.defs _ _).mono (fun r h c => ⟨?_, (h c).2⟩) (Cert.KernelIdeal.KRun.run_value (F := Ideal) m ρ)
    rw [(h c).1]
    funext i
    obtain ⟨b, rfl⟩ : ∃ b : Fin 4096, i = ix1 b := ⟨i 0, eq_ix1 i⟩
    exact Cert.KernelIdeal.Bridge.kernel_total m ρ c (hpre c) b
  · refine (θ_run Cert.ReferenceIdeal.defs _ _).mono (fun r h c => ⟨?_, (h c).2⟩) (Cert.RefRun.run (F := Ideal) m' ρ')
    rw [(h c).1]
    obtain ⟨g0, g1, g2, g3, g4, g5, g6, g7, g8, g9, g10, g11⟩ := hagree c
    rw [g0, g1, g2, g3, g4, g5, g6, g7, g8, g9, g10, g11]
    funext i
    obtain ⟨b, rfl⟩ : ∃ b : Fin 4096, i = ix1 b := ⟨i 0, eq_ix1 i⟩
    exact Cert.RefTotal.ref_total _ _ _ _ _ _ _ _ _ _ _ _ b

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
